-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x4096 : Shape := ⟨3, ![1, 8192, 4096]⟩
abbrev S256x4096 : Shape := ⟨2, ![256, 4096]⟩
abbrev S4096x4096 : Shape := ⟨2, ![4096, 4096]⟩
abbrev S4096 : Shape := ⟨1, ![4096]⟩
abbrev S_ : Shape := ⟨0, ![]⟩

class Facts : Prop where
  bcast_S_S1x8192x4096 : S_.BroadcastsInDim S1x8192x4096 (![] : Fin 0 → Fin S1x8192x4096.rank)
  reducesTo_S1x8192x4096_S_d0_1_2 : S1x8192x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S1x8192x4096 .f32) (main_arg1 : FVec F S256x4096 .f32) (main_arg2 : FVec F S4096x4096 .f32) (main_arg3 : FVec F S4096 .f32) (main_arg4 : FVec F S4096x4096 .f32) (main_arg5 : FVec F S4096 .f32) : IVec S_ 1 :=
  let main_v0 : FVec F S1x8192x4096 .f32 := Host.absf main_arg0
  let main_cst : FVec F S_ .f32 := constant S_ .f32 0x7F800000#32
  let main_v1 : FVec F S1x8192x4096 .f32 := broadcastInDim S1x8192x4096 ![] bcast_S_S1x8192x4096 main_cst
  let main_v2 : IVec S1x8192x4096 1 := cmpf .olt main_v0 main_v1
  let main_c : IVec S_ 1 := constantI S_ 1 1#1
  let main_v3 : IVec S_ 1 := (fun x v => Host.reduce IntOp.andi x v reducesTo_S1x8192x4096_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S1x8192x4096 : Shape := ⟨3, ![1, 8192, 4096]⟩
abbrev S256x4096 : Shape := ⟨2, ![256, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩
abbrev S1024x2048 : Shape := ⟨2, ![1024, 2048]⟩
abbrev S1x2048 : Shape := ⟨2, ![1, 2048]⟩
abbrev S128x4096 : Shape := ⟨2, ![128, 4096]⟩
abbrev S512x4096 : Shape := ⟨2, ![512, 4096]⟩
abbrev S128x1 : Shape := ⟨2, ![128, 1]⟩
abbrev S128x512 : Shape := ⟨2, ![128, 512]⟩
abbrev S128 : Shape := ⟨1, ![128]⟩
abbrev S1x256x4096 : Shape := ⟨3, ![1, 256, 4096]⟩

abbrev nBuf : Space → Nat
  | .hbm => 18
  | .vmem => 29
  | .smem => 0
  | _ => 0

abbrev bufTy : (tb : Table) → Fin (tcTables nBuf tb) → BufTy
  | .hbm, ⟨0, _⟩ => ⟨S1x8192x4096, .f32⟩
  | .hbm, ⟨1, _⟩ => ⟨S256x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S8192x4096, .f32⟩
  | .hbm, ⟨7, _⟩ => ⟨S8192x4096, .bf16⟩
  | .hbm, ⟨8, _⟩ => ⟨S4096x4096, .f32⟩
  | .hbm, ⟨9, _⟩ => ⟨S4096x4096, .bf16⟩
  | .hbm, ⟨10, _⟩ => ⟨S4096x4096, .f32⟩
  | .hbm, ⟨11, _⟩ => ⟨S4096x4096, .bf16⟩
  | .hbm, ⟨12, _⟩ => ⟨S1x4096, .f32⟩
  | .hbm, ⟨13, _⟩ => ⟨S1x4096, .f32⟩
  | .hbm, ⟨14, _⟩ => ⟨S8192x4096, .f32⟩
  | .hbm, ⟨15, _⟩ => ⟨S8192x4096, .bf16⟩
  | .hbm, ⟨16, _⟩ => ⟨S256x4096, .f32⟩
  | .hbm, ⟨17, _⟩ => ⟨S1x256x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S1x2048, .f32⟩
  | .local _ .vmem, ⟨15, _⟩ => ⟨S1024x2048, .bf16⟩
  | .local _ .vmem, ⟨16, _⟩ => ⟨S1024x2048, .bf16⟩
  | .local _ .vmem, ⟨17, _⟩ => ⟨S1024x2048, .f32⟩
  | .local _ .vmem, ⟨18, _⟩ => ⟨S128x4096, .f32⟩
  | .local _ .vmem, ⟨19, _⟩ => ⟨S128x4096, .f32⟩
  | .local _ .vmem, ⟨20, _⟩ => ⟨S512x4096, .f32⟩
  | .local _ .vmem, ⟨21, _⟩ => ⟨S512x4096, .f32⟩
  | .local _ .vmem, ⟨22, _⟩ => ⟨S512x4096, .bf16⟩
  | .local _ .vmem, ⟨23, _⟩ => ⟨S512x4096, .bf16⟩
  | .local _ .vmem, ⟨24, _⟩ => ⟨S128x4096, .f32⟩
  | .local _ .vmem, ⟨25, _⟩ => ⟨S128x4096, .f32⟩
  | .local _ .vmem, ⟨26, _⟩ => ⟨S128x1, .f32⟩
  | .local _ .vmem, ⟨27, _⟩ => ⟨S128x1, .f32⟩
  | .local _ .vmem, ⟨28, _⟩ => ⟨S128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc2_scratch1 : Ref sig .tc := ⟨.vmem, 27, rfl⟩
abbrev cc2_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_23 : BitVec 32 := 0#32
  let v41 : BitVec 1 := Scalar.cmpi .ne v40 c0_i32_23
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S1x8192x4096_S8192x4096 : S1x8192x4096.ShapeCasts S8192x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S128x512_S128 : S128x512.Reduces [1] S128
  shapeCasts_S128_S128x1 : S128.ShapeCasts S128x1
  broadcasts_S128x1_S128x512 : S128x1.Broadcasts S128x512
  broadcasts_S128x1_S128x4096 : S128x1.Broadcasts S128x4096
  bcast_S256x4096_S1x256x4096_1_2 : S256x4096.BroadcastsInDim S1x256x4096 (![1, 2] : Fin 2 → Fin S1x256x4096.rank)
  dot_S1024x1024_S1024x1024_S1024x1024_1_0_0_1_n_n_wf : DotDims.WF S1024x1024 S1024x1024 S1024x1024 [1] [0] [0] [1] [] []
  dot_S1024x1024_S1024x2048_S1024x2048_1_0_0_1_n_n_wf : DotDims.WF S1024x1024 S1024x2048 S1024x2048 [1] [0] [0] [1] [] []
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .bf16 = 32 ∨ (Rect.block (s := S8192x4096) S1024x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S256x4096.size a
  hwx2_0 : ∀ i : grid2.Coords, EltTy.bits .f32 = 32 ∨ (Rect.block (s := S256x4096) S128x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S8192x4096.size a
  hwx2_1 : ∀ i : grid2.Coords, EltTy.bits .f32 = 32 ∨ (Rect.block (s := S8192x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S8192x4096.size a
  hwx2_2 : ∀ i : grid2.Coords, EltTy.bits .bf16 = 32 ∨ (Rect.block (s := S8192x4096) S512x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x4096.size a ≤ S256x4096.size a
  hwx2_3 : ∀ i : grid2.Coords, EltTy.bits .f32 = 32 ∨ (Rect.block (s := S256x4096) S128x4096.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S128x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S128x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1x8192x4096 : Shape := ⟨3, ![1, 8192, 4096]⟩
abbrev S256x4096 : Shape := ⟨2, ![256, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S4096x8192 : Shape := ⟨2, ![4096, 8192]⟩
abbrev S256x8192 : Shape := ⟨2, ![256, 8192]⟩
abbrev S_ : Shape := ⟨0, ![]⟩
abbrev S256 : Shape := ⟨1, ![256]⟩
abbrev S256x1 : Shape := ⟨2, ![256, 1]⟩
abbrev S1x256x4096 : Shape := ⟨3, ![1, 256, 4096]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S256x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S4096x8192, .f32⟩
  | .hbm, ⟨18, _⟩ => ⟨S256x8192, .f32⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256x1, .f32⟩
  | .hbm, ⟨25, _⟩ => ⟨S256x8192, .f32⟩
  | .hbm, ⟨26, _⟩ => ⟨S256x8192, .f32⟩
  | .hbm, ⟨27, _⟩ => ⟨S256x8192, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S256x8192, .f32⟩
  | .hbm, ⟨32, _⟩ => ⟨S256x8192, .f32⟩
  | .hbm, ⟨33, _⟩ => ⟨S256x4096, .f32⟩
  | .hbm, ⟨34, _⟩ => ⟨S1x256x4096, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S1x8192x4096_S8192x4096 : S1x8192x4096.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S8192x4096_S4096x8192_1_0 : S8192x4096.Transposes [1, 0] S4096x8192
  reducesTo_S256x8192_S256_d1 : S256x8192.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bcast_S256x4096_S1x256x4096_1_2 : S256x4096.BroadcastsInDim S1x256x4096 (![1, 2] : Fin 2 → Fin S1x256x4096.rank)
  dot_S8192x4096_S4096x4096_S8192x4096_1_0_0_1_n_n_wf : DotDims.WF S8192x4096 S4096x4096 S8192x4096 [1] [0] [0] [1] [] []
  dot_S256x4096_S4096x8192_S256x8192_1_0_0_1_n_n_wf : DotDims.WF S256x4096 S4096x8192 S256x8192 [1] [0] [0] [1] [] []
  dot_S256x8192_S8192x4096_S256x4096_1_0_0_1_n_n_wf : DotDims.WF S256x8192 S8192x4096 S256x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S256x4096_S4096x8192_S256x8192_1_0_0_1_n_n : DotDims S256x4096 S4096x8192 S256x8192 where
  lhsContracting := [1]
  rhsContracting := [0]
  lhsNonContracting := [0]
  rhsNonContracting := [1]
  lhsBatch := []
  rhsBatch := []
  wf := dot_S256x4096_S4096x8192_S256x8192_1_0_0_1_n_n_wf
def dot_S256x8192_S8192x4096_S256x4096_1_0_0_1_n_n : DotDims S256x8192 S8192x4096 S256x4096 where
  lhsContracting := [1]
  rhsContracting := [0]
  lhsNonContracting := [0]
  rhsNonContracting := [1]
  lhsBatch := []
  rhsBatch := []
  wf := dot_S256x8192_S8192x4096_S256x4096_1_0_0_1_n_n_wf

class Facts : Prop extends Facts₀ where

variable [Facts]
-- ==== Proof.KFrame0Defs.lean ====
/-
  Region 0 (the keys projection): what its three control cases share, and each case's run.

  The grid is 8 x 4 x 4; the last coordinate k walks the contraction in four blocks. At k = 0 the accumulator scratch is
  reset and the first block product added; at k = 1, 2 a block product is added to what the point before left; at k = 3 the
  last block product is added and the accumulator plus the bias row is stored into the output block. The output block is
  touched only at k = 3 and written back only there.
-/
import proofs.«100994_j40140764348434_2_alg».proof.Proof.Gen.Kernel.Launch
import proofs.«100994_j40140764348434_2_alg».proof.Proof.Gen.Kernel.Skeleton
import proofs.«100994_j40140764348434_2_alg».proof.Proof.Gen.Kernel.Points
import proofs.«100994_j40140764348434_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The accumulator is reset: the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The output block is stored: the contraction coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1024 .f32 := (Memref.whole cc0_stg3_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator scratch, a whole scoped buffer of the kernel's own. -/
abbrev scM0_0 : Memref sig .tc .vmem S1024x1024 .f32 := Memref.whole cc0_scratch0
abbrev VS0_0 : View sig .tc .vmem S1024x1024 .f32 := scM0_0.view

/-- The core's other scoped buffers (the other regions' staging buffers and scratch), carried unopened. -/
abbrev rest0 (c : Dev nD) : sProp 𝕄 :=
  Pipeline.scopedRestBut (Ix := Unit) (Name := ℕ) (U := UR sig nD τ) (Lvl := ℕ) (Val := Elt F) spec0 c [cc0_scratch0]

/-- The scoped rest and the generator register, with the accumulator scratch as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.Kernel.Fr

end
-- ==== Proof.KFrame0RunA.lean ====
/-
  Region 0 (the keys projection): the body's run in each of its three control cases, on whole staging memrefs.
  Each run leaves the inputs as they were; the pieces the accumulator scratch (and, in the last case, the output block) end
  with are found by the run itself.
-/
import proofs.«100994_j40140764348434_2_alg».proof.Proof.KFrame0Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (contraction coordinate 0): the accumulator is reset, then the first block product added. The output block is not touched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__proj_kernel i arg3 harg3 arg4 harg4 arg5 harg5 arg6 harg6 arg7 harg7) K } := by
  refine ⟨[], ?_, fun xi3 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KFrame0RunB.lean ====
/-
  Region 0 (the keys projection): the body's run in the middle case — a block product added to the accumulator the point
  before left; the output block is not touched.
-/
import proofs.«100994_j40140764348434_2_alg».proof.Proof.KFrame0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (contraction coordinate 1 or 2). -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__proj_kernel i arg3 harg3 arg4 harg4 arg5 harg5 arg6 harg6 arg7 harg7) K } := by
  refine ⟨[], ?_, fun xi3 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KFrame0RunC.lean ====
/-
  Region 0 (the keys projection): the body's run in the last case — the last block product added to the accumulator the
  point before left, then the accumulator plus the bias row stored into the output block.
-/
import proofs.«100994_j40140764348434_2_alg».proof.Proof.KFrame0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (contraction coordinate 3). -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__proj_kernel i arg3 harg3 arg4 harg4 arg5 harg5 arg6 harg6 arg7 harg7) K } := by
  refine ⟨?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KFrame0.lean ====
/-
  Region 0 (the keys projection): what the accumulator scratch and the output block hold after each grid point, the
  invariant that carries the accumulator from point to point, the proof data of the region at any entry contents `V`, and
  the body obligation.

  After a point with contraction coordinate 0 the accumulator holds the reset value plus the first block product; after a
  point with coordinate 1, 2 or 3 it holds what the point before left plus that point's block product; after a point with
  coordinate 3 the output block holds the accumulator plus the bias row. Between two points the pipeline does not touch the
  scratch, so the invariant before point n + 1 is: the scratch at what point n left, every other scoped buffer at anything.
-/
import proofs.«100994_j40140764348434_2_alg».proof.Proof.KFrame0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A's pieces cover the accumulator scratch. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y
/-- What case A leaves in the accumulator scratch. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y
/-- What case B leaves in the accumulator scratch. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y
/-- What case C leaves in the accumulator scratch. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)
/-- Case C's pieces cover the output block. -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y
/-- What case C leaves in the output block. -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-! ## Point by point -/

/-- THE ACCUMULATION: what the accumulator scratch holds after the body at position `n`. -/
def accAt0 (c : Dev nD) : (n : ℕ) → n < cfg0.N → Vec F S1024x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at a point with contraction coordinate 3 what
    case C stores; elsewhere the block is neither stored nor written back, and this value is consulted by nothing. -/
def outAt0 (c : Dev nD) (t : Fin cfg0.N) : Vec F S1024x1024 .f32 :=
  if h1 : t.val % 4 = 3 then
    out0_C c (grid0.coords t) (ms0_0 t) (hs0_0 t) (ms0_1 t) (hs0_1 t) (ms0_2 t) (hs0_2 t) (ms0_3 t) (hs0_3 t) scM0_0 (Memref.isWhole_whole _) (fun h => (fun h => by omega) ((hcond0_0 t).mp h)) ((hcond0_1 t).mpr h1) (iblk0 V c 0 t) (iblk0 V c 1 t) (iblk0 V c 2 t) (accAt0 V c (t.val - 1) (Nat.lt_of_le_of_lt (Nat.sub_le _ _) t.isLt))
  else VO0_3.read (Elt F) VO0_3.junk

theorem outAt0_C (c : Dev nD) (t : Fin cfg0.N) (h0 : ¬t.val % 4 = 0) (h1 : t.val % 4 = 3) :
    outAt0 V c t = out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  unfold outAt0; rw [dif_pos h1]

/-- The region invariant before position `n`: before the first point every scoped buffer at anything; afterwards the
    accumulator scratch at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ rest0 c) ∗ (∃ r, prngReg c r)) := by
  cases n with
  | zero => exact absurd rfl hz
  | succ n => rfl

/-! ## The proof data -/

/-- The proof data of region 0 on core `c`: the arrays as the region finds them; after the body each input's buffer at its
    block, the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d

end Region0

end Cert.Kernel.Fr

end
-- ==== Proof.KFrame0Body.lean ====
/-
  Region 0 (the keys projection): the body obligation. At every grid point the inputs' staging buffers hold their blocks;
  the closed forms of the branch conditions say which case the point is in; the invariant hands the body the accumulator
  scratch at what the point before left (at anything before the first point) and takes it back at this point's contents.
-/
import proofs.«100994_j40140764348434_2_alg».proof.Proof.KFrame0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_A V c t h0 h1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h0 h1]
      unfold out0_C sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped rest back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 128 := N_0; omega)

end Region0

end Cert.Kernel.Fr

end
-- ==== Proof.KFrame1Defs.lean ====
/-
  Region 1 (the values projection): what its three control cases share, and each case's run.

  The grid is 8 x 2 x 4; the last coordinate k walks the contraction in four blocks. At k = 0 the accumulator scratch is
  reset and the first block product added; at k = 1, 2 a block product is added to what the point before left; at k = 3 the
  last block product is added and the accumulator plus the bias row is stored into the output block. The output block is
  touched only at k = 3 and written back only there.
-/
import proofs.«100994_j40140764348434_2_alg».proof.Proof.Gen.Kernel.Launch
import proofs.«100994_j40140764348434_2_alg».proof.Proof.Gen.Kernel.Skeleton
import proofs.«100994_j40140764348434_2_alg».proof.Proof.Gen.Kernel.Points
import proofs.«100994_j40140764348434_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The accumulator is reset: the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The output block is stored: the contraction coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .bf16 := (Memref.whole cc1_stg3_0 : Memref sig .tc .vmem S1024x2048 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
/-- The accumulator scratch, a whole scoped buffer of the kernel's own. -/
abbrev scM1_0 : Memref sig .tc .vmem S1024x2048 .f32 := Memref.whole cc1_scratch0
abbrev VS1_0 : View sig .tc .vmem S1024x2048 .f32 := scM1_0.view

/-- The core's other scoped buffers (the other regions' staging buffers and scratch), carried unopened. -/
abbrev rest1 (c : Dev nD) : sProp 𝕄 :=
  Pipeline.scopedRestBut (Ix := Unit) (Name := ℕ) (U := UR sig nD τ) (Lvl := ℕ) (Val := Elt F) spec1 c [cc1_scratch0]

/-- The scoped rest and the generator register, with the accumulator scratch as a memref owned at some contents. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Fr

end
-- ==== Proof.KFrame1RunA.lean ====
/-
  Region 1 (the values projection): the body's run in each of its three control cases, on whole staging memrefs.
  Each run leaves the inputs as they were; the pieces the accumulator scratch (and, in the last case, the output block) end
  with are found by the run itself.
-/
import proofs.«100994_j40140764348434_2_alg».proof.Proof.KFrame1Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (contraction coordinate 0): the accumulator is reset, then the first block product added. The output block is not touched. -/
noncomputable def kernelRun1_A (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x1024 .bf16) (x1 : Vec F S1024x2048 .bf16) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__proj_kernel i arg3 harg3 arg4 harg4 arg5 harg5 arg6 harg6 arg7 harg7) K } := by
  refine ⟨[], ?_, fun xi3 E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KFrame1RunB.lean ====
/-
  Region 1 (the values projection): the body's run in the middle case — a block product added to the accumulator the point
  before left; the output block is not touched.
-/
import proofs.«100994_j40140764348434_2_alg».proof.Proof.KFrame1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (contraction coordinate 1 or 2). -/
noncomputable def kernelRun1_B (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x1024 .bf16) (x1 : Vec F S1024x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__proj_kernel i arg3 harg3 arg4 harg4 arg5 harg5 arg6 harg6 arg7 harg7) K } := by
  refine ⟨[], ?_, fun xi3 E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KFrame1RunC.lean ====
/-
  Region 1 (the values projection): the body's run in the last case — the last block product added to the accumulator the
  point before left, then the accumulator plus the bias row stored into the output block.
-/
import proofs.«100994_j40140764348434_2_alg».proof.Proof.KFrame1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (contraction coordinate 3). -/
noncomputable def kernelRun1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__proj_kernel i arg3 harg3 arg4 harg4 arg5 harg5 arg6 harg6 arg7 harg7) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KFrame1.lean ====
/-
  Region 1 (the values projection): what the accumulator scratch and the output block hold after each grid point, the
  invariant that carries the accumulator from point to point, the proof data of the region at any entry contents `V`, and
  the body obligation.

  After a point with contraction coordinate 0 the accumulator holds the reset value plus the first block product; after a
  point with coordinate 1, 2 or 3 it holds what the point before left plus that point's block product; after a point with
  coordinate 3 the output block holds the accumulator plus the bias row. Between two points the pipeline does not touch the
  scratch, so the invariant before point n + 1 is: the scratch at what point n left, every other scoped buffer at anything.
-/
import proofs.«100994_j40140764348434_2_alg».proof.Proof.KFrame1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's pieces cover the accumulator scratch. -/
theorem scover1_A (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x1024 .bf16) (x1 : Vec F S1024x2048 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y
/-- What case A leaves in the accumulator scratch. -/
def sout1_A (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x1024 .bf16) (x1 : Vec F S1024x2048 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

theorem scover1_B (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x1024 .bf16) (x1 : Vec F S1024x2048 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y
/-- What case B leaves in the accumulator scratch. -/
def sout1_B (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x1024 .bf16) (x1 : Vec F S1024x2048 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem scover1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
/-- What case C leaves in the accumulator scratch. -/
def sout1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)
/-- Case C's pieces cover the output block. -/
theorem cover1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
/-- What case C leaves in the output block. -/
def out1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) : Vec F S1024x2048 .bf16 :=
  VO1_3.read (Elt F) (VO1_3.writes (Elt F) VO1_3.junk (kernelRun1_C c i arg3 harg3 arg4 harg4 arg5 harg5 arg6 harg6 arg7 harg7 hc0 hc1 x0 x1 x2 xs0).1)

/-! ## Point by point -/

/-- THE ACCUMULATION: what the accumulator scratch holds after the body at position `n`. -/
def accAt1 (c : Dev nD) : (n : ℕ) → n < cfg1.N → Vec F S1024x2048 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at a point with contraction coordinate 3 what
    case C stores; elsewhere the block is neither stored nor written back, and this value is consulted by nothing. -/
def outAt1 (c : Dev nD) (t : Fin cfg1.N) : Vec F S1024x2048 .bf16 :=
  if h1 : t.val % 4 = 3 then
    out1_C c (grid1.coords t) (ms1_0 t) (hs1_0 t) (ms1_1 t) (hs1_1 t) (ms1_2 t) (hs1_2 t) (ms1_3 t) (hs1_3 t) scM1_0 (Memref.isWhole_whole _) (fun h => (fun h => by omega) ((hcond1_0 t).mp h)) ((hcond1_1 t).mpr h1) (iblk1 V c 0 t) (iblk1 V c 1 t) (iblk1 V c 2 t) (accAt1 V c (t.val - 1) (Nat.lt_of_le_of_lt (Nat.sub_le _ _) t.isLt))
  else VO1_3.read (Elt F) VO1_3.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  unfold outAt1; rw [dif_pos h1]

/-- The region invariant before position `n`: before the first point every scoped buffer at anything; afterwards the
    accumulator scratch at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ rest1 c) ∗ (∃ r, prngReg c r)) := by
  cases n with
  | zero => exact absurd rfl hz
  | succ n => rfl

/-! ## The proof data -/

/-- The proof data of region 1 on core `c`: the arrays as the region finds them; after the body each input's buffer at its
    block, the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

end Region1

end Cert.Kernel.Fr

end
-- ==== Proof.KFrame1Body.lean ====
/-
  Region 1 (the values projection): the body obligation. At every grid point the inputs' staging buffers hold their blocks;
  the closed forms of the branch conditions say which case the point is in; the invariant hands the body the accumulator
  scratch at what the point before left (at anything before the first point) and takes it back at this point's contents.
-/
import proofs.«100994_j40140764348434_2_alg».proof.Proof.KFrame1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [accAt1_A V c t h0 h1]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1, outAt1_C V c t h0 h1]
      unfold out1_C sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Fr

end
-- ==== Proof.KFrame2Defs.lean ====
/-
  Region 2 (attention over key/value tiles): what its three control cases share.

  The grid is 2 x 16: a block of 128 query rows, then 16 tiles of 512 key/value rows. Three scratch buffers are carried
  from tile to tile: the running row maximum, the running softmax denominator and the running weighted sum. At tile 0 they
  are reset (to minus infinity, zero and zero); at every tile they are updated; at tile 15 the weighted sum divided by the
  denominator is stored into the output block, which is touched and written back only there.
-/
import proofs.«100994_j40140764348434_2_alg».proof.Proof.Gen.Kernel.Launch
import proofs.«100994_j40140764348434_2_alg».proof.Proof.Gen.Kernel.Skeleton
import proofs.«100994_j40140764348434_2_alg».proof.Proof.Gen.Kernel.Points
import proofs.«100994_j40140764348434_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The running state is reset: the tile coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The output block is stored: the tile coordinate is 15. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S128x4096 .f32 := (Memref.whole cc2_stg3_0 : Memref sig .tc .vmem S128x4096 .f32).view
abbrev ms2_0 (t : Fin cfg2.N) : Memref sig .tc .vmem S128x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x4096 .f32 := win2_3.stage (cfg2.slots t 3)
abbrev hs2_3 (t : Fin cfg2.N) : (ms2_3 t).IsWhole := hstage2_3 ((cfg2.slots t 3).cast nbuf2_3)
/-- The three scratch buffers: the running maximum, the running denominator, the running weighted sum. -/
abbrev scM2_0 : Memref sig .tc .vmem S128x1 .f32 := Memref.whole cc2_scratch0
abbrev scM2_1 : Memref sig .tc .vmem S128x1 .f32 := Memref.whole cc2_scratch1
abbrev scM2_2 : Memref sig .tc .vmem S128x4096 .f32 := Memref.whole cc2_scratch2
abbrev VS2_0 : View sig .tc .vmem S128x1 .f32 := scM2_0.view
abbrev VS2_1 : View sig .tc .vmem S128x1 .f32 := scM2_1.view
abbrev VS2_2 : View sig .tc .vmem S128x4096 .f32 := scM2_2.view

/-- The core's other scoped buffers (the other regions' staging buffers and scratch), carried unopened. -/
abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The scoped rest and the generator register, with the three scratch buffers as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA
  rw [Pipeline.scopedRest_split_of_list spec2 c [cc2_scratch0, cc2_scratch1, cc2_scratch2] (by decide) (by decide)]
  simp only [bigSepL_cons_cons, bigSepL_singleton, scM2_0, scM2_1, scM2_2, owns_whole]; try rfl

end Cert.Kernel.Fr

end
-- ==== Proof.KFrame2RunA.lean ====
/-
  Region 2 (attention over key/value tiles): the body's run in the first case — tile 0: the running maximum, denominator and weighted sum are reset, then updated with the tile; the output block is not touched.
-/
import proofs.«100994_j40140764348434_2_alg».proof.Proof.KFrame2Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case A. -/
noncomputable def kernelRun2_A (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) :
    Σ' (L3 : List (View.Piece (Elt F) S128x4096 .f32)) (LS0 : List (View.Piece (Elt F) S128x1 .f32)) (LS1 : List (View.Piece (Elt F) S128x1 .f32)), { LS2 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, ?_, ?_, fun xi3 E K => ?run⟩
  case run =>
    haveI : Fact (cond2_0 i) := ⟨hc0⟩
    haveI : Fact (¬cond2_1 i) := ⟨hc1⟩
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.KFrame2RunB.lean ====
/-
  Region 2 (attention over key/value tiles): the body's run in the middle case — tiles 1 to 14: the running state the tile before left is updated with the tile; the output block is not touched.
-/
import proofs.«100994_j40140764348434_2_alg».proof.Proof.KFrame2RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case B. -/
noncomputable def kernelRun2_B (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    Σ' (L3 : List (View.Piece (Elt F) S128x4096 .f32)) (LS0 : List (View.Piece (Elt F) S128x1 .f32)) (LS1 : List (View.Piece (Elt F) S128x1 .f32)), { LS2 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, ?_, ?_, fun xi3 E K => ?run⟩
  case run =>
    haveI : Fact (¬cond2_0 i) := ⟨hc0⟩
    haveI : Fact (¬cond2_1 i) := ⟨hc1⟩
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.KFrame2RunC.lean ====
/-
  Region 2 (attention over key/value tiles): the body's run in the last case — tile 15: the running state the tile before left is updated with the tile, then the weighted sum divided by the denominator is stored into the output block.
-/
import proofs.«100994_j40140764348434_2_alg».proof.Proof.KFrame2RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case C. -/
noncomputable def kernelRun2_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    Σ' (L3 : List (View.Piece (Elt F) S128x4096 .f32)) (LS0 : List (View.Piece (Elt F) S128x1 .f32)) (LS1 : List (View.Piece (Elt F) S128x1 .f32)), { LS2 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨?_, ?_, ?_, ?_, fun E K => ?run⟩
  case run =>
    haveI : Fact (¬cond2_0 i) := ⟨hc0⟩
    haveI : Fact (cond2_1 i) := ⟨hc1⟩
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Fr

end
-- ==== Proof.KFrame2.lean ====
/-
  Region 2 (attention over key/value tiles): what the three scratch buffers and the output block hold after each grid
  point, the invariant that carries the running state from tile to tile, and the proof data of the region at any entry
  contents `V`.

  After tile 0 the scratch buffers hold the reset state updated with that tile; after a later tile they hold the state the
  tile before left, updated with the tile; after tile 15 the output block holds the weighted sum divided by the denominator.
-/
import proofs.«100994_j40140764348434_2_alg».proof.Proof.KFrame2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A's pieces cover the running maximum scratch. -/
theorem scover2_A_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) (y : S128x1.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S128x1.size (by sl_kernel_rfl) y
/-- What case A leaves in the running maximum scratch. -/
def sout2_A_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) : Vec F S128x1 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2).2.1)

/-- Case A's pieces cover the running denominator scratch. -/
theorem scover2_A_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) (y : S128x1.Idx) :
    ∃ pc ∈ (kernelRun2_A c i arg2 harg2 arg3 harg3 arg4 harg4 arg5 harg5 arg6 harg6 arg7 harg7 arg8 harg8 hc0 hc1 x0 x1 x2).2.2.1, y ∈ pc.1.set :=
  View.cover_of_tiledL (kernelRun2_A c i arg2 harg2 arg3 harg3 arg4 harg4 arg5 harg5 arg6 harg6 arg7 harg7 arg8 harg8 hc0 hc1 x0 x1 x2).2.2.1 S128x1.size (by sl_kernel_rfl) y
/-- What case A leaves in the running denominator scratch. -/
def sout2_A_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) : Vec F S128x1 .f32 :=
  VS2_1.read (Elt F) (VS2_1.writes (Elt F) VS2_1.junk (kernelRun2_A c i arg2 harg2 arg3 harg3 arg4 harg4 arg5 harg5 arg6 harg6 arg7 harg7 arg8 harg8 hc0 hc1 x0 x1 x2).2.2.1)

/-- Case A's pieces cover the running weighted sum scratch. -/
theorem scover2_A_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) (y : S128x4096.Idx) :
    ∃ pc ∈ (kernelRun2_A c i arg2 harg2 arg3 harg3 arg4 harg4 arg5 harg5 arg6 harg6 arg7 harg7 arg8 harg8 hc0 hc1 x0 x1 x2).2.2.2.1, y ∈ pc.1.set :=
  View.cover_of_tiledL (kernelRun2_A c i arg2 harg2 arg3 harg3 arg4 harg4 arg5 harg5 arg6 harg6 arg7 harg7 arg8 harg8 hc0 hc1 x0 x1 x2).2.2.2.1 S128x4096.size (by sl_kernel_rfl) y
/-- What case A leaves in the running weighted sum scratch. -/
def sout2_A_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) : Vec F S128x4096 .f32 :=
  VS2_2.read (Elt F) (VS2_2.writes (Elt F) VS2_2.junk (kernelRun2_A c i arg2 harg2 arg3 harg3 arg4 harg4 arg5 harg5 arg6 harg6 arg7 harg7 arg8 harg8 hc0 hc1 x0 x1 x2).2.2.2.1)

/-- Case B's pieces cover the running maximum scratch. -/
theorem scover2_B_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun2_B c i arg2 harg2 arg3 harg3 arg4 harg4 arg5 harg5 arg6 harg6 arg7 harg7 arg8 harg8 hc0 hc1 x0 x1 x2 xs0 xs1 xs2).2.1 S128x1.size (by sl_kernel_rfl) y
/-- What case B leaves in the running maximum scratch. -/
def sout2_B_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1 xs2).2.1)

/-- Case B's pieces cover the running denominator scratch. -/
theorem scover2_B_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun2_B c i arg2 harg2 arg3 harg3 arg4 harg4 arg5 harg5 arg6 harg6 arg7 harg7 arg8 harg8 hc0 hc1 x0 x1 x2 xs0 xs1 xs2).2.2.1 S128x1.size (by sl_kernel_rfl) y
/-- What case B leaves in the running denominator scratch. -/
def sout2_B_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1 xs2).2.2.1)

/-- Case B's pieces cover the running weighted sum scratch. -/
theorem scover2_B_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x4096.Idx) :
    ∃ pc ∈ (kernelRun2_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun2_B c i arg2 harg2 arg3 harg3 arg4 harg4 arg5 harg5 arg6 harg6 arg7 harg7 arg8 harg8 hc0 hc1 x0 x1 x2 xs0 xs1 xs2).2.2.2.1 S128x4096.size (by sl_kernel_rfl) y
/-- What case B leaves in the running weighted sum scratch. -/
def sout2_B_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x4096 .f32 :=
  VS2_2.read (Elt F) (VS2_2.writes (Elt F) VS2_2.junk (kernelRun2_B c i arg2 harg2 arg3 harg3 arg4 harg4 arg5 harg5 arg6 harg6 arg7 harg7 arg8 harg8 hc0 hc1 x0 x1 x2 xs0 xs1 xs2).2.2.2.1)

/-- Case C's pieces cover the running maximum scratch. -/
theorem scover2_C_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun2_C c i arg2 harg2 arg3 harg3 arg4 harg4 arg5 harg5 arg6 harg6 arg7 harg7 arg8 harg8 hc0 hc1 x0 x1 x2 xs0 xs1 xs2).2.1 S128x1.size (by sl_kernel_rfl) y
/-- What case C leaves in the running maximum scratch. -/
def sout2_C_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 xs0 xs1 xs2).2.1)

/-- Case C's pieces cover the running denominator scratch. -/
theorem scover2_C_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun2_C c i arg2 harg2 arg3 harg3 arg4 harg4 arg5 harg5 arg6 harg6 arg7 harg7 arg8 harg8 hc0 hc1 x0 x1 x2 xs0 xs1 xs2).2.2.1 S128x1.size (by sl_kernel_rfl) y
/-- What case C leaves in the running denominator scratch. -/
def sout2_C_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_1.read (Elt F) (VS2_1.writes (Elt F) VS2_1.junk (kernelRun2_C c i arg2 harg2 arg3 harg3 arg4 harg4 arg5 harg5 arg6 harg6 arg7 harg7 arg8 harg8 hc0 hc1 x0 x1 x2 xs0 xs1 xs2).2.2.1)

/-- Case C's pieces cover the running weighted sum scratch. -/
theorem scover2_C_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x4096.Idx) :
    ∃ pc ∈ (kernelRun2_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun2_C c i arg2 harg2 arg3 harg3 arg4 harg4 arg5 harg5 arg6 harg6 arg7 harg7 arg8 harg8 hc0 hc1 x0 x1 x2 xs0 xs1 xs2).2.2.2.1 S128x4096.size (by sl_kernel_rfl) y
/-- What case C leaves in the running weighted sum scratch. -/
def sout2_C_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x4096 .f32 :=
  VS2_2.read (Elt F) (VS2_2.writes (Elt F) VS2_2.junk (kernelRun2_C c i arg2 harg2 arg3 harg3 arg4 harg4 arg5 harg5 arg6 harg6 arg7 harg7 arg8 harg8 hc0 hc1 x0 x1 x2 xs0 xs1 xs2).2.2.2.1)

/-- Case C's pieces cover the output block. -/
theorem cover2_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x4096.Idx) :
    ∃ pc ∈ (kernelRun2_C c i arg2 harg2 arg3 harg3 arg4 harg4 arg5 harg5 arg6 harg6 arg7 harg7 arg8 harg8 hc0 hc1 x0 x1 x2 xs0 xs1 xs2).1, y ∈ pc.1.set :=
  View.cover_of_tiledL (kernelRun2_C c i arg2 harg2 arg3 harg3 arg4 harg4 arg5 harg5 arg6 harg6 arg7 harg7 arg8 harg8 hc0 hc1 x0 x1 x2 xs0 xs1 xs2).1 S128x4096.size (by sl_kernel_rfl) y
/-- What case C leaves in the output block. -/
def out2_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x4096 .f32 :=
  VO2_3.read (Elt F) (VO2_3.writes (Elt F) VO2_3.junk (kernelRun2_C c i arg2 harg2 arg3 harg3 arg4 harg4 arg5 harg5 arg6 harg6 arg7 harg7 arg8 harg8 hc0 hc1 x0 x1 x2 xs0 xs1 xs2).1)

/-! ## Point by point -/

/-- THE RUNNING STATE: what the three scratch buffers (maximum, denominator, weighted sum) hold after the body at position `n`. -/
def stAt2 (c : Dev nD) : (n : ℕ) → n < cfg2.N → Vec F S128x1 .f32 × Vec F S128x1 .f32 × Vec F S128x4096 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      (sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2)
      else
        (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2)

theorem stAt2_A (c : Dev nD) (t : Fin cfg2.N) (h0 : t.val % 16 = 0) (h1 : ¬t.val % 16 = 15) :
    stAt2 V c t.val t.isLt = (sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => (fun h => by (try dsimp only at h); omega) ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => (fun h => by (try dsimp only at h); omega) ((hcond2_1 t).mp h)) (iblk2 V c 0 t) (iblk2 V c 1 t) (iblk2 V c 2 t), sout2_A_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => (fun h => by (try dsimp only at h); omega) ((hcond2_1 t).mp h)) (iblk2 V c 0 t) (iblk2 V c 1 t) (iblk2 V c 2 t)) := by
  obtain ⟨n, hn⟩ := t
  cases n with
  | zero => exact rfl
  | succ n => exact (dif_pos h0).trans rfl

theorem stAt2_B (c : Dev nD) (t : Fin cfg2.N) (h0 : ¬t.val % 16 = 0) (h1 : ¬t.val % 16 = 15) :
    stAt2 V c t.val t.isLt = (sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_B_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem stAt2_C (c : Dev nD) (t : Fin cfg2.N) (h0 : ¬t.val % 16 = 0) (h1 : t.val % 16 = 15) :
    stAt2 V c t.val t.isLt = (sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_C_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at tile 15 what case C stores; elsewhere the
    block is neither stored nor written back, and this value is consulted by nothing. -/
def outAt2 (c : Dev nD) (t : Fin cfg2.N) : Vec F S128x4096 .f32 :=
  if h1 : t.val % 16 = 15 then
    out2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => (fun h => by omega) ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2
  else VO2_3.read (Elt F) VO2_3.junk

theorem outAt2_C (c : Dev nD) (t : Fin cfg2.N) (h0 : ¬t.val % 16 = 0) (h1 : t.val % 16 = 15) :
    outAt2 V c t = out2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2 := by
  unfold outAt2; rw [dif_pos h1]

/-- The region invariant before position `n`: before the first point every scoped buffer at anything; afterwards the three
    scratch buffers at what the point before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (stAt2 V c n hn).1 ∗ owns (c : Thread nD τ) scM2_1 fullShare (stAt2 V c n hn).2.1 ∗ owns (c : Thread nD τ) scM2_2 fullShare (stAt2 V c n hn).2.2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (stAt2 V c n hn).1 ∗ owns (c : Thread nD τ) scM2_1 fullShare (stAt2 V c n hn).2.1 ∗ owns (c : Thread nD τ) scM2_2 fullShare (stAt2 V c n hn).2.2) ∗ rest2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (stAt2 V c (n - 1) (by omega)).1 ∗ owns (c : Thread nD τ) scM2_1 fullShare (stAt2 V c (n - 1) (by omega)).2.1 ∗ owns (c : Thread nD τ) scM2_2 fullShare (stAt2 V c (n - 1) (by omega)).2.2) ∗ rest2 c) ∗ (∃ r, prngReg c r)) := by
  cases n with
  | zero => exact absurd rfl hz
  | succ n => rfl

/-! ## The proof data -/

/-- The proof data of region 2 on core `c`: the arrays as the region finds them; after the body each input's buffer at its
    block, the output's at `outAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem PhiS2_castSucc (c : Dev nD) (t : Fin cfg2.N) : (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d

end Region2

end Cert.Kernel.Fr

end
-- ==== Proof.KFrame2Body.lean ====
/-
  Region 2 (attention over key/value tiles): the body obligation. At every grid point the inputs' staging buffers hold
  their blocks; the closed forms of the branch conditions say which case the point is in; the invariant hands the body the
  three scratch buffers at what the tile before left (at anything before the first point) and takes them back at this
  tile's contents.
-/
import proofs.«100994_j40140764348434_2_alg».proof.Proof.KFrame2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [stAt2_A V c t h0 h1]
    (try dsimp only)
    unfold sout2_A_0 sout2_A_1 sout2_A_2; (try dsimp only)
    by_cases hz : t.val = 0
    · rw [PhiS2_castSucc V c t, PhiS2_zero V c _ _ hz, PhiA2_eq]
      iintro ⟨⟨⟨⟨HS0, HS1, HS2⟩, Hr⟩, Hg⟩, Ho, ⟨%d0, H0⟩, ⟨%d1, H1⟩, ⟨%d2, H2⟩, ⟨%d3, H3⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [stAt2_C V c t h0 h1, outAt2_C V c t h0 h1]
      (try dsimp only)
      unfold out2_C sout2_C_0 sout2_C_1 sout2_C_2; (try dsimp only)
      rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _)
            unfold owns; iexists _; isplitr
            swap; · iexact HS2
            ipureintro; exact View.read_writes_of_cover _ _ _ _ _ (scover2_C_2 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [stAt2_B V c t h0 h1]
      (try dsimp only)
      unfold sout2_B_0 sout2_B_1 sout2_B_2; (try dsimp only)
      rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _)
            unfold owns; iexists _; isplitr
            swap; · iexact HS2
            ipureintro; exact View.read_writes_of_cover _ _ _ _ _ (scover2_B_2 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the scoped rest back: the running state's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout2 (c : Dev nD) : (dat2 V c).Φ (Fin.last cfg2.N) ⊢ Pipeline.ΦA spec2 c :=
  Phi_out2 V c _ (by rw [Fin.val_last]; have : cfg2.N = 32 := N_2; omega)

end Region2

end Cert.Kernel.Fr

end
-- ==== Proof.KFrameRun.lean ====
/-
  The whole run: @main's five segments from the launch to the return — the host operations before the regions, the three
  regions one after the other, the host operation after them — over the thread state "every unscoped buffer at the
  boundary's contents, the generator register at some state, nothing owed". The buffer contents at each boundary are a fold
  through @main: after a stretch of host operations, what the operations compute; after a region, its arrays at what its
  write-backs leave and every other buffer as entered. Every weakly fair execution terminates, and the final memory holds
  every unscoped buffer at the last boundary's contents.
-/
import proofs.«100994_j40140764348434_2_alg».proof.Proof.KFrame0Body
import proofs.«100994_j40140764348434_2_alg».proof.Proof.KFrame1Body
import proofs.«100994_j40140764348434_2_alg».proof.Proof.KFrame2Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the regions (region 0's entry). -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At region 1's exit: its arrays at what the pipeline leaves (the inputs as entered, the output's write-backs folded), every
    other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- At region 2's exit: its arrays at what the pipeline leaves (the inputs as entered, the output's write-backs folded), every
    other buffer as entered. -/
def W4 (c : Dev nD) : Valuation τ sig (Elt F) :=
  Pipeline.withArrays spec2 c (W3 m ρ c) fun w => (dat2 (Vr3 m ρ) c).arrAt w cfg2.N
theorem W4_arr (c : Dev nD) (w : Fin cfg2.W) :
    W4 m ρ c (Proc.devRef .tc (Pipeline.arrRef spec2 w)) = (dat2 (Vr3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev Vr4 : (c : Dev nD) → (b : Ref sig .tc) → Buf (Elt F) ((c : Thread nD τ).loc b) := fun c b => W4 m ρ c b
theorem hF2 (c : Dev nD) (w : Fin cfg2.W) : (dat2 (Vr3 m ρ) c).arrAt w cfg2.N = Vr4 m ρ c (Pipeline.arrRef spec2 w) :=
  (W4_arr m ρ c w).symm
theorem hrest2 (c : Dev nD) : ∀ b, b ∉ Finset.univ.image (Pipeline.arrRef spec2) → Vr4 m ρ c b = Vr3 m ρ c b :=
  fun b hb => W4_of_ne m ρ c b fun w e => hb (Finset.mem_image.mpr ⟨w, Finset.mem_univ _, e⟩)

/-- After the host operation after the regions: the last boundary. -/
abbrev W5 : Dev nD → Valuation τ sig (Elt F) := fun c => StableHlo.after hostOps3 (W4 m ρ c)

/-! ## The arguments end as launched -/

/-- A buffer no host operation writes and no region stages reaches the end as launched. -/
theorem W5_keep (c : Dev nD) (b : Ref sig .tc) (h0 : b ∉ hostOps0_W) (h3 : b ∉ hostOps3_W)
    (a0 : ∀ w, Pipeline.arrRef spec0 w ≠ b) (a1 : ∀ w, Pipeline.arrRef spec1 w ≠ b) (a2 : ∀ w, Pipeline.arrRef spec2 w ≠ b) :
    W5 m ρ c (Proc.devRef .tc b) = m ((c : Thread nD τ).loc b) :=
  calc W5 m ρ c (Proc.devRef .tc b)
    _ = W4 m ρ c (Proc.devRef .tc b) := StableHlo.after_of_writes_sub hostOps3 _ hostOps3_writes h3
    _ = W3 m ρ c (Proc.devRef .tc b) := W4_of_ne m ρ c b a2
    _ = W2 m ρ c (Proc.devRef .tc b) := W3_of_ne m ρ c b a1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

/-- The query argument is region 2's first input window: staged, never written, so it too ends as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := (W4_arr m ρ c 0).trans (((dat2 (Vr3 m ρ) c).arrAt_in 0 rfl _).trans (A_eq2 (Vr3 m ρ) c 0))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- The prefetched tables' admissible contents: no region has a table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies only when unification may unfold plain definitions in a metavariable's type
set_option backward.isDefEq.respectTransparency.types false in
/-- REGION 0 over the thread state: entered from every unscoped buffer at `W1`, left at `W2`. Its arrays are split out of
    the unscoped buffers and put back at the exit contents; the generator register goes into the region's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (Vr1 m ρ) c).Φ 0
    have h := hin0 (Vr1 m ρ) c
    unfold Pipeline.ΦA at h
    iintro ⟨Hp, -, Hr⟩
    iapply h
    isplitl [Hr]; · iexact Hr
    iexact Hp
  hout c := by
    rw [Pipeline.ownSems0_none]
    show (dat0 (Vr1 m ρ) c).Φ (Fin.last cfg0.N) ⊢ _
    have h := hout0 (Vr1 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain definitions in a metavariable's type
set_option backward.isDefEq.respectTransparency.types false in
/-- REGION 1 over the thread state: entered from every unscoped buffer at `W2`, left at `W3`. Its arrays are split out of
    the unscoped buffers and put back at the exit contents; the generator register goes into the region's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (Vr2 m ρ) c).Φ 0
    have h := hin1 (Vr2 m ρ) c
    unfold Pipeline.ΦA at h
    iintro ⟨Hp, -, Hr⟩
    iapply h
    isplitl [Hr]; · iexact Hr
    iexact Hp
  hout c := by
    rw [Pipeline.ownSems0_none]
    show (dat1 (Vr2 m ρ) c).Φ (Fin.last cfg1.N) ⊢ _
    have h := hout1 (Vr2 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain definitions in a metavariable's type
set_option backward.isDefEq.respectTransparency.types false in
/-- REGION 2 over the thread state: entered from every unscoped buffer at `W3`, left at `W4`. Its arrays are split out of
    the unscoped buffers and put back at the exit contents; the generator register goes into the region's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat2 (Vr3 m ρ) c).Φ 0
    have h := hin2 (Vr3 m ρ) c
    unfold Pipeline.ΦA at h
    iintro ⟨Hp, -, Hr⟩
    iapply h
    isplitl [Hr]; · iexact Hr
    iexact Hp
  hout c := by
    rw [Pipeline.ownSems0_none]
    show (dat2 (Vr3 m ρ) c).Φ (Fin.last cfg2.N) ⊢ _
    have h := hout2 (Vr3 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_keep m ρ c main_arg0 (by decide) (by decide) (by decide) (by decide) (by decide)),
     (h c _ (mem_uc main_arg1 (by decide))).trans (W5_main_arg1 m ρ c),
     (h c _ (mem_uc main_arg2 (by decide))).trans (W5_keep m ρ c main_arg2 (by decide) (by decide) (by decide) (by decide) (by decide)),
     (h c _ (mem_uc main_arg3 (by decide))).trans (W5_keep m ρ c main_arg3 (by decide) (by decide) (by decide) (by decide) (by decide)),
     (h c _ (mem_uc main_arg4 (by decide))).trans (W5_keep m ρ c main_arg4 (by decide) (by decide) (by decide) (by decide) (by decide)),
     (h c _ (mem_uc main_arg5 (by decide))).trans (W5_keep m ρ c main_arg5 (by decide) (by decide) (by decide) (by decide) (by decide))⟩)
    (run_all m ρ)

end Cert.Kernel.Fr

end
-- ==== Proof.Frame0Defs.lean ====
/-
  Region 0 (the keys projection): what its three control cases share, and each case's run.

  The grid is 8 x 4 x 4; the last coordinate k walks the contraction in four blocks. At k = 0 the accumulator scratch is
  reset and the first block product added; at k = 1, 2 a block product is added to what the point before left; at k = 3 the
  last block product is added and the accumulator plus the bias row is stored into the output block. The output block is
  touched only at k = 3 and written back only there.
-/
import proofs.«100994_j40140764348434_2_alg».proof.Proof.Gen.KernelIdeal.Launch
import proofs.«100994_j40140764348434_2_alg».proof.Proof.Gen.KernelIdeal.Skeleton
import proofs.«100994_j40140764348434_2_alg».proof.Proof.Gen.KernelIdeal.Points
import proofs.«100994_j40140764348434_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The accumulator is reset: the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The output block is stored: the contraction coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1024 .f32 := (Memref.whole cc0_stg3_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator scratch, a whole scoped buffer of the kernel's own. -/
abbrev scM0_0 : Memref sig .tc .vmem S1024x1024 .f32 := Memref.whole cc0_scratch0
abbrev VS0_0 : View sig .tc .vmem S1024x1024 .f32 := scM0_0.view

/-- The core's other scoped buffers (the other regions' staging buffers and scratch), carried unopened. -/
abbrev rest0 (c : Dev nD) : sProp 𝕄 :=
  Pipeline.scopedRestBut (Ix := Unit) (Name := ℕ) (U := UR sig nD τ) (Lvl := ℕ) (Val := Elt F) spec0 c [cc0_scratch0]

/-- The scoped rest and the generator register, with the accumulator scratch as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Fr

end
-- ==== Proof.Frame0RunA.lean ====
/-
  Region 0 (the keys projection): the body's run in each of its three control cases, on whole staging memrefs.
  Each run leaves the inputs as they were; the pieces the accumulator scratch (and, in the last case, the output block) end
  with are found by the run itself.
-/
import proofs.«100994_j40140764348434_2_alg».proof.Proof.Frame0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (contraction coordinate 0): the accumulator is reset, then the first block product added. The output block is not touched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__proj_kernel i arg3 harg3 arg4 harg4 arg5 harg5 arg6 harg6 arg7 harg7) K } := by
  refine ⟨[], ?_, fun xi3 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.Frame0RunB.lean ====
/-
  Region 0 (the keys projection): the body's run in the middle case — a block product added to the accumulator the point
  before left; the output block is not touched.
-/
import proofs.«100994_j40140764348434_2_alg».proof.Proof.Frame0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (contraction coordinate 1 or 2). -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__proj_kernel i arg3 harg3 arg4 harg4 arg5 harg5 arg6 harg6 arg7 harg7) K } := by
  refine ⟨[], ?_, fun xi3 E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.Frame0RunC.lean ====
/-
  Region 0 (the keys projection): the body's run in the last case — the last block product added to the accumulator the
  point before left, then the accumulator plus the bias row stored into the output block.
-/
import proofs.«100994_j40140764348434_2_alg».proof.Proof.Frame0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (contraction coordinate 3). -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__proj_kernel i arg3 harg3 arg4 harg4 arg5 harg5 arg6 harg6 arg7 harg7) K } := by
  refine ⟨?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.Frame0.lean ====
/-
  Region 0 (the keys projection): what the accumulator scratch and the output block hold after each grid point, the
  invariant that carries the accumulator from point to point, the proof data of the region at any entry contents `V`, and
  the body obligation.

  After a point with contraction coordinate 0 the accumulator holds the reset value plus the first block product; after a
  point with coordinate 1, 2 or 3 it holds what the point before left plus that point's block product; after a point with
  coordinate 3 the output block holds the accumulator plus the bias row. Between two points the pipeline does not touch the
  scratch, so the invariant before point n + 1 is: the scratch at what point n left, every other scoped buffer at anything.
-/
import proofs.«100994_j40140764348434_2_alg».proof.Proof.Frame0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A's pieces cover the accumulator scratch. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y
/-- What case A leaves in the accumulator scratch. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y
/-- What case B leaves in the accumulator scratch. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y
/-- What case C leaves in the accumulator scratch. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)
/-- Case C's pieces cover the output block. -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y
/-- What case C leaves in the output block. -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc0 hc1 x0 x1 x2 xs0).1)

/-! ## Point by point -/

/-- THE ACCUMULATION: what the accumulator scratch holds after the body at position `n`. -/
def accAt0 (c : Dev nD) : (n : ℕ) → n < cfg0.N → Vec F S1024x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at a point with contraction coordinate 3 what
    case C stores; elsewhere the block is neither stored nor written back, and this value is consulted by nothing. -/
def outAt0 (c : Dev nD) (t : Fin cfg0.N) : Vec F S1024x1024 .f32 :=
  if h1 : t.val % 4 = 3 then
    out0_C c (grid0.coords t) (ms0_0 t) (hs0_0 t) (ms0_1 t) (hs0_1 t) (ms0_2 t) (hs0_2 t) (ms0_3 t) (hs0_3 t) scM0_0 (Memref.isWhole_whole _) (fun h => (fun h => by omega) ((hcond0_0 t).mp h)) ((hcond0_1 t).mpr h1) (iblk0 V c 0 t) (iblk0 V c 1 t) (iblk0 V c 2 t) (accAt0 V c (t.val - 1) (Nat.lt_of_le_of_lt (Nat.sub_le _ _) t.isLt))
  else VO0_3.read (Elt F) VO0_3.junk

theorem outAt0_C (c : Dev nD) (t : Fin cfg0.N) (h0 : ¬t.val % 4 = 0) (h1 : t.val % 4 = 3) :
    outAt0 V c t = out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  unfold outAt0; rw [dif_pos h1]

/-- The region invariant before position `n`: before the first point every scoped buffer at anything; afterwards the
    accumulator scratch at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ rest0 c) ∗ (∃ r, prngReg c r)) := by
  cases n with
  | zero => exact absurd rfl hz
  | succ n => rfl

/-! ## The proof data -/

/-- The proof data of region 0 on core `c`: the arrays as the region finds them; after the body each input's buffer at its
    block, the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d

end Region0

end Cert.KernelIdeal.Fr

end
-- ==== Proof.Frame0Body.lean ====
/-
  Region 0 (the keys projection): the body obligation. At every grid point the inputs' staging buffers hold their blocks;
  the closed forms of the branch conditions say which case the point is in; the invariant hands the body the accumulator
  scratch at what the point before left (at anything before the first point) and takes it back at this point's contents.
-/
import proofs.«100994_j40140764348434_2_alg».proof.Proof.Frame0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_A V c t h0 h1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h0 h1]
      unfold out0_C sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the scoped rest back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 128 := N_0; omega)

end Region0

end Cert.KernelIdeal.Fr

end
-- ==== Proof.Frame1Defs.lean ====
/-
  Region 1 (the values projection): what its three control cases share, and each case's run.

  The grid is 8 x 2 x 4; the last coordinate k walks the contraction in four blocks. At k = 0 the accumulator scratch is
  reset and the first block product added; at k = 1, 2 a block product is added to what the point before left; at k = 3 the
  last block product is added and the accumulator plus the bias row is stored into the output block. The output block is
  touched only at k = 3 and written back only there.
-/
import proofs.«100994_j40140764348434_2_alg».proof.Proof.Gen.KernelIdeal.Launch
import proofs.«100994_j40140764348434_2_alg».proof.Proof.Gen.KernelIdeal.Skeleton
import proofs.«100994_j40140764348434_2_alg».proof.Proof.Gen.KernelIdeal.Points
import proofs.«100994_j40140764348434_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The accumulator is reset: the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The output block is stored: the contraction coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .bf16 := (Memref.whole cc1_stg3_0 : Memref sig .tc .vmem S1024x2048 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
/-- The accumulator scratch, a whole scoped buffer of the kernel's own. -/
abbrev scM1_0 : Memref sig .tc .vmem S1024x2048 .f32 := Memref.whole cc1_scratch0
abbrev VS1_0 : View sig .tc .vmem S1024x2048 .f32 := scM1_0.view

/-- The core's other scoped buffers (the other regions' staging buffers and scratch), carried unopened. -/
abbrev rest1 (c : Dev nD) : sProp 𝕄 :=
  Pipeline.scopedRestBut (Ix := Unit) (Name := ℕ) (U := UR sig nD τ) (Lvl := ℕ) (Val := Elt F) spec1 c [cc1_scratch0]

/-- The scoped rest and the generator register, with the accumulator scratch as a memref owned at some contents. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Fr

end
-- ==== Proof.Frame1RunA.lean ====
/-
  Region 1 (the values projection): the body's run in each of its three control cases, on whole staging memrefs.
  Each run leaves the inputs as they were; the pieces the accumulator scratch (and, in the last case, the output block) end
  with are found by the run itself.
-/
import proofs.«100994_j40140764348434_2_alg».proof.Proof.Frame1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (contraction coordinate 0): the accumulator is reset, then the first block product added. The output block is not touched. -/
noncomputable def kernelRun1_A (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x1024 .bf16) (x1 : Vec F S1024x2048 .bf16) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__proj_kernel i arg3 harg3 arg4 harg4 arg5 harg5 arg6 harg6 arg7 harg7) K } := by
  refine ⟨[], ?_, fun xi3 E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.Frame1RunB.lean ====
/-
  Region 1 (the values projection): the body's run in the middle case — a block product added to the accumulator the point
  before left; the output block is not touched.
-/
import proofs.«100994_j40140764348434_2_alg».proof.Proof.Frame1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (contraction coordinate 1 or 2). -/
noncomputable def kernelRun1_B (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x1024 .bf16) (x1 : Vec F S1024x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__proj_kernel i arg3 harg3 arg4 harg4 arg5 harg5 arg6 harg6 arg7 harg7) K } := by
  refine ⟨[], ?_, fun xi3 E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.Frame1RunC.lean ====
/-
  Region 1 (the values projection): the body's run in the last case — the last block product added to the accumulator the
  point before left, then the accumulator plus the bias row stored into the output block.
-/
import proofs.«100994_j40140764348434_2_alg».proof.Proof.Frame1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (contraction coordinate 3). -/
noncomputable def kernelRun1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__proj_kernel i arg3 harg3 arg4 harg4 arg5 harg5 arg6 harg6 arg7 harg7) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.Frame1.lean ====
/-
  Region 1 (the values projection): what the accumulator scratch and the output block hold after each grid point, the
  invariant that carries the accumulator from point to point, the proof data of the region at any entry contents `V`, and
  the body obligation.

  After a point with contraction coordinate 0 the accumulator holds the reset value plus the first block product; after a
  point with coordinate 1, 2 or 3 it holds what the point before left plus that point's block product; after a point with
  coordinate 3 the output block holds the accumulator plus the bias row. Between two points the pipeline does not touch the
  scratch, so the invariant before point n + 1 is: the scratch at what point n left, every other scoped buffer at anything.
-/
import proofs.«100994_j40140764348434_2_alg».proof.Proof.Frame1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's pieces cover the accumulator scratch. -/
theorem scover1_A (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x1024 .bf16) (x1 : Vec F S1024x2048 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y
/-- What case A leaves in the accumulator scratch. -/
def sout1_A (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x1024 .bf16) (x1 : Vec F S1024x2048 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

theorem scover1_B (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x1024 .bf16) (x1 : Vec F S1024x2048 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y
/-- What case B leaves in the accumulator scratch. -/
def sout1_B (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x1024 .bf16) (x1 : Vec F S1024x2048 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem scover1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
/-- What case C leaves in the accumulator scratch. -/
def sout1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)
/-- Case C's pieces cover the output block. -/
theorem cover1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
/-- What case C leaves in the output block. -/
def out1_C (c : Dev nD) (i : grid1.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x1024 .bf16) (x1 : Vec F S1024x2048 .bf16) (x2 : Vec F S1x2048 .f32) (xs0 : Vec F S1024x2048 .f32) : Vec F S1024x2048 .bf16 :=
  VO1_3.read (Elt F) (VO1_3.writes (Elt F) VO1_3.junk (kernelRun1_C c i arg3 harg3 arg4 harg4 arg5 harg5 arg6 harg6 arg7 harg7 hc0 hc1 x0 x1 x2 xs0).1)

/-! ## Point by point -/

/-- THE ACCUMULATION: what the accumulator scratch holds after the body at position `n`. -/
def accAt1 (c : Dev nD) : (n : ℕ) → n < cfg1.N → Vec F S1024x2048 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at a point with contraction coordinate 3 what
    case C stores; elsewhere the block is neither stored nor written back, and this value is consulted by nothing. -/
def outAt1 (c : Dev nD) (t : Fin cfg1.N) : Vec F S1024x2048 .bf16 :=
  if h1 : t.val % 4 = 3 then
    out1_C c (grid1.coords t) (ms1_0 t) (hs1_0 t) (ms1_1 t) (hs1_1 t) (ms1_2 t) (hs1_2 t) (ms1_3 t) (hs1_3 t) scM1_0 (Memref.isWhole_whole _) (fun h => (fun h => by omega) ((hcond1_0 t).mp h)) ((hcond1_1 t).mpr h1) (iblk1 V c 0 t) (iblk1 V c 1 t) (iblk1 V c 2 t) (accAt1 V c (t.val - 1) (Nat.lt_of_le_of_lt (Nat.sub_le _ _) t.isLt))
  else VO1_3.read (Elt F) VO1_3.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  unfold outAt1; rw [dif_pos h1]

/-- The region invariant before position `n`: before the first point every scoped buffer at anything; afterwards the
    accumulator scratch at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ rest1 c) ∗ (∃ r, prngReg c r)) := by
  cases n with
  | zero => exact absurd rfl hz
  | succ n => rfl

/-! ## The proof data -/

/-- The proof data of region 1 on core `c`: the arrays as the region finds them; after the body each input's buffer at its
    block, the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

end Region1

end Cert.KernelIdeal.Fr

end
-- ==== Proof.Frame1Body.lean ====
/-
  Region 1 (the values projection): the body obligation. At every grid point the inputs' staging buffers hold their blocks;
  the closed forms of the branch conditions say which case the point is in; the invariant hands the body the accumulator
  scratch at what the point before left (at anything before the first point) and takes it back at this point's contents.
-/
import proofs.«100994_j40140764348434_2_alg».proof.Proof.Frame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [accAt1_A V c t h0 h1]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1, outAt1_C V c t h0 h1]
      unfold out1_C sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Fr

end
-- ==== Proof.Frame2Defs.lean ====
/-
  Region 2 (attention over key/value tiles): what its three control cases share.

  The grid is 2 x 16: a block of 128 query rows, then 16 tiles of 512 key/value rows. Three scratch buffers are carried
  from tile to tile: the running row maximum, the running softmax denominator and the running weighted sum. At tile 0 they
  are reset (to minus infinity, zero and zero); at every tile they are updated; at tile 15 the weighted sum divided by the
  denominator is stored into the output block, which is touched and written back only there.
-/
import proofs.«100994_j40140764348434_2_alg».proof.Proof.Gen.KernelIdeal.Launch
import proofs.«100994_j40140764348434_2_alg».proof.Proof.Gen.KernelIdeal.Skeleton
import proofs.«100994_j40140764348434_2_alg».proof.Proof.Gen.KernelIdeal.Points
import proofs.«100994_j40140764348434_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The running state is reset: the tile coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The output block is stored: the tile coordinate is 15. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S128x4096 .f32 := (Memref.whole cc2_stg3_0 : Memref sig .tc .vmem S128x4096 .f32).view
abbrev ms2_0 (t : Fin cfg2.N) : Memref sig .tc .vmem S128x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x4096 .f32 := win2_3.stage (cfg2.slots t 3)
abbrev hs2_3 (t : Fin cfg2.N) : (ms2_3 t).IsWhole := hstage2_3 ((cfg2.slots t 3).cast nbuf2_3)
/-- The three scratch buffers: the running maximum, the running denominator, the running weighted sum. -/
abbrev scM2_0 : Memref sig .tc .vmem S128x1 .f32 := Memref.whole cc2_scratch0
abbrev scM2_1 : Memref sig .tc .vmem S128x1 .f32 := Memref.whole cc2_scratch1
abbrev scM2_2 : Memref sig .tc .vmem S128x4096 .f32 := Memref.whole cc2_scratch2
abbrev VS2_0 : View sig .tc .vmem S128x1 .f32 := scM2_0.view
abbrev VS2_1 : View sig .tc .vmem S128x1 .f32 := scM2_1.view
abbrev VS2_2 : View sig .tc .vmem S128x4096 .f32 := scM2_2.view

/-- The core's other scoped buffers (the other regions' staging buffers and scratch), carried unopened. -/
abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The scoped rest and the generator register, with the three scratch buffers as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA
  rw [Pipeline.scopedRest_split_of_list spec2 c [cc2_scratch0, cc2_scratch1, cc2_scratch2] (by decide) (by decide)]
  simp only [bigSepL_cons_cons, bigSepL_singleton, scM2_0, scM2_1, scM2_2, owns_whole]; try rfl

end Cert.KernelIdeal.Fr

end
-- ==== Proof.Frame2RunA.lean ====
/-
  Region 2 (attention over key/value tiles): the body's run in the first case — tile 0: the running maximum, denominator and weighted sum are reset, then updated with the tile; the output block is not touched.
-/
import proofs.«100994_j40140764348434_2_alg».proof.Proof.Frame2Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case A. -/
noncomputable def kernelRun2_A (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) :
    Σ' (L3 : List (View.Piece (Elt F) S128x4096 .f32)) (LS0 : List (View.Piece (Elt F) S128x1 .f32)) (LS1 : List (View.Piece (Elt F) S128x1 .f32)), { LS2 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, ?_, ?_, fun xi3 E K => ?run⟩
  case run =>
    haveI : Fact (cond2_0 i) := ⟨hc0⟩
    haveI : Fact (¬cond2_1 i) := ⟨hc1⟩
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.Frame2RunB.lean ====
/-
  Region 2 (attention over key/value tiles): the body's run in the middle case — tiles 1 to 14: the running state the tile before left is updated with the tile; the output block is not touched.
-/
import proofs.«100994_j40140764348434_2_alg».proof.Proof.Frame2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case B. -/
noncomputable def kernelRun2_B (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    Σ' (L3 : List (View.Piece (Elt F) S128x4096 .f32)) (LS0 : List (View.Piece (Elt F) S128x1 .f32)) (LS1 : List (View.Piece (Elt F) S128x1 .f32)), { LS2 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, ?_, ?_, fun xi3 E K => ?run⟩
  case run =>
    haveI : Fact (¬cond2_0 i) := ⟨hc0⟩
    haveI : Fact (¬cond2_1 i) := ⟨hc1⟩
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.Frame2RunC.lean ====
/-
  Region 2 (attention over key/value tiles): the body's run in the last case — tile 15: the running state the tile before left is updated with the tile, then the weighted sum divided by the denominator is stored into the output block.
-/
import proofs.«100994_j40140764348434_2_alg».proof.Proof.Frame2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Case C. -/
noncomputable def kernelRun2_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    Σ' (L3 : List (View.Piece (Elt F) S128x4096 .f32)) (LS0 : List (View.Piece (Elt F) S128x1 .f32)) (LS1 : List (View.Piece (Elt F) S128x1 .f32)), { LS2 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨?_, ?_, ?_, ?_, fun E K => ?run⟩
  case run =>
    haveI : Fact (¬cond2_0 i) := ⟨hc0⟩
    haveI : Fact (cond2_1 i) := ⟨hc1⟩
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.Frame2.lean ====
/-
  Region 2 (attention over key/value tiles): what the three scratch buffers and the output block hold after each grid
  point, the invariant that carries the running state from tile to tile, and the proof data of the region at any entry
  contents `V`.

  After tile 0 the scratch buffers hold the reset state updated with that tile; after a later tile they hold the state the
  tile before left, updated with the tile; after tile 15 the output block holds the weighted sum divided by the denominator.
-/
import proofs.«100994_j40140764348434_2_alg».proof.Proof.Frame2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A's pieces cover the running maximum scratch. -/
theorem scover2_A_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) (y : S128x1.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S128x1.size (by sl_kernel_rfl) y
/-- What case A leaves in the running maximum scratch. -/
def sout2_A_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) : Vec F S128x1 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2).2.1)

/-- Case A's pieces cover the running denominator scratch. -/
theorem scover2_A_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) (y : S128x1.Idx) :
    ∃ pc ∈ (kernelRun2_A c i arg2 harg2 arg3 harg3 arg4 harg4 arg5 harg5 arg6 harg6 arg7 harg7 arg8 harg8 hc0 hc1 x0 x1 x2).2.2.1, y ∈ pc.1.set :=
  View.cover_of_tiledL (kernelRun2_A c i arg2 harg2 arg3 harg3 arg4 harg4 arg5 harg5 arg6 harg6 arg7 harg7 arg8 harg8 hc0 hc1 x0 x1 x2).2.2.1 S128x1.size (by sl_kernel_rfl) y
/-- What case A leaves in the running denominator scratch. -/
def sout2_A_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) : Vec F S128x1 .f32 :=
  VS2_1.read (Elt F) (VS2_1.writes (Elt F) VS2_1.junk (kernelRun2_A c i arg2 harg2 arg3 harg3 arg4 harg4 arg5 harg5 arg6 harg6 arg7 harg7 arg8 harg8 hc0 hc1 x0 x1 x2).2.2.1)

/-- Case A's pieces cover the running weighted sum scratch. -/
theorem scover2_A_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) (y : S128x4096.Idx) :
    ∃ pc ∈ (kernelRun2_A c i arg2 harg2 arg3 harg3 arg4 harg4 arg5 harg5 arg6 harg6 arg7 harg7 arg8 harg8 hc0 hc1 x0 x1 x2).2.2.2.1, y ∈ pc.1.set :=
  View.cover_of_tiledL (kernelRun2_A c i arg2 harg2 arg3 harg3 arg4 harg4 arg5 harg5 arg6 harg6 arg7 harg7 arg8 harg8 hc0 hc1 x0 x1 x2).2.2.2.1 S128x4096.size (by sl_kernel_rfl) y
/-- What case A leaves in the running weighted sum scratch. -/
def sout2_A_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) : Vec F S128x4096 .f32 :=
  VS2_2.read (Elt F) (VS2_2.writes (Elt F) VS2_2.junk (kernelRun2_A c i arg2 harg2 arg3 harg3 arg4 harg4 arg5 harg5 arg6 harg6 arg7 harg7 arg8 harg8 hc0 hc1 x0 x1 x2).2.2.2.1)

/-- Case B's pieces cover the running maximum scratch. -/
theorem scover2_B_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun2_B c i arg2 harg2 arg3 harg3 arg4 harg4 arg5 harg5 arg6 harg6 arg7 harg7 arg8 harg8 hc0 hc1 x0 x1 x2 xs0 xs1 xs2).2.1 S128x1.size (by sl_kernel_rfl) y
/-- What case B leaves in the running maximum scratch. -/
def sout2_B_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1 xs2).2.1)

/-- Case B's pieces cover the running denominator scratch. -/
theorem scover2_B_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun2_B c i arg2 harg2 arg3 harg3 arg4 harg4 arg5 harg5 arg6 harg6 arg7 harg7 arg8 harg8 hc0 hc1 x0 x1 x2 xs0 xs1 xs2).2.2.1 S128x1.size (by sl_kernel_rfl) y
/-- What case B leaves in the running denominator scratch. -/
def sout2_B_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1 xs2).2.2.1)

/-- Case B's pieces cover the running weighted sum scratch. -/
theorem scover2_B_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x4096.Idx) :
    ∃ pc ∈ (kernelRun2_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun2_B c i arg2 harg2 arg3 harg3 arg4 harg4 arg5 harg5 arg6 harg6 arg7 harg7 arg8 harg8 hc0 hc1 x0 x1 x2 xs0 xs1 xs2).2.2.2.1 S128x4096.size (by sl_kernel_rfl) y
/-- What case B leaves in the running weighted sum scratch. -/
def sout2_B_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x4096 .f32 :=
  VS2_2.read (Elt F) (VS2_2.writes (Elt F) VS2_2.junk (kernelRun2_B c i arg2 harg2 arg3 harg3 arg4 harg4 arg5 harg5 arg6 harg6 arg7 harg7 arg8 harg8 hc0 hc1 x0 x1 x2 xs0 xs1 xs2).2.2.2.1)

/-- Case C's pieces cover the running maximum scratch. -/
theorem scover2_C_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun2_C c i arg2 harg2 arg3 harg3 arg4 harg4 arg5 harg5 arg6 harg6 arg7 harg7 arg8 harg8 hc0 hc1 x0 x1 x2 xs0 xs1 xs2).2.1 S128x1.size (by sl_kernel_rfl) y
/-- What case C leaves in the running maximum scratch. -/
def sout2_C_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 xs0 xs1 xs2).2.1)

/-- Case C's pieces cover the running denominator scratch. -/
theorem scover2_C_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x1.Idx) :
    ∃ pc ∈ (kernelRun2_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun2_C c i arg2 harg2 arg3 harg3 arg4 harg4 arg5 harg5 arg6 harg6 arg7 harg7 arg8 harg8 hc0 hc1 x0 x1 x2 xs0 xs1 xs2).2.2.1 S128x1.size (by sl_kernel_rfl) y
/-- What case C leaves in the running denominator scratch. -/
def sout2_C_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x1 .f32 :=
  VS2_1.read (Elt F) (VS2_1.writes (Elt F) VS2_1.junk (kernelRun2_C c i arg2 harg2 arg3 harg3 arg4 harg4 arg5 harg5 arg6 harg6 arg7 harg7 arg8 harg8 hc0 hc1 x0 x1 x2 xs0 xs1 xs2).2.2.1)

/-- Case C's pieces cover the running weighted sum scratch. -/
theorem scover2_C_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x4096.Idx) :
    ∃ pc ∈ (kernelRun2_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun2_C c i arg2 harg2 arg3 harg3 arg4 harg4 arg5 harg5 arg6 harg6 arg7 harg7 arg8 harg8 hc0 hc1 x0 x1 x2 xs0 xs1 xs2).2.2.2.1 S128x4096.size (by sl_kernel_rfl) y
/-- What case C leaves in the running weighted sum scratch. -/
def sout2_C_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x4096 .f32 :=
  VS2_2.read (Elt F) (VS2_2.writes (Elt F) VS2_2.junk (kernelRun2_C c i arg2 harg2 arg3 harg3 arg4 harg4 arg5 harg5 arg6 harg6 arg7 harg7 arg8 harg8 hc0 hc1 x0 x1 x2 xs0 xs1 xs2).2.2.2.1)

/-- Case C's pieces cover the output block. -/
theorem cover2_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) (y : S128x4096.Idx) :
    ∃ pc ∈ (kernelRun2_C c i arg2 harg2 arg3 harg3 arg4 harg4 arg5 harg5 arg6 harg6 arg7 harg7 arg8 harg8 hc0 hc1 x0 x1 x2 xs0 xs1 xs2).1, y ∈ pc.1.set :=
  View.cover_of_tiledL (kernelRun2_C c i arg2 harg2 arg3 harg3 arg4 harg4 arg5 harg5 arg6 harg6 arg7 harg7 arg8 harg8 hc0 hc1 x0 x1 x2 xs0 xs1 xs2).1 S128x4096.size (by sl_kernel_rfl) y
/-- What case C leaves in the output block. -/
def out2_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) : Vec F S128x4096 .f32 :=
  VO2_3.read (Elt F) (VO2_3.writes (Elt F) VO2_3.junk (kernelRun2_C c i arg2 harg2 arg3 harg3 arg4 harg4 arg5 harg5 arg6 harg6 arg7 harg7 arg8 harg8 hc0 hc1 x0 x1 x2 xs0 xs1 xs2).1)

/-! ## Point by point -/

/-- THE RUNNING STATE: what the three scratch buffers (maximum, denominator, weighted sum) hold after the body at position `n`. -/
def stAt2 (c : Dev nD) : (n : ℕ) → n < cfg2.N → Vec F S128x1 .f32 × Vec F S128x1 .f32 × Vec F S128x4096 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      (sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2)
      else
        (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (stAt2 c n (Nat.lt_of_succ_lt hn)).1 (stAt2 c n (Nat.lt_of_succ_lt hn)).2.1 (stAt2 c n (Nat.lt_of_succ_lt hn)).2.2)

theorem stAt2_A (c : Dev nD) (t : Fin cfg2.N) (h0 : t.val % 16 = 0) (h1 : ¬t.val % 16 = 15) :
    stAt2 V c t.val t.isLt = (sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => (fun h => by (try dsimp only at h); omega) ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => (fun h => by (try dsimp only at h); omega) ((hcond2_1 t).mp h)) (iblk2 V c 0 t) (iblk2 V c 1 t) (iblk2 V c 2 t), sout2_A_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => (fun h => by (try dsimp only at h); omega) ((hcond2_1 t).mp h)) (iblk2 V c 0 t) (iblk2 V c 1 t) (iblk2 V c 2 t)) := by
  obtain ⟨n, hn⟩ := t
  cases n with
  | zero => exact rfl
  | succ n => exact (dif_pos h0).trans rfl

theorem stAt2_B (c : Dev nD) (t : Fin cfg2.N) (h0 : ¬t.val % 16 = 0) (h1 : ¬t.val % 16 = 15) :
    stAt2 V c t.val t.isLt = (sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_B_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem stAt2_C (c : Dev nD) (t : Fin cfg2.N) (h0 : ¬t.val % 16 = 0) (h1 : t.val % 16 = 15) :
    stAt2 V c t.val t.isLt = (sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2, sout2_C_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at tile 15 what case C stores; elsewhere the
    block is neither stored nor written back, and this value is consulted by nothing. -/
def outAt2 (c : Dev nD) (t : Fin cfg2.N) : Vec F S128x4096 .f32 :=
  if h1 : t.val % 16 = 15 then
    out2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => (fun h => by omega) ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2
  else VO2_3.read (Elt F) VO2_3.junk

theorem outAt2_C (c : Dev nD) (t : Fin cfg2.N) (h0 : ¬t.val % 16 = 0) (h1 : t.val % 16 = 15) :
    outAt2 V c t = out2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (stAt2 V c (t.val - 1) (Nat.lt_of_le_of_lt (Nat.sub_le _ _) t.isLt)).1 (stAt2 V c (t.val - 1) (Nat.lt_of_le_of_lt (Nat.sub_le _ _) t.isLt)).2.1 (stAt2 V c (t.val - 1) (Nat.lt_of_le_of_lt (Nat.sub_le _ _) t.isLt)).2.2 := by
  unfold outAt2; rw [dif_pos h1]

/-- The region invariant before position `n`: before the first point every scoped buffer at anything; afterwards the three
    scratch buffers at what the point before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (stAt2 V c n hn).1 ∗ owns (c : Thread nD τ) scM2_1 fullShare (stAt2 V c n hn).2.1 ∗ owns (c : Thread nD τ) scM2_2 fullShare (stAt2 V c n hn).2.2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (stAt2 V c n hn).1 ∗ owns (c : Thread nD τ) scM2_1 fullShare (stAt2 V c n hn).2.1 ∗ owns (c : Thread nD τ) scM2_2 fullShare (stAt2 V c n hn).2.2) ∗ rest2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (stAt2 V c (n - 1) (by omega)).1 ∗ owns (c : Thread nD τ) scM2_1 fullShare (stAt2 V c (n - 1) (by omega)).2.1 ∗ owns (c : Thread nD τ) scM2_2 fullShare (stAt2 V c (n - 1) (by omega)).2.2) ∗ rest2 c) ∗ (∃ r, prngReg c r)) := by
  cases n with
  | zero => exact absurd rfl hz
  | succ n => rfl

/-! ## The proof data -/

/-- The proof data of region 2 on core `c`: the arrays as the region finds them; after the body each input's buffer at its
    block, the output's at `outAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem PhiS2_castSucc (c : Dev nD) (t : Fin cfg2.N) : (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d

end Region2

end Cert.KernelIdeal.Fr

end
-- ==== Proof.Frame2Body.lean ====
/-
  Region 2 (attention over key/value tiles): the body obligation. At every grid point the inputs' staging buffers hold
  their blocks; the closed forms of the branch conditions say which case the point is in; the invariant hands the body the
  three scratch buffers at what the tile before left (at anything before the first point) and takes them back at this
  tile's contents.
-/
import proofs.«100994_j40140764348434_2_alg».proof.Proof.Frame2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [stAt2_A V c t h0 h1]
    (try dsimp only)
    unfold sout2_A_0 sout2_A_1 sout2_A_2; (try dsimp only)
    by_cases hz : t.val = 0
    · rw [PhiS2_castSucc V c t, PhiS2_zero V c _ _ hz, PhiA2_eq]
      iintro ⟨⟨⟨⟨HS0, HS1, HS2⟩, Hr⟩, Hg⟩, Ho, ⟨%d0, H0⟩, ⟨%d1, H1⟩, ⟨%d2, H2⟩, ⟨%d3, H3⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [stAt2_C V c t h0 h1, outAt2_C V c t h0 h1]
      (try dsimp only)
      unfold out2_C sout2_C_0 sout2_C_1 sout2_C_2; (try dsimp only)
      rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _)
            unfold owns; iexists _; isplitr
            swap; · iexact HS2
            ipureintro; exact View.read_writes_of_cover _ _ _ _ _ (scover2_C_2 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [stAt2_B V c t h0 h1]
      (try dsimp only)
      unfold sout2_B_0 sout2_B_1 sout2_B_2; (try dsimp only)
      rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _)
            unfold owns; iexists _; isplitr
            swap; · iexact HS2
            ipureintro; exact View.read_writes_of_cover _ _ _ _ _ (scover2_B_2 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the scoped rest back: the running state's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout2 (c : Dev nD) : (dat2 V c).Φ (Fin.last cfg2.N) ⊢ Pipeline.ΦA spec2 c :=
  Phi_out2 V c _ (by rw [Fin.val_last]; have : cfg2.N = 32 := N_2; omega)

end Region2

end Cert.KernelIdeal.Fr

end
-- ==== Proof.FrameRun.lean ====
/-
  The whole run: @main's five segments from the launch to the return — the host operations before the regions, the three
  regions one after the other, the host operation after them — over the thread state "every unscoped buffer at the
  boundary's contents, the generator register at some state, nothing owed". The buffer contents at each boundary are a fold
  through @main: after a stretch of host operations, what the operations compute; after a region, its arrays at what its
  write-backs leave and every other buffer as entered. Every weakly fair execution terminates, and the final memory holds
  every unscoped buffer at the last boundary's contents.
-/
import proofs.«100994_j40140764348434_2_alg».proof.Proof.Frame0Body
import proofs.«100994_j40140764348434_2_alg».proof.Proof.Frame1Body
import proofs.«100994_j40140764348434_2_alg».proof.Proof.Frame2Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the regions (region 0's entry). -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At region 1's exit: its arrays at what the pipeline leaves (the inputs as entered, the output's write-backs folded), every
    other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- At region 2's exit: its arrays at what the pipeline leaves (the inputs as entered, the output's write-backs folded), every
    other buffer as entered. -/
def W4 (c : Dev nD) : Valuation τ sig (Elt F) :=
  Pipeline.withArrays spec2 c (W3 m ρ c) fun w => (dat2 (Vr3 m ρ) c).arrAt w cfg2.N
theorem W4_arr (c : Dev nD) (w : Fin cfg2.W) :
    W4 m ρ c (Proc.devRef .tc (Pipeline.arrRef spec2 w)) = (dat2 (Vr3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev Vr4 : (c : Dev nD) → (b : Ref sig .tc) → Buf (Elt F) ((c : Thread nD τ).loc b) := fun c b => W4 m ρ c b
theorem hF2 (c : Dev nD) (w : Fin cfg2.W) : (dat2 (Vr3 m ρ) c).arrAt w cfg2.N = Vr4 m ρ c (Pipeline.arrRef spec2 w) :=
  (W4_arr m ρ c w).symm
theorem hrest2 (c : Dev nD) : ∀ b, b ∉ Finset.univ.image (Pipeline.arrRef spec2) → Vr4 m ρ c b = Vr3 m ρ c b :=
  fun b hb => W4_of_ne m ρ c b fun w e => hb (Finset.mem_image.mpr ⟨w, Finset.mem_univ _, e⟩)

/-- After the host operation after the regions: the last boundary. -/
abbrev W5 : Dev nD → Valuation τ sig (Elt F) := fun c => StableHlo.after hostOps3 (W4 m ρ c)

/-! ## The arguments end as launched -/

/-- A buffer no host operation writes and no region stages reaches the end as launched. -/
theorem W5_keep (c : Dev nD) (b : Ref sig .tc) (h0 : b ∉ hostOps0_W) (h3 : b ∉ hostOps3_W)
    (a0 : ∀ w, Pipeline.arrRef spec0 w ≠ b) (a1 : ∀ w, Pipeline.arrRef spec1 w ≠ b) (a2 : ∀ w, Pipeline.arrRef spec2 w ≠ b) :
    W5 m ρ c (Proc.devRef .tc b) = m ((c : Thread nD τ).loc b) :=
  calc W5 m ρ c (Proc.devRef .tc b)
    _ = W4 m ρ c (Proc.devRef .tc b) := StableHlo.after_of_writes_sub hostOps3 _ hostOps3_writes h3
    _ = W3 m ρ c (Proc.devRef .tc b) := W4_of_ne m ρ c b a2
    _ = W2 m ρ c (Proc.devRef .tc b) := W3_of_ne m ρ c b a1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

/-- The query argument is region 2's first input window: staged, never written, so it too ends as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := (W4_arr m ρ c 0).trans (((dat2 (Vr3 m ρ) c).arrAt_in 0 rfl _).trans (A_eq2 (Vr3 m ρ) c 0))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- The prefetched tables' admissible contents: no region has a table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies only when unification may unfold plain definitions in a metavariable's type
set_option backward.isDefEq.respectTransparency.types false in
/-- REGION 0 over the thread state: entered from every unscoped buffer at `W1`, left at `W2`. Its arrays are split out of
    the unscoped buffers and put back at the exit contents; the generator register goes into the region's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (Vr1 m ρ) c).Φ 0
    have h := hin0 (Vr1 m ρ) c
    unfold Pipeline.ΦA at h
    iintro ⟨Hp, -, Hr⟩
    iapply h
    isplitl [Hr]; · iexact Hr
    iexact Hp
  hout c := by
    rw [Pipeline.ownSems0_none]
    show (dat0 (Vr1 m ρ) c).Φ (Fin.last cfg0.N) ⊢ _
    have h := hout0 (Vr1 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain definitions in a metavariable's type
set_option backward.isDefEq.respectTransparency.types false in
/-- REGION 1 over the thread state: entered from every unscoped buffer at `W2`, left at `W3`. Its arrays are split out of
    the unscoped buffers and put back at the exit contents; the generator register goes into the region's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (Vr2 m ρ) c).Φ 0
    have h := hin1 (Vr2 m ρ) c
    unfold Pipeline.ΦA at h
    iintro ⟨Hp, -, Hr⟩
    iapply h
    isplitl [Hr]; · iexact Hr
    iexact Hp
  hout c := by
    rw [Pipeline.ownSems0_none]
    show (dat1 (Vr2 m ρ) c).Φ (Fin.last cfg1.N) ⊢ _
    have h := hout1 (Vr2 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain definitions in a metavariable's type
set_option backward.isDefEq.respectTransparency.types false in
/-- REGION 2 over the thread state: entered from every unscoped buffer at `W3`, left at `W4`. Its arrays are split out of
    the unscoped buffers and put back at the exit contents; the generator register goes into the region's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat2 (Vr3 m ρ) c).Φ 0
    have h := hin2 (Vr3 m ρ) c
    unfold Pipeline.ΦA at h
    iintro ⟨Hp, -, Hr⟩
    iapply h
    isplitl [Hr]; · iexact Hr
    iexact Hp
  hout c := by
    rw [Pipeline.ownSems0_none]
    show (dat2 (Vr3 m ρ) c).Φ (Fin.last cfg2.N) ⊢ _
    have h := hout2 (Vr3 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_keep m ρ c main_arg0 (by decide) (by decide) (by decide) (by decide) (by decide)),
     (h c _ (mem_uc main_arg1 (by decide))).trans (W5_main_arg1 m ρ c),
     (h c _ (mem_uc main_arg2 (by decide))).trans (W5_keep m ρ c main_arg2 (by decide) (by decide) (by decide) (by decide) (by decide)),
     (h c _ (mem_uc main_arg3 (by decide))).trans (W5_keep m ρ c main_arg3 (by decide) (by decide) (by decide) (by decide) (by decide)),
     (h c _ (mem_uc main_arg4 (by decide))).trans (W5_keep m ρ c main_arg4 (by decide) (by decide) (by decide) (by decide) (by decide)),
     (h c _ (mem_uc main_arg5 (by decide))).trans (W5_keep m ρ c main_arg5 (by decide) (by decide) (by decide) (by decide) (by decide))⟩)
    (run_all m ρ)

end Cert.KernelIdeal.Fr

end
-- ==== Proof.HostReads.lean ====
/-
  The host operations around the three regions, read at an index on the extended reals (a change of float format is the
  identity there), and each buffer a region reads traced back through the boundaries before it.

  Before the regions the source loses its leading unit axis, the two weight matrices are transposed and the two bias vectors
  become one-row matrices. Region 0 writes the keys, region 1 the values; region 2 reads the query argument, the keys and the
  values and writes the output matrix, to which the last host operation adds a leading unit axis.
-/
import proofs.«100994_j40140764348434_2_alg».proof.Proof.FrameRun
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the host operations before the regions leave -/

/-- The source rows as region 0 and region 1 read them: the first argument without its leading unit axis. -/
theorem src_at (c : Dev nD) (n : Fin 8192) (k : Fin 4096) :
    Vr1 m ρ c main_v1 (ix2 n k) = m ((c : Thread nD τ).loc main_arg0) (ix3 (0 : Fin 1) n k) := by
  have e : (Vr1 m ρ c main_v1 : S8192x4096.Idx → EReal)
      = truncf (F := Ideal) .bf16 (shapeCast S8192x4096 (m ((c : Thread nD τ).loc main_arg0)) shapeCasts_S1x8192x4096_S8192x4096) bitsLt_bf16_f32 := by
    show StableHlo.after hostOps0 _ (Proc.devRef .tc main_v1) = _
    after_results <;> rfl
  rw [e]
  show shapeCast S8192x4096 (m ((c : Thread nD τ).loc main_arg0)) shapeCasts_S1x8192x4096_S8192x4096 (ix2 n k) = _
  exact shapeCast_apply _ shapeCasts_S1x8192x4096_S8192x4096 (ix2 n k) (ix3 (0 : Fin 1) n k)
    (by rewrite [Shape.rowMajor_val_three, Shape.rowMajor_val_two]; show (0 * 8192 + n.val) * 4096 + k.val = n.val * 4096 + k.val; omega)

/-- The keys' weight as region 0 reads it: the third argument transposed. -/
theorem wk_at (c : Dev nD) (k d : Fin 4096) :
    Vr1 m ρ c main_v3 (ix2 k d) = m ((c : Thread nD τ).loc main_arg2) (ix2 d k) := by
  have e : (Vr1 m ρ c main_v3 : S4096x4096.Idx → EReal)
      = truncf (F := Ideal) .bf16 (transpose S4096x4096 [1, 0] (m ((c : Thread nD τ).loc main_arg2)) transposes_S4096x4096_S4096x4096_1_0) bitsLt_bf16_f32 := by
    show StableHlo.after hostOps0 _ (Proc.devRef .tc main_v3) = _
    after_results <;> rfl
  rw [e]
  show transpose S4096x4096 [1, 0] (m ((c : Thread nD τ).loc main_arg2)) transposes_S4096x4096_S4096x4096_1_0 (ix2 k d) = _
  exact transpose_apply [1, 0] _ transposes_S4096x4096_S4096x4096_1_0 (ix2 k d) (ix2 d k) (fun b => match b with
    | ⟨0, _⟩ => rfl
    | ⟨1, _⟩ => rfl)

/-- The values' weight as region 1 reads it: the fifth argument transposed. -/
theorem wv_at (c : Dev nD) (k e : Fin 4096) :
    Vr1 m ρ c main_v5 (ix2 k e) = m ((c : Thread nD τ).loc main_arg4) (ix2 e k) := by
  have h : (Vr1 m ρ c main_v5 : S4096x4096.Idx → EReal)
      = truncf (F := Ideal) .bf16 (transpose S4096x4096 [1, 0] (m ((c : Thread nD τ).loc main_arg4)) transposes_S4096x4096_S4096x4096_1_0) bitsLt_bf16_f32 := by
    show StableHlo.after hostOps0 _ (Proc.devRef .tc main_v5) = _
    after_results <;> rfl
  rw [h]
  show transpose S4096x4096 [1, 0] (m ((c : Thread nD τ).loc main_arg4)) transposes_S4096x4096_S4096x4096_1_0 (ix2 k e) = _
  exact transpose_apply [1, 0] _ transposes_S4096x4096_S4096x4096_1_0 (ix2 k e) (ix2 e k) (fun b => match b with
    | ⟨0, _⟩ => rfl
    | ⟨1, _⟩ => rfl)

/-- The keys' bias as region 0 reads it: the fourth argument as a one-row matrix. -/
theorem bk_at (c : Dev nD) (d : Fin 4096) :
    Vr1 m ρ c main_v6 (ix2 (0 : Fin 1) d) = m ((c : Thread nD τ).loc main_arg3) (ix1 d) := by
  have e : (Vr1 m ρ c main_v6 : S1x4096.Idx → EReal)
      = shapeCast S1x4096 (m ((c : Thread nD τ).loc main_arg3)) shapeCasts_S4096_S1x4096 := by
    show StableHlo.after hostOps0 _ (Proc.devRef .tc main_v6) = _
    after_results <;> rfl
  rw [e]
  exact shapeCast_apply _ shapeCasts_S4096_S1x4096 (ix2 (0 : Fin 1) d) (ix1 d)
    (by rewrite [Shape.rowMajor_val_one, Shape.rowMajor_val_two]; show d.val = 0 * 4096 + d.val; omega)

/-- The values' bias as region 1 reads it: the sixth argument as a one-row matrix. -/
theorem bv_at (c : Dev nD) (e : Fin 4096) :
    Vr1 m ρ c main_v7 (ix2 (0 : Fin 1) e) = m ((c : Thread nD τ).loc main_arg5) (ix1 e) := by
  have h : (Vr1 m ρ c main_v7 : S1x4096.Idx → EReal)
      = shapeCast S1x4096 (m ((c : Thread nD τ).loc main_arg5)) shapeCasts_S4096_S1x4096 := by
    show StableHlo.after hostOps0 _ (Proc.devRef .tc main_v7) = _
    after_results <;> rfl
  rw [h]
  exact shapeCast_apply _ shapeCasts_S4096_S1x4096 (ix2 (0 : Fin 1) e) (ix1 e)
    (by rewrite [Shape.rowMajor_val_one, Shape.rowMajor_val_two]; show e.val = 0 * 4096 + e.val; omega)

/-! ## What each later region reads, traced back -/

/-- Region 1 reads the same source rows as region 0: region 0 stages them and never writes them. -/
theorem r1_src (c : Dev nD) : Vr2 m ρ c main_v1 = Vr1 m ρ c main_v1 :=
  (W2_arr m ρ c 0).trans (((dat0 (Vr1 m ρ) c).arrAt_in 0 rfl _).trans (A_eq0 (Vr1 m ρ) c 0))
/-- Region 0 stages neither the values' weight nor the values' bias. -/
theorem r1_w (c : Dev nD) : Vr2 m ρ c main_v5 = Vr1 m ρ c main_v5 := W2_of_ne m ρ c main_v5 (by decide)
theorem r1_b (c : Dev nD) : Vr2 m ρ c main_v7 = Vr1 m ρ c main_v7 := W2_of_ne m ρ c main_v7 (by decide)

/-- Region 2 reads the query argument as launched, -/
theorem r2_q (c : Dev nD) : Vr3 m ρ c main_arg1 = m ((c : Thread nD τ).loc main_arg1) :=
  calc Vr3 m ρ c main_arg1
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
/-- the keys as region 0 left them, -/
theorem r2_k (c : Dev nD) : Vr3 m ρ c main_v8 = (dat0 (Vr1 m ρ) c).arrAt 3 cfg0.N :=
  (W3_of_ne m ρ c main_v8 (by decide)).trans (W2_arr m ρ c 3)
/-- and the values as region 1 left them. -/
theorem r2_v (c : Dev nD) : Vr3 m ρ c main_v9 = (dat1 (Vr2 m ρ) c).arrAt 3 cfg1.N := W3_arr m ρ c 3

/-! ## The result -/

/-- The result buffer at the end: region 2's output matrix under a leading unit axis. -/
theorem result_at (c : Dev nD) (l : Fin 256) (e : Fin 4096) :
    W5 m ρ c (Proc.devRef .tc main_v11) (ix3 (0 : Fin 1) l e) = (dat2 (Vr3 m ρ) c).arrAt 3 cfg2.N (ix2 l e) := by
  have h : (W5 m ρ c (Proc.devRef .tc main_v11) : S1x256x4096.Idx → EReal)
      = broadcastInDim S1x256x4096 ![1, 2] bcast_S256x4096_S1x256x4096_1_2 (W4 m ρ c (Proc.devRef .tc main_v10)) := by
    show StableHlo.after hostOps3 _ (Proc.devRef .tc main_v11) = _
    after_results <;> rfl
  rw [h, show W4 m ρ c (Proc.devRef .tc main_v10) = (dat2 (Vr3 m ρ) c).arrAt 3 cfg2.N from W4_arr m ρ c 3]
  exact broadcastInDim_apply _ bcast_S256x4096_S1x256x4096_1_2 _ (ix3 (0 : Fin 1) l e) (ix2 l e) (fun a => match a with
    | ⟨0, _⟩ => by show l.val = if (256 : Nat) = 1 then 0 else l.val; rw [if_neg (by decide)]
    | ⟨1, _⟩ => by show e.val = if (4096 : Nat) = 1 then 0 else e.val; rw [if_neg (by decide)])

end Cert.KernelIdeal.Val

end
-- ==== Proof.PayloadsAt.lean ====
/-
  The kernel bodies' arithmetic read at an index, over the extended reals.

  Each body's stored value is a composition of pointwise operations, re-layouts, one-axis reductions and matrix
  products. Read at one coordinate pair, a pointwise operation acts on the operands' entries there; a cast to the
  same shape is the identity; a row or a column repeated along the other axis reads the one row or column; a sum or
  a maximum along the lanes is the finite sum or the supremum over the lane coordinate; and a matrix product into a
  zero accumulator is the sum over the contracted coordinate of the products of the operands' entries.
-/
import proofs.«100994_j40140764348434_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.PayloadsAt

open Cert.KernelIdeal Cert.KernelIdeal.Gen Idealize.ShloMosaic Idealize.ShloMosaic.ValueIdx

/-! ## Re-layouts and lane reductions at a coordinate pair -/

section Layout
variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along `b` lanes reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The word of minus infinity denotes the bottom element. -/
theorem ofBits_negInf_f32 : Ideal.ofBits .f32 0xFF800000#32 = ⊥ := by simp [Ideal.ofBits, Ideal.ieee]

/-- A fold of `max` from the bottom element is the supremum. -/
theorem fold_max_bot {ι : Type} (s : Finset ι) (f : ι → EReal) : s.fold max ⊥ f = s.sup f := rfl

/-- A sum along the lanes of an `[a, b]` block reads, at row `p`, the sum over the lane coordinate. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src _ h hφ hacc (ix1 p)).trans ?_
  refine Finset.sum_congr rfl fun n _ => congrArg src (funext fun c => Fin.ext ?_)
  match c with
  | ⟨0, _⟩ => rfl
  | ⟨1, _⟩ => rfl

/-- A maximum along the lanes of an `[a, b]` block, started from minus infinity, reads, at row `p`, the supremum
    over the lane coordinate. -/
theorem laneMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = Finset.univ.sup fun n : Fin b => src (ix2 p n) := by
  refine (Ideal.multiReduction_maximumf_single src _ h hφ hacc (ix1 p)).trans ?_
  refine (congrArg (fun z => (Finset.univ : Finset (Fin ((⟨2, ![a, b]⟩ : Shape).size 1))).fold max z (src ∘ h.lift (ix1 p)))
    ofBits_negInf_f32).trans ?_
  refine (fold_max_bot _ _).trans ?_
  exact congrArg (Finset.univ.sup) (funext fun n => congrArg src (funext fun c => Fin.ext (by
    match c with
    | ⟨0, _⟩ => rfl
    | ⟨1, _⟩ => rfl)))

/-! ## The matrix products -/

/-- On the left operand's free axis the operand index is the output row. -/
theorem lhsFree_proj (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- On the right operand's free axis the operand index is the output column. -/
theorem rhsFree_proj (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The keys' projection tile: a 1024 × 1024 block times a 1024 × 1024 block. Into a zero accumulator, entry (p, q) is the sum over the contracted coordinate of the
    operands' products. -/
theorem mm_proj {φ₁ φ₂ : FTy} (prec : Option ContractPrecision) (l : FVec Ideal S1024x1024 φ₁) (r : FVec Ideal S1024x1024 φ₂)
    (p : Fin 1024) (q : Fin 1024) :
    matmul dot_S1024x1024_S1024x1024_S1024x1024_1_0_0_1_n_n prec l r (constant (F := Ideal) S1024x1024 .f32 0x00000000#32) (ix2 p q)
      = ∑ k : Fin 1024, l (ix2 p k) * r (ix2 k q) := by
  refine (Ideal.matmul_constant_zero_apply dot_S1024x1024_S1024x1024_S1024x1024_1_0_0_1_n_n prec l r (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhsFree_proj _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact rhsFree_proj _ _)
  rw [el, er]

/-- On the left operand's free axis the operand index is the output row. -/
theorem lhsFree_projWide (i : S1024x2048.Idx) (c : dot_S1024x1024_S1024x2048_S1024x2048_1_0_0_1_n_n.contr.Idx) :
    (dot_S1024x1024_S1024x2048_S1024x2048_1_0_0_1_n_n.lhsIdx i c 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl

/-- On the right operand's free axis the operand index is the output column. -/
theorem rhsFree_projWide (i : S1024x2048.Idx) (c : dot_S1024x1024_S1024x2048_S1024x2048_1_0_0_1_n_n.contr.Idx) :
    (dot_S1024x1024_S1024x2048_S1024x2048_1_0_0_1_n_n.rhsIdx i c 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The values' projection tile: a 1024 × 1024 block times a 1024 × 2048 block. Into a zero accumulator, entry (p, q) is the sum over the contracted coordinate of the
    operands' products. -/
theorem mm_projWide {φ₁ φ₂ : FTy} (prec : Option ContractPrecision) (l : FVec Ideal S1024x1024 φ₁) (r : FVec Ideal S1024x2048 φ₂)
    (p : Fin 1024) (q : Fin 2048) :
    matmul dot_S1024x1024_S1024x2048_S1024x2048_1_0_0_1_n_n prec l r (constant (F := Ideal) S1024x2048 .f32 0x00000000#32) (ix2 p q)
      = ∑ k : Fin 1024, l (ix2 p k) * r (ix2 k q) := by
  refine (Ideal.matmul_constant_zero_apply dot_S1024x1024_S1024x2048_S1024x2048_1_0_0_1_n_n prec l r (ix2 p q)).trans ?_
  rw [← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p q) ((contrEquiv1 dot_S1024x1024_S1024x2048_S1024x2048_1_0_0_1_n_n 1024 rfl rfl).symm k) = ix2 p k := funext fun a => Fin.ext (by
    match a with
    | ⟨0, _⟩ => exact lhsFree_projWide _ _
    | ⟨1, _⟩ => exact (dot_S1024x1024_S1024x2048_S1024x2048_1_0_0_1_n_n.lhsIdx_val_of_single rfl _ _).trans hk)
  have er : dot_S1024x1024_S1024x2048_S1024x2048_1_0_0_1_n_n.rhsIdx (ix2 p q) ((contrEquiv1 dot_S1024x1024_S1024x2048_S1024x2048_1_0_0_1_n_n 1024 rfl rfl).symm k) = ix2 k q := funext fun a => Fin.ext (by
    match a with
    | ⟨0, _⟩ => exact (dot_S1024x1024_S1024x2048_S1024x2048_1_0_0_1_n_n.rhsIdx_val_of_single rfl _ _).trans hk
    | ⟨1, _⟩ => exact rhsFree_projWide _ _)
  rw [el, er]

/-- On the left operand's free axis the operand index is the output row. -/
theorem lhsFree_score (i : S128x512.Idx) (c : dot_S128x4096_S512x4096_S128x512_1_1_0_0_n_n.contr.Idx) :
    (dot_S128x4096_S512x4096_S128x512_1_1_0_0_n_n.lhsIdx i c 0).val = (i 0).val := by
  unfold DotDims.lhsIdx
  rw [dif_neg (show ¬(0 : Fin S128x4096.rank) ∈ dot_S128x4096_S512x4096_S128x512_1_1_0_0_n_n.lhsBatch by decide), dif_pos (show (0 : Fin S128x4096.rank) ∈ dot_S128x4096_S512x4096_S128x512_1_1_0_0_n_n.lhsNonContracting by decide)]
  rfl

/-- On the right operand's free axis the operand index is the output column. -/
theorem rhsFree_score (i : S128x512.Idx) (c : dot_S128x4096_S512x4096_S128x512_1_1_0_0_n_n.contr.Idx) :
    (dot_S128x4096_S512x4096_S128x512_1_1_0_0_n_n.rhsIdx i c 0).val = (i 1).val := by
  unfold DotDims.rhsIdx
  rw [dif_neg (show ¬(0 : Fin S512x4096.rank) ∈ dot_S128x4096_S512x4096_S128x512_1_1_0_0_n_n.rhsBatch by decide), dif_pos (show (0 : Fin S512x4096.rank) ∈ dot_S128x4096_S512x4096_S128x512_1_1_0_0_n_n.rhsNonContracting by decide)]
  rfl

/-- The score tile: 128 query rows against 512 key rows, both contracted along their 4096 features. Into a zero accumulator, entry (p, q) is the sum over the contracted coordinate of the
    operands' products. -/
theorem mm_score {φ₁ φ₂ : FTy} (prec : Option ContractPrecision) (l : FVec Ideal S128x4096 φ₁) (r : FVec Ideal S512x4096 φ₂)
    (p : Fin 128) (q : Fin 512) :
    matmul dot_S128x4096_S512x4096_S128x512_1_1_0_0_n_n prec l r (constant (F := Ideal) S128x512 .f32 0x00000000#32) (ix2 p q)
      = ∑ k : Fin 4096, l (ix2 p k) * r (ix2 q k) := by
  refine (Ideal.matmul_constant_zero_apply dot_S128x4096_S512x4096_S128x512_1_1_0_0_n_n prec l r (ix2 p q)).trans ?_
  rw [← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 p q) ((contrEquiv1 dot_S128x4096_S512x4096_S128x512_1_1_0_0_n_n 4096 rfl rfl).symm k) = ix2 p k := funext fun a => Fin.ext (by
    match a with
    | ⟨0, _⟩ => exact lhsFree_score _ _
    | ⟨1, _⟩ => exact (dot_S128x4096_S512x4096_S128x512_1_1_0_0_n_n.lhsIdx_val_of_single rfl _ _).trans hk)
  have er : dot_S128x4096_S512x4096_S128x512_1_1_0_0_n_n.rhsIdx (ix2 p q) ((contrEquiv1 dot_S128x4096_S512x4096_S128x512_1_1_0_0_n_n 4096 rfl rfl).symm k) = ix2 q k := funext fun a => Fin.ext (by
    match a with
    | ⟨0, _⟩ => exact rhsFree_score _ _
    | ⟨1, _⟩ => exact (dot_S128x4096_S512x4096_S128x512_1_1_0_0_n_n.rhsIdx_val_of_single rfl _ _).trans hk)
  rw [el, er]

/-- On the left operand's free axis the operand index is the output row. -/
theorem lhsFree_mix (i : S128x4096.Idx) (c : dot_S128x512_S512x4096_S128x4096_1_0_0_1_n_n.contr.Idx) :
    (dot_S128x512_S512x4096_S128x4096_1_0_0_1_n_n.lhsIdx i c 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl

/-- On the right operand's free axis the operand index is the output column. -/
theorem rhsFree_mix (i : S128x4096.Idx) (c : dot_S128x512_S512x4096_S128x4096_1_0_0_1_n_n.contr.Idx) :
    (dot_S128x512_S512x4096_S128x4096_1_0_0_1_n_n.rhsIdx i c 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- The weighted combination of value rows: a 128 × 512 block of weights times a 512 × 4096 block of values. Into a zero accumulator, entry (p, q) is the sum over the contracted coordinate of the
    operands' products. -/
theorem mm_mix {φ₁ φ₂ : FTy} (prec : Option ContractPrecision) (l : FVec Ideal S128x512 φ₁) (r : FVec Ideal S512x4096 φ₂)
    (p : Fin 128) (q : Fin 4096) :
    matmul dot_S128x512_S512x4096_S128x4096_1_0_0_1_n_n prec l r (constant (F := Ideal) S128x4096 .f32 0x00000000#32) (ix2 p q)
      = ∑ k : Fin 512, l (ix2 p k) * r (ix2 k q) := by
  refine (Ideal.matmul_constant_zero_apply dot_S128x512_S512x4096_S128x4096_1_0_0_1_n_n prec l r (ix2 p q)).trans ?_
  rw [← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 p q) ((contrEquiv1 dot_S128x512_S512x4096_S128x4096_1_0_0_1_n_n 512 rfl rfl).symm k) = ix2 p k := funext fun a => Fin.ext (by
    match a with
    | ⟨0, _⟩ => exact lhsFree_mix _ _
    | ⟨1, _⟩ => exact (dot_S128x512_S512x4096_S128x4096_1_0_0_1_n_n.lhsIdx_val_of_single rfl _ _).trans hk)
  have er : dot_S128x512_S512x4096_S128x4096_1_0_0_1_n_n.rhsIdx (ix2 p q) ((contrEquiv1 dot_S128x512_S512x4096_S128x4096_1_0_0_1_n_n 512 rfl rfl).symm k) = ix2 k q := funext fun a => Fin.ext (by
    match a with
    | ⟨0, _⟩ => exact (dot_S128x512_S512x4096_S128x4096_1_0_0_1_n_n.rhsIdx_val_of_single rfl _ _).trans hk
    | ⟨1, _⟩ => exact rhsFree_mix _ _)
  rw [el, er]

/-! ## The keys' projection -/

/-- The accumulator's first value is zero. -/
theorem pay0_1 (p q : Fin 1024) : k0_pay1 (F := Ideal) (ix2 p q) = 0 := by
  unfold k0_pay1
  refine (congrFun (shapeCast_self _ _) _).trans ?_
  exact Ideal.ofBits_zero_f32

/-- One step of the accumulation: the running value plus the tile product. -/
theorem pay0_2 (v3 : Vec Ideal S1024x1024 .f32) (v4 : Vec Ideal S1024x1024 .bf16) (v6 : Vec Ideal S1024x1024 .bf16)
    (p q : Fin 1024) :
    k0_pay2 (F := Ideal) v3 v4 v6 (ix2 p q) = v3 (ix2 p q) + ∑ k : Fin 1024, v4 (ix2 p k) * v6 (ix2 k q) := by
  unfold k0_pay2
  refine (congrFun (shapeCast_self _ _) _).trans ?_
  refine (addf_apply _ _ _).trans ?_
  refine congrArg (v3 (ix2 p q) + ·) ?_
  refine (mm_proj none _ _ p q).trans ?_
  rw [shapeCast_self, shapeCast_self]

/-- The last step adds the bias row to every row. -/
theorem pay0_3 (v16 : Vec Ideal S1024x1024 .f32) (v17 : Vec Ideal S1x1024 .f32) (p q : Fin 1024) :
    k0_pay3 (F := Ideal) v16 v17 (ix2 p q) = v16 (ix2 p q) + v17 (ix2 (0 : Fin 1) q) := by
  unfold k0_pay3
  refine (addf_apply _ _ _).trans ?_
  refine congrArg (v16 (ix2 p q) + ·) ?_
  refine (broadcastTo_1b_ab_apply _ _ p q).trans ?_
  rw [shapeCast_self]

/-! ## The attention tile -/

/-- The carried output tile is stored as it is. -/
theorem pay2_1 (v32 : FVec Ideal S128x4096 .f32) : k2_pay1 (F := Ideal) v32 = v32 := by
  unfold k2_pay1
  exact shapeCast_self _ _

/-- The carried running maximum is stored as it is. -/
theorem pay2_2 (v10 : FVec Ideal S128x1 .f32) : k2_pay2 (F := Ideal) v10 = v10 := by
  unfold k2_pay2
  exact shapeCast_self _ _

/-- The running maximum starts at minus infinity. -/
theorem pay2_4 (p : Fin 128) : k2_pay4 (F := Ideal) (ix2 p (0 : Fin 1)) = ⊥ := by
  unfold k2_pay4
  refine (congrFun (shapeCast_self _ _) _).trans ?_
  exact ofBits_negInf_f32

/-- The running denominator starts at zero. -/
theorem pay2_5 (p : Fin 128) : k2_pay5 (F := Ideal) (ix2 p (0 : Fin 1)) = 0 := by
  unfold k2_pay5
  refine (congrFun (shapeCast_self _ _) _).trans ?_
  exact Ideal.ofBits_zero_f32

/-- The running output tile starts at zero. -/
theorem pay2_6 (p : Fin 128) (e : Fin 4096) : k2_pay6 (F := Ideal) (ix2 p e) = 0 := by
  unfold k2_pay6
  refine (congrFun (shapeCast_self _ _) _).trans ?_
  exact Ideal.ofBits_zero_f32

/-- The scores: query row `p` against key row `n`, their inner product over the features. -/
theorem pay2_7 (v3 : Vec Ideal S128x4096 .f32) (v4 : Vec Ideal S512x4096 .f32) (p : Fin 128) (n : Fin 512) :
    k2_pay7 (F := Ideal) v3 v4 (ix2 p n) = ∑ d : Fin 4096, v3 (ix2 p d) * v4 (ix2 n d) := by
  unfold k2_pay7
  refine (mm_score (some .fp32) _ _ p n).trans ?_
  rw [shapeCast_self]

/-- The new running maximum: the old one against the largest score of the row in this tile. -/
theorem pay2_8 (v3 : Vec Ideal S128x4096 .f32) (v4 : Vec Ideal S512x4096 .f32) (v7 : Vec Ideal S128x1 .f32) (p : Fin 128) :
    k2_pay8 (F := Ideal) v3 v4 v7 (ix2 p (0 : Fin 1))
      = max (v7 (ix2 p (0 : Fin 1))) (Finset.univ.sup fun n : Fin 512 => k2_pay7 (F := Ideal) v3 v4 (ix2 p n)) := by
  unfold k2_pay8
  refine (maximumf_apply _ _ _).trans ?_
  refine congrArg (max (v7 (ix2 p (0 : Fin 1)))) ?_
  refine (shapeCast_a_a1_apply _ _ p (0 : Fin 1)).trans ?_
  exact laneMax_apply _ _ _ _ p

/-- The factor that rescales what was accumulated under the old maximum. -/
theorem pay2_9 (v3 : Vec Ideal S128x4096 .f32) (v4 : Vec Ideal S512x4096 .f32) (v7 : Vec Ideal S128x1 .f32)
    (v11 : Vec Ideal S128x1 .f32) (p : Fin 128) :
    k2_pay9 (F := Ideal) v3 v4 v7 v11 (ix2 p (0 : Fin 1))
      = Ideal.exp (v11 (ix2 p (0 : Fin 1)) - k2_pay8 (F := Ideal) v3 v4 v7 (ix2 p (0 : Fin 1))) := by
  unfold k2_pay9
  rfl

/-- The tile's numerators: each score less the new running maximum of its row, exponentiated. -/
theorem pay2_10 (v3 : Vec Ideal S128x4096 .f32) (v4 : Vec Ideal S512x4096 .f32) (v7 : Vec Ideal S128x1 .f32)
    (p : Fin 128) (n : Fin 512) :
    k2_pay10 (F := Ideal) v3 v4 v7 (ix2 p n)
      = Ideal.exp (k2_pay7 (F := Ideal) v3 v4 (ix2 p n) - k2_pay8 (F := Ideal) v3 v4 v7 (ix2 p (0 : Fin 1))) := by
  unfold k2_pay10
  show Ideal.exp (k2_pay7 (F := Ideal) v3 v4 (ix2 p n)
    - broadcastTo S128x512 (k2_pay8 (F := Ideal) v3 v4 v7) broadcasts_S128x1_S128x512 (ix2 p n)) = _
  exact congrArg (fun z => Ideal.exp (k2_pay7 (F := Ideal) v3 v4 (ix2 p n) - z)) (broadcastTo_a1_ab_apply _ _ p n)

/-- The new running denominator: the old one rescaled, plus the tile's numerators summed along the row. -/
theorem pay2_11 (v3 : Vec Ideal S128x4096 .f32) (v4 : Vec Ideal S512x4096 .f32) (v7 : Vec Ideal S128x1 .f32)
    (v11 : Vec Ideal S128x1 .f32) (v17 : Vec Ideal S128x1 .f32) (p : Fin 128) :
    k2_pay11 (F := Ideal) v3 v4 v7 v11 v17 (ix2 p (0 : Fin 1))
      = k2_pay9 (F := Ideal) v3 v4 v7 v11 (ix2 p (0 : Fin 1)) * v17 (ix2 p (0 : Fin 1))
        + ∑ n : Fin 512, k2_pay10 (F := Ideal) v3 v4 v7 (ix2 p n) := by
  unfold k2_pay11
  refine (congrFun (shapeCast_self _ _) _).trans ?_
  refine (addf_apply _ _ _).trans ?_
  refine congrArg (k2_pay9 (F := Ideal) v3 v4 v7 v11 (ix2 p (0 : Fin 1)) * v17 (ix2 p (0 : Fin 1)) + ·) ?_
  refine (shapeCast_a_a1_apply _ _ p (0 : Fin 1)).trans ?_
  exact laneSum_apply _ _ _ _ p

/-- The new running output tile: the old one rescaled, plus the numerators against the value rows. -/
theorem pay2_12 (v3 : Vec Ideal S128x4096 .f32) (v4 : Vec Ideal S512x4096 .f32) (v7 : Vec Ideal S128x1 .f32)
    (v11 : Vec Ideal S128x1 .f32) (v25 : Vec Ideal S128x4096 .f32) (v29 : Vec Ideal S512x4096 .bf16)
    (p : Fin 128) (e : Fin 4096) :
    k2_pay12 (F := Ideal) v3 v4 v7 v11 v25 v29 (ix2 p e)
      = k2_pay9 (F := Ideal) v3 v4 v7 v11 (ix2 p (0 : Fin 1)) * v25 (ix2 p e)
        + ∑ n : Fin 512, k2_pay10 (F := Ideal) v3 v4 v7 (ix2 p n) * v29 (ix2 n e) := by
  unfold k2_pay12
  refine (addf_apply _ _ _).trans ?_
  refine congrArg₂ (· + ·) ?_ ?_
  · refine (mulf_apply _ _ _).trans ?_
    exact congrArg (· * v25 (ix2 p e)) (broadcastTo_a1_ab_apply _ _ p e)
  · refine (mm_mix none _ _ p e).trans ?_
    rw [shapeCast_self]
    rfl

/-- The final division: the accumulated output tile over the accumulated denominator of its row. -/
theorem pay2_3 (v42 : Vec Ideal S128x4096 .f32) (v43 : Vec Ideal S128x1 .f32) (p : Fin 128) (e : Fin 4096) :
    k2_pay3 (F := Ideal) v42 v43 (ix2 p e) = Ideal.div (v42 (ix2 p e)) (v43 (ix2 p (0 : Fin 1))) := by
  unfold k2_pay3
  refine (divf_apply _ _ _).trans ?_
  exact congrArg (Ideal.div (v42 (ix2 p e))) (broadcastTo_a1_ab_apply _ _ p e)

/-! ## The values' projection -/

/-- The accumulator's first value is zero. -/
theorem pay1_1 (p : Fin 1024) (q : Fin 2048) : k1_pay1 (F := Ideal) (ix2 p q) = 0 := by
  unfold k1_pay1
  refine (congrFun (shapeCast_self _ _) _).trans ?_
  exact Ideal.ofBits_zero_f32

/-- One step of the accumulation: the running value plus the tile product. -/
theorem pay1_2 (v3 : Vec Ideal S1024x2048 .f32) (v4 : Vec Ideal S1024x1024 .bf16) (v6 : Vec Ideal S1024x2048 .bf16)
    (p : Fin 1024) (q : Fin 2048) :
    k1_pay2 (F := Ideal) v3 v4 v6 (ix2 p q) = v3 (ix2 p q) + ∑ k : Fin 1024, v4 (ix2 p k) * v6 (ix2 k q) := by
  unfold k1_pay2
  refine (congrFun (shapeCast_self _ _) _).trans ?_
  refine (addf_apply _ _ _).trans ?_
  refine congrArg (v3 (ix2 p q) + ·) ?_
  refine (mm_projWide none _ _ p q).trans ?_
  rw [shapeCast_self, shapeCast_self]

/-- The last step adds the bias row to every row; the change of format that follows is the identity on the
    extended reals. -/
theorem pay1_3 (v16 : Vec Ideal S1024x2048 .f32) (v17 : Vec Ideal S1x2048 .f32) (p : Fin 1024) (q : Fin 2048) :
    k1_pay3 (F := Ideal) v16 v17 (ix2 p q) = v16 (ix2 p q) + v17 (ix2 (0 : Fin 1) q) := by
  unfold k1_pay3
  show addf (F := Ideal) v16 (broadcastTo S1024x2048 (shapeCast S1x2048 v17 shapeCasts_S1x2048_S1x2048)
    broadcasts_S1x2048_S1024x2048) (ix2 p q) = _
  refine (addf_apply _ _ _).trans ?_
  refine congrArg (v16 (ix2 p q) + ·) ?_
  refine (broadcastTo_1b_ab_apply _ _ p q).trans ?_
  rw [shapeCast_self]

end Cert.PayloadsAt

end
-- ==== Proof.Val0.lean ====
/-
  Region 0 (the keys projection): the value of the array it leaves.

  The grid is 8 x 4 x 4; point t has row block t / 16, column block (t / 4) % 4 and contraction block t % 4. Over the four
  points of a run the accumulator goes through (((0 + B₀) + B₁) + B₂) + B₃, where B_j at entry (p, q) of the block is the
  sum over kk < 1024 of the source entry (p, 1024 j + kk) of the row block times the weight entry (1024 j + kk, q) of the
  column block; at the run's last point the output block is left at that plus the bias row and is written back. Addition
  of extended reals is associative with 0 + a = a, and the sum over 4096 consecutive indices is the sum of the sums over
  its four blocks of 1024, so every entry (n, d) of the result array ends at the whole contraction sum plus the bias at d.
-/
import proofs.«100994_j40140764348434_2_alg».proof.Proof.Frame0
import proofs.«100994_j40140764348434_2_alg».proof.Proof.PayloadsAt
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

namespace R0

theorem hz : (![0, 0] : Fin 2 → Nat) = fun _ => 0 := funext fun a => by fin_cases a <;> rfl

/-! ## What each control case leaves, as a value -/

/-- A middle step leaves the accumulator at what it held plus the block product. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec Ideal S1024x1024 .bf16) (x2 : Vec Ideal S1x1024 .f32) (xs : Vec Ideal S1024x1024 .f32) :
    sout0_B (F := Ideal) c i a3 h3 a4 h4 a5 h5 a6 h6 a7 h7 hc0 hc1 x0 x1 x2 xs = k0_pay2 (F := Ideal) xs x0 x1 := by
  unfold sout0_B
  rw [View.read_writes_eq_canon _ _ _ (scover0_B c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S1024x1024) hz, shapeCast_self]

/-- The first step resets the accumulator and leaves the reset value plus the first block product. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec Ideal S1024x1024 .bf16) (x2 : Vec Ideal S1x1024 .f32) :
    sout0_A (F := Ideal) c i a3 h3 a4 h4 a5 h5 a6 h6 a7 h7 hc0 hc1 x0 x1 x2 = k0_pay2 (F := Ideal) (k0_pay1 (F := Ideal)) x0 x1 := by
  unfold sout0_A
  rw [View.read_writes_eq_canon _ _ _ (scover0_A c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, shapeCast_self]

/-- The last step leaves the accumulator at what it held plus the block product … -/
theorem sout_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec Ideal S1024x1024 .bf16) (x2 : Vec Ideal S1x1024 .f32) (xs : Vec Ideal S1024x1024 .f32) :
    sout0_C (F := Ideal) c i a3 h3 a4 h4 a5 h5 a6 h6 a7 h7 hc0 hc1 x0 x1 x2 xs = k0_pay2 (F := Ideal) xs x0 x1 := by
  unfold sout0_C
  rw [View.read_writes_eq_canon _ _ _ (scover0_C c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x1024) hz, shapeCast_self]

/-- … and the output block at that plus the bias row. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec Ideal S1024x1024 .bf16) (x2 : Vec Ideal S1x1024 .f32) (xs : Vec Ideal S1024x1024 .f32) :
    out0_C (F := Ideal) c i a3 h3 a4 h4 a5 h5 a6 h6 a7 h7 hc0 hc1 x0 x1 x2 xs = k0_pay3 (F := Ideal) (k0_pay2 (F := Ideal) xs x0 x1) x2 := by
  unfold out0_C
  rw [View.read_writes_eq_canon _ _ _ (cover0_C c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x1024) hz, View.ld_unit_zero (S := S1x1024) hz, shapeCast_self]

variable (V : (c : Dev nD) → (b : Ref sig .tc) → Buf (Elt Ideal) ((c : Thread nD τ).loc b))

/-! ## The arrays the region reads, at an entry -/

/-- The source array at row `n`, column `k`. -/
abbrev keySrc (c : Dev nD) (n : Fin 8192) (k : Fin 4096) : EReal := V c main_v1 (ix2 n k)
/-- The weight array at row `k`, column `d`. -/
abbrev keyWt (c : Dev nD) (k d : Fin 4096) : EReal := V c main_v3 (ix2 k d)
/-- The bias row at column `d`. -/
abbrev keyBias (c : Dev nD) (d : Fin 4096) : EReal := V c main_v6 (ix2 (0 : Fin 1) d)

/-! ## The windows' blocks read at an index -/

/-- The source block at a point: rows of row block `t / 16`, columns of contraction block `t % 4`. -/
theorem iblk_src (c : Dev nD) (t : Fin cfg0.N) (p k : Fin 1024) (n : Fin 8192) (kc : Fin 4096)
    (hn : n.val = 1024 * (t.val / 16) + p.val) (hk : kc.val = 1024 * (t.val % 4) + k.val) :
    (iblk0 (F := Ideal) V c 0 t : Vec Ideal S1024x1024 .bf16) (ix2 p k) = keySrc V c n kc := by
  have hi := (by decide +kernel : ∀ t : Fin grid0.N, win0_0.index t 0 = t.val / 16 ∧ win0_0.index t 1 = t.val % 4) t
  unfold iblk0
  rw [View.read_apply]
  show V c main_v1 _ = V c main_v1 _
  congr 1
  funext a
  apply Fin.ext
  match a with
  | ⟨0, _⟩ => show win0_0.index t 0 * 1024 + 1 * p.val = n.val; rw [hi.1, hn]; omega
  | ⟨1, _⟩ => show win0_0.index t 1 * 1024 + 1 * k.val = kc.val; rw [hi.2, hk]; omega

/-- The weight block at a point: rows of contraction block `t % 4`, columns of column block `(t / 4) % 4`. -/
theorem iblk_wt (c : Dev nD) (t : Fin cfg0.N) (k q : Fin 1024) (kc : Fin 4096) (d : Fin 4096)
    (hk : kc.val = 1024 * (t.val % 4) + k.val) (hd : d.val = 1024 * (t.val / 4 % 4) + q.val) :
    (iblk0 (F := Ideal) V c 1 t : Vec Ideal S1024x1024 .bf16) (ix2 k q) = keyWt V c kc d := by
  have hi := (by decide +kernel : ∀ t : Fin grid0.N, win0_1.index t 0 = t.val % 4 ∧ win0_1.index t 1 = t.val / 4 % 4) t
  unfold iblk0
  rw [View.read_apply]
  show V c main_v3 _ = V c main_v3 _
  congr 1
  funext a
  apply Fin.ext
  match a with
  | ⟨0, _⟩ => show win0_1.index t 0 * 1024 + 1 * k.val = kc.val; rw [hi.1, hk]; omega
  | ⟨1, _⟩ => show win0_1.index t 1 * 1024 + 1 * q.val = d.val; rw [hi.2, hd]; omega

/-- The bias block at a point: the one row, columns of column block `(t / 4) % 4`. -/
theorem iblk_bias (c : Dev nD) (t : Fin cfg0.N) (q : Fin 1024) (d : Fin 4096)
    (hd : d.val = 1024 * (t.val / 4 % 4) + q.val) :
    (iblk0 (F := Ideal) V c 2 t : Vec Ideal S1x1024 .f32) (ix2 (0 : Fin 1) q) = keyBias V c d := by
  have hi := (by decide +kernel : ∀ t : Fin grid0.N, win0_2.index t 0 = 0 ∧ win0_2.index t 1 = t.val / 4 % 4) t
  unfold iblk0
  rw [View.read_apply]
  show V c main_v6 _ = V c main_v6 _
  congr 1
  funext a
  apply Fin.ext
  match a with
  | ⟨0, _⟩ => show win0_2.index t 0 * 1 + 1 * 0 = 0; rw [hi.1]
  | ⟨1, _⟩ => show win0_2.index t 1 * 1024 + 1 * q.val = d.val; rw [hi.2, hd]; omega

/-! ## The accumulator, point by point, at an entry -/

/-- Entry (p, q) of the product of two blocks. -/
def dotAt (x0 x1 : Vec Ideal S1024x1024 .bf16) (p q : Fin 1024) : EReal :=
  ∑ kk : Fin 1024, x0 (ix2 p kk) * x1 (ix2 kk q)

/-- Entry q of a one-row block. -/
def rowAt (x2 : Vec Ideal S1x1024 .f32) (q : Fin 1024) : EReal := x2 (ix2 (0 : Fin 1) q)

/-- The block product of a point at an entry of the block. -/
def bp (c : Dev nD) (n : ℕ) (hn : n < cfg0.N) (p q : Fin 1024) : EReal :=
  dotAt (iblk0 (F := Ideal) V c 0 ⟨n, hn⟩) (iblk0 (F := Ideal) V c 1 ⟨n, hn⟩) p q

/-- At the first contraction block the accumulator is left at zero plus the block product. -/
theorem acc_first (c : Dev nD) (n : ℕ) (hn : n < cfg0.N) (h0 : n % 4 = 0) (p q : Fin 1024) :
    accAt0 (F := Ideal) V c n hn (ix2 p q) = 0 + bp V c n hn p q := by
  refine (congrFun (accAt0_A V c ⟨n, hn⟩ h0 (by show ¬n % 4 = 3; omega)) _).trans ?_
  refine (congrFun (sout_A ..) _).trans ?_
  refine (Cert.PayloadsAt.pay0_2 _ _ _ p q).trans ?_
  rw [Cert.PayloadsAt.pay0_1]
  rfl

/-- At a later contraction block it is left at what the point before left plus the block product. -/
theorem acc_next (c : Dev nD) (n : ℕ) (hn : n < cfg0.N) (h0 : ¬n % 4 = 0) (hn' : n - 1 < cfg0.N) (p q : Fin 1024) :
    accAt0 (F := Ideal) V c n hn (ix2 p q) = accAt0 (F := Ideal) V c (n - 1) hn' (ix2 p q) + bp V c n hn p q := by
  by_cases h1 : n % 4 = 3
  · refine (congrFun (accAt0_C V c ⟨n, hn⟩ h0 h1) _).trans ?_
    refine (congrFun (sout_C ..) _).trans ?_
    exact Cert.PayloadsAt.pay0_2 _ _ _ p q
  · refine (congrFun (accAt0_B V c ⟨n, hn⟩ h0 h1) _).trans ?_
    refine (congrFun (sout_B ..) _).trans ?_
    exact Cert.PayloadsAt.pay0_2 _ _ _ p q

/-- At the last contraction block the output block is left at the accumulator's value there plus the bias row. -/
theorem out_last (c : Dev nD) (t : Fin cfg0.N) (h1 : t.val % 4 = 3) (hn' : t.val - 1 < cfg0.N) (p q : Fin 1024) :
    outAt0 (F := Ideal) V c t (ix2 p q)
      = (accAt0 (F := Ideal) V c (t.val - 1) hn' (ix2 p q) + bp V c t.val t.isLt p q)
        + rowAt (iblk0 (F := Ideal) V c 2 t) q := by
  refine (congrFun (outAt0_C V c t (by omega) h1) _).trans ?_
  refine (congrFun (out_C ..) _).trans ?_
  refine (Cert.PayloadsAt.pay0_3 _ _ p q).trans ?_
  rw [Cert.PayloadsAt.pay0_2]
  rfl

/-- So at the last contraction block the output block holds the four block products of its run, added in order from
    zero, plus the bias row. -/
theorem out_run (c : Dev nD) (t : Fin cfg0.N) (h1 : t.val % 4 = 3)
    (h3 : t.val - 3 < cfg0.N) (h2 : t.val - 2 < cfg0.N) (h1' : t.val - 1 < cfg0.N) (p q : Fin 1024) :
    outAt0 (F := Ideal) V c t (ix2 p q)
      = ((((0 + bp V c (t.val - 3) h3 p q) + bp V c (t.val - 2) h2 p q) + bp V c (t.val - 1) h1' p q) + bp V c t.val t.isLt p q)
        + rowAt (iblk0 (F := Ideal) V c 2 t) q := by
  have a2 : t.val - 1 - 1 = t.val - 2 := by omega
  have a3 : t.val - 2 - 1 = t.val - 3 := by omega
  have e1 := acc_next V c (t.val - 1) h1' (by omega) (by rw [a2]; exact h2) p q
  have e2 := acc_next V c (t.val - 2) h2 (by omega) (by rw [a3]; exact h3) p q
  have e3 := acc_first V c (t.val - 3) h3 (by omega) p q
  simp only [a2] at e1
  simp only [a3] at e2
  rw [out_last V c t h1 h1' p q, e1, e2, e3]

/-! ## The block products over the arrays, and the array the region leaves -/

/-- A sum over 4096 consecutive indices is the sum of the four sums over its consecutive blocks of 1024, added in order
    from zero. -/
theorem sum_cut4 (f : Fin 4096 → EReal) :
    ∑ k, f k = (((0 + ∑ kk : Fin 1024, f ⟨kk.val, by omega⟩) + ∑ kk : Fin 1024, f ⟨1024 + kk.val, by omega⟩)
      + ∑ kk : Fin 1024, f ⟨2048 + kk.val, by omega⟩) + ∑ kk : Fin 1024, f ⟨3072 + kk.val, by omega⟩ := by
  have e : ∑ k, f k = ∑ j : Fin 4, ∑ kk : Fin 1024, f ⟨1024 * j.val + kk.val, by omega⟩ := by
    rw [← Equiv.sum_comp (finProdFinEquiv (m := 4) (n := 1024)) f, Fintype.sum_prod_type]
    refine Finset.sum_congr rfl fun j _ => Finset.sum_congr rfl fun kk _ => ?_
    exact congrArg f (Fin.ext (by show kk.val + 1024 * j.val = 1024 * j.val + kk.val; omega))
  have b0 : ∑ kk : Fin 1024, f ⟨1024 * (0 : Fin 4).val + kk.val, by omega⟩ = ∑ kk : Fin 1024, f ⟨kk.val, by omega⟩ :=
    Finset.sum_congr rfl fun kk _ => congrArg f (Fin.ext (by show 1024 * 0 + kk.val = kk.val; omega))
  have b1 : ∑ kk : Fin 1024, f ⟨1024 * (1 : Fin 4).val + kk.val, by omega⟩ = ∑ kk : Fin 1024, f ⟨1024 + kk.val, by omega⟩ :=
    Finset.sum_congr rfl fun kk _ => congrArg f (Fin.ext (by show 1024 * 1 + kk.val = 1024 + kk.val; omega))
  have b2 : ∑ kk : Fin 1024, f ⟨1024 * (2 : Fin 4).val + kk.val, by omega⟩ = ∑ kk : Fin 1024, f ⟨2048 + kk.val, by omega⟩ :=
    Finset.sum_congr rfl fun kk _ => congrArg f (Fin.ext (by show 1024 * 2 + kk.val = 2048 + kk.val; omega))
  have b3 : ∑ kk : Fin 1024, f ⟨1024 * (3 : Fin 4).val + kk.val, by omega⟩ = ∑ kk : Fin 1024, f ⟨3072 + kk.val, by omega⟩ :=
    Finset.sum_congr rfl fun kk _ => congrArg f (Fin.ext (by show 1024 * 3 + kk.val = 3072 + kk.val; omega))
  rw [e, Fin.sum_univ_four, zero_add, b0, b1, b2, b3]

/-- A point's block product is the part of the contraction sum over its contraction block. -/
theorem bp_eq (c : Dev nD) (s : ℕ) (hs : s < cfg0.N) (p q : Fin 1024) (n : Fin 8192) (d : Fin 4096)
    (hn : n.val = 1024 * (s / 16) + p.val) (hd : d.val = 1024 * (s / 4 % 4) + q.val)
    (κ : Fin 1024 → Fin 4096) (hκ : ∀ kk, (κ kk).val = 1024 * (s % 4) + kk.val) :
    bp V c s hs p q = ∑ kk : Fin 1024, keySrc V c n (κ kk) * keyWt V c (κ kk) d := by
  unfold bp dotAt
  refine Finset.sum_congr rfl fun kk _ => ?_
  rw [iblk_src V c ⟨s, hs⟩ p kk n (κ kk) hn (hκ kk), iblk_wt V c ⟨s, hs⟩ kk q (κ kk) d (hκ kk) hd]

/-- The projection at an entry: the whole contraction sum plus the bias. -/
def proj (c : Dev nD) (n : Fin 8192) (d : Fin 4096) : EReal :=
  (∑ k : Fin 4096, keySrc V c n k * keyWt V c k d) + keyBias V c d

/-- At the last contraction block the output block holds the projection at the entries of its row and column block. -/
theorem out_proj (c : Dev nD) (t : Fin cfg0.N) (h1 : t.val % 4 = 3) (p q : Fin 1024) (n : Fin 8192) (d : Fin 4096)
    (hn : n.val = 1024 * (t.val / 16) + p.val) (hd : d.val = 1024 * (t.val / 4 % 4) + q.val) :
    outAt0 (F := Ideal) V c t (ix2 p q) = proj V c n d := by
  have hN : cfg0.N = 128 := N_0
  have ht := t.isLt
  rw [out_run V c t h1 (by omega) (by omega) (by omega) p q]
  rw [bp_eq V c (t.val - 3) (by omega) p q n d (by omega) (by omega) (fun kk => ⟨kk.val, by omega⟩) (fun kk => by show kk.val = _; omega),
    bp_eq V c (t.val - 2) (by omega) p q n d (by omega) (by omega) (fun kk => ⟨1024 + kk.val, by omega⟩) (fun kk => by show 1024 + kk.val = _; omega),
    bp_eq V c (t.val - 1) (by omega) p q n d (by omega) (by omega) (fun kk => ⟨2048 + kk.val, by omega⟩) (fun kk => by show 2048 + kk.val = _; omega),
    bp_eq V c t.val t.isLt p q n d hn hd (fun kk => ⟨3072 + kk.val, by omega⟩) (fun kk => by show 3072 + kk.val = _; omega)]
  unfold rowAt proj
  rw [iblk_bias V c t q d hd]
  exact congrArg (· + keyBias V c d) (sum_cut4 fun k => keySrc V c n k * keyWt V c k d).symm

/-- The array of projections. -/
def G (c : Dev nD) : S8192x4096.Idx → EReal := fun i => proj V c (i 0) (i 1)

/-- The output block a flushing point leaves, at an index of the block, is the array of projections at the index's place
    in the array. -/
theorem flushed_at (c : Dev nD) (t : Fin cfg0.N) (h1 : t.val % 4 = 3) (j : S1024x1024.Idx) (i : S8192x4096.Idx)
    (e0 : (i 0).val = 1024 * (t.val / 16) + (j 0).val) (e1 : (i 1).val = 1024 * (t.val / 4 % 4) + (j 1).val) :
    outAt0 (F := Ideal) V c t j = G V c i :=
  (congrArg (outAt0 (F := Ideal) V c t) (eq_ix2 j)).trans (out_proj V c t h1 (j 0) (j 1) (i 0) (i 1) e0 e1)

/-- What a flushing point writes back is its block of the array of projections. -/
theorem flushed_eq (c : Dev nD) (t : Fin cfg0.N) (hf : (cfg0.win 3).flush t = true) :
    (dat0 (F := Ideal) V c).flushed 3 t = ((cfg0.win 3).blk t).view.read (Elt Ideal) (G V c) := by
  have h1 : t.val % 4 = 3 := (flush0_3 t).mp hf
  have hi := (by decide +kernel : ∀ t : Fin grid0.N, win0_3.index t 0 = t.val / 16 ∧ win0_3.index t 1 = t.val / 4 % 4) t
  funext j
  show outAt0 (F := Ideal) V c t ((cfg0.win 3).xinj (grid0.coords t) j) = _
  rw [View.read_apply]
  show outAt0 (F := Ideal) V c t _ = G V c _
  refine flushed_at V c t h1 _ _ ?_ ?_
  · show win0_3.index t 0 * 1024 + 1 * (j 0).val = 1024 * (t.val / 16) + (j 0).val
    rw [hi.1]; omega
  · show win0_3.index t 1 * 1024 + 1 * (j 1).val = 1024 * (t.val / 4 % 4) + (j 1).val
    rw [hi.2]; omega

end R0

/-- THE KEYS: after the region the result array holds, at row `n` and column `d`, the sum over the whole contraction of the
    source row's entries times the weight column's, plus the bias at `d`. -/
theorem keys_final (V : (c : Dev nD) → (b : Ref sig .tc) → Buf (Elt Ideal) ((c : Thread nD τ).loc b)) (c : Dev nD) (n : Fin 8192) (d : Fin 4096) :
    (Cert.KernelIdeal.Fr.dat0 (F := Ideal) V c).arrAt 3 cfg0.N (ValueIdx.ix2 n d)
      = (∑ k : Fin 4096, R0.keySrc V c n k * R0.keyWt V c k d) + R0.keyBias V c d := by
  have hn := n.isLt
  have hd := d.isLt
  have hN : cfg0.N = 128 := N_0
  have hT : 16 * (n.val / 1024) + 4 * (d.val / 1024) + 3 < cfg0.N := by omega
  obtain ⟨t, ht⟩ : ∃ t : Fin cfg0.N, t.val = 16 * (n.val / 1024) + 4 * (d.val / 1024) + 3 := ⟨⟨_, hT⟩, rfl⟩
  have hi := (by decide +kernel : ∀ t : Fin grid0.N, win0_3.index t 0 = t.val / 16 ∧ win0_3.index t 1 = t.val / 4 % 4) t
  refine (Dat.arrAt_apply_of_mem (dat0 (F := Ideal) V c) 3 (R0.G V c) (R0.flushed_eq V c) cfg0.N t (ix2 n d) t.isLt
    ((flush0_3 t).mpr (by omega)) ?_).trans rfl
  show ix2 n d ∈ ((View.whole main_v8).slice (win0_3.rect t)).set
  rw [View.set_slice_whole, Rect.mem_set_unit]
  intro a
  match a with
  | ⟨0, _⟩ =>
    show win0_3.index t 0 * 1024 ≤ n.val ∧ n.val < win0_3.index t 0 * 1024 + 1024
    rw [hi.1]; omega
  | ⟨1, _⟩ =>
    show win0_3.index t 1 * 1024 ≤ d.val ∧ d.val < win0_3.index t 1 * 1024 + 1024
    rw [hi.2]; omega

end Cert.KernelIdeal.Val

end
-- ==== Proof.Val1.lean ====
/-
  Region 1 (the values projection): the value of the array it leaves.

  The grid is 8 x 2 x 4; point t has row block t / 8, column block (t / 4) % 2 and contraction block t % 4. Over the four
  points of a run the accumulator goes through (((0 + B₀) + B₁) + B₂) + B₃, where B_j at entry (p, q) of the block is the
  sum over kk < 1024 of the source entry (p, 1024 j + kk) of the row block times the weight entry (1024 j + kk, q) of the
  column block (2048 columns wide); at the run's last point the output block is left at that plus the bias row — the
  change of format that follows is the identity on extended reals — and is written back. Addition of extended reals is
  associative with 0 + a = a, and the sum over 4096 consecutive indices is the sum of the sums over its four blocks of
  1024, so every entry (n, e) of the result array ends at the whole contraction sum plus the bias at e.
-/
import proofs.«100994_j40140764348434_2_alg».proof.Proof.Frame1
import proofs.«100994_j40140764348434_2_alg».proof.Proof.PayloadsAt
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

namespace R1

theorem hz : (![0, 0] : Fin 2 → Nat) = fun _ => 0 := funext fun a => by fin_cases a <;> rfl

/-! ## What each control case leaves, as a value -/

/-- A middle step leaves the accumulator at what it held plus the block product. -/
theorem sout_B (c : Dev nD) (i : grid1.Coords) (a3 : Memref sig .tc .vmem S1024x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S1024x2048 .bf16) (h6 : a6.IsWhole) (a7 : Memref sig .tc .vmem S1024x2048 .f32) (h7 : a7.IsWhole) (hc0 : ¬cond1_0 i) (hc1 : ¬cond1_1 i)
    (x0 : Vec Ideal S1024x1024 .bf16) (x1 : Vec Ideal S1024x2048 .bf16) (x2 : Vec Ideal S1x2048 .f32) (xs : Vec Ideal S1024x2048 .f32) :
    sout1_B (F := Ideal) c i a3 h3 a4 h4 a5 h5 a6 h6 a7 h7 hc0 hc1 x0 x1 x2 xs = k1_pay2 (F := Ideal) xs x0 x1 := by
  unfold sout1_B
  rw [View.read_writes_eq_canon _ _ _ (scover1_B c i a3 h3 a4 h4 a5 h5 a6 h6 a7 h7 hc0 hc1 x0 x1 x2 xs)]
  unfold kernelRun1_B
  dsimp only
  rw [View.canon_unit_zero hz]
  simp only [View.readAt_eq_ld, h3.read_unread, h4.read_unread, h7.read_unread, View.ld_unit_zero (S := S1024x1024) hz, View.ld_unit_zero (S := S1024x2048) hz, shapeCast_self]

/-- The first step resets the accumulator and leaves the reset value plus the first block product. -/
theorem sout_A (c : Dev nD) (i : grid1.Coords) (a3 : Memref sig .tc .vmem S1024x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S1024x2048 .bf16) (h6 : a6.IsWhole) (a7 : Memref sig .tc .vmem S1024x2048 .f32) (h7 : a7.IsWhole) (hc0 : cond1_0 i) (hc1 : ¬cond1_1 i)
    (x0 : Vec Ideal S1024x1024 .bf16) (x1 : Vec Ideal S1024x2048 .bf16) (x2 : Vec Ideal S1x2048 .f32) :
    sout1_A (F := Ideal) c i a3 h3 a4 h4 a5 h5 a6 h6 a7 h7 hc0 hc1 x0 x1 x2 = k1_pay2 (F := Ideal) (k1_pay1 (F := Ideal)) x0 x1 := by
  unfold sout1_A
  rw [View.read_writes_eq_canon _ _ _ (scover1_A c i a3 h3 a4 h4 a5 h5 a6 h6 a7 h7 hc0 hc1 x0 x1 x2)]
  unfold kernelRun1_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x1024) hz, View.ld_unit_zero (S := S1024x2048) hz, shapeCast_self]

/-- The last step leaves the accumulator at what it held plus the block product … -/
theorem sout_C (c : Dev nD) (i : grid1.Coords) (a3 : Memref sig .tc .vmem S1024x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S1024x2048 .bf16) (h6 : a6.IsWhole) (a7 : Memref sig .tc .vmem S1024x2048 .f32) (h7 : a7.IsWhole) (hc0 : ¬cond1_0 i) (hc1 : cond1_1 i)
    (x0 : Vec Ideal S1024x1024 .bf16) (x1 : Vec Ideal S1024x2048 .bf16) (x2 : Vec Ideal S1x2048 .f32) (xs : Vec Ideal S1024x2048 .f32) :
    sout1_C (F := Ideal) c i a3 h3 a4 h4 a5 h5 a6 h6 a7 h7 hc0 hc1 x0 x1 x2 xs = k1_pay2 (F := Ideal) xs x0 x1 := by
  unfold sout1_C
  rw [View.read_writes_eq_canon _ _ _ (scover1_C c i a3 h3 a4 h4 a5 h5 a6 h6 a7 h7 hc0 hc1 x0 x1 x2 xs)]
  unfold kernelRun1_C
  dsimp only
  sl_unfold_words
  rw [View.canon_unit_zero hz]
  simp only [View.readAt_eq_ld, h3.read_unread, h4.read_unread, h7.read_unread, View.ld_unit_zero (S := S1024x1024) hz, View.ld_unit_zero (S := S1024x2048) hz, shapeCast_self]

/-- … and the output block at that plus the bias row. -/
theorem out_C (c : Dev nD) (i : grid1.Coords) (a3 : Memref sig .tc .vmem S1024x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S1024x2048 .bf16) (h6 : a6.IsWhole) (a7 : Memref sig .tc .vmem S1024x2048 .f32) (h7 : a7.IsWhole) (hc0 : ¬cond1_0 i) (hc1 : cond1_1 i)
    (x0 : Vec Ideal S1024x1024 .bf16) (x1 : Vec Ideal S1024x2048 .bf16) (x2 : Vec Ideal S1x2048 .f32) (xs : Vec Ideal S1024x2048 .f32) :
    out1_C (F := Ideal) c i a3 h3 a4 h4 a5 h5 a6 h6 a7 h7 hc0 hc1 x0 x1 x2 xs = k1_pay3 (F := Ideal) (k1_pay2 (F := Ideal) xs x0 x1) x2 := by
  unfold out1_C
  rw [View.read_writes_eq_canon _ _ _ (cover1_C c i a3 h3 a4 h4 a5 h5 a6 h6 a7 h7 hc0 hc1 x0 x1 x2 xs)]
  unfold kernelRun1_C
  dsimp only
  sl_unfold_words
  rw [View.canon_unit_zero hz, View.readCov_unit_zero (S := S1024x2048) _ hz]
  simp only [View.readAt_eq_ld, h3.read_unread, h4.read_unread, h5.read_unread, h7.read_unread, View.ld_unit_zero (S := S1024x1024) hz, View.ld_unit_zero (S := S1024x2048) hz, View.ld_unit_zero (S := S1x2048) hz, shapeCast_self]

variable (V : (c : Dev nD) → (b : Ref sig .tc) → Buf (Elt Ideal) ((c : Thread nD τ).loc b))

/-! ## The arrays the region reads, at an entry -/

/-- The source array at row `n`, column `k`. -/
abbrev valSrc (c : Dev nD) (n : Fin 8192) (k : Fin 4096) : EReal := V c main_v1 (ix2 n k)
/-- The weight array at row `k`, column `d`. -/
abbrev valWt (c : Dev nD) (k d : Fin 4096) : EReal := V c main_v5 (ix2 k d)
/-- The bias row at column `d`. -/
abbrev valBias (c : Dev nD) (d : Fin 4096) : EReal := V c main_v7 (ix2 (0 : Fin 1) d)

/-! ## The windows' blocks read at an index -/

/-- The source block at a point: rows of row block `t / 8`, columns of contraction block `t % 4`. -/
theorem iblk_src (c : Dev nD) (t : Fin cfg1.N) (p k : Fin 1024) (n : Fin 8192) (kc : Fin 4096)
    (hn : n.val = 1024 * (t.val / 8) + p.val) (hk : kc.val = 1024 * (t.val % 4) + k.val) :
    (iblk1 (F := Ideal) V c 0 t : Vec Ideal S1024x1024 .bf16) (ix2 p k) = valSrc V c n kc := by
  have hi := (by decide +kernel : ∀ t : Fin grid1.N, win1_0.index t 0 = t.val / 8 ∧ win1_0.index t 1 = t.val % 4) t
  unfold iblk1
  rw [View.read_apply]
  show V c main_v1 _ = V c main_v1 _
  congr 1
  funext a
  apply Fin.ext
  match a with
  | ⟨0, _⟩ => show win1_0.index t 0 * 1024 + 1 * p.val = n.val; rw [hi.1, hn]; omega
  | ⟨1, _⟩ => show win1_0.index t 1 * 1024 + 1 * k.val = kc.val; rw [hi.2, hk]; omega

/-- The weight block at a point: rows of contraction block `t % 4`, columns of column block `(t / 4) % 2`. -/
theorem iblk_wt (c : Dev nD) (t : Fin cfg1.N) (k : Fin 1024) (q : Fin 2048) (kc : Fin 4096) (d : Fin 4096)
    (hk : kc.val = 1024 * (t.val % 4) + k.val) (hd : d.val = 2048 * (t.val / 4 % 2) + q.val) :
    (iblk1 (F := Ideal) V c 1 t : Vec Ideal S1024x2048 .bf16) (ix2 k q) = valWt V c kc d := by
  have hi := (by decide +kernel : ∀ t : Fin grid1.N, win1_1.index t 0 = t.val % 4 ∧ win1_1.index t 1 = t.val / 4 % 2) t
  unfold iblk1
  rw [View.read_apply]
  show V c main_v5 _ = V c main_v5 _
  congr 1
  funext a
  apply Fin.ext
  match a with
  | ⟨0, _⟩ => show win1_1.index t 0 * 1024 + 1 * k.val = kc.val; rw [hi.1, hk]; omega
  | ⟨1, _⟩ => show win1_1.index t 1 * 2048 + 1 * q.val = d.val; rw [hi.2, hd]; omega

/-- The bias block at a point: the one row, columns of column block `(t / 4) % 2`. -/
theorem iblk_bias (c : Dev nD) (t : Fin cfg1.N) (q : Fin 2048) (d : Fin 4096)
    (hd : d.val = 2048 * (t.val / 4 % 2) + q.val) :
    (iblk1 (F := Ideal) V c 2 t : Vec Ideal S1x2048 .f32) (ix2 (0 : Fin 1) q) = valBias V c d := by
  have hi := (by decide +kernel : ∀ t : Fin grid1.N, win1_2.index t 0 = 0 ∧ win1_2.index t 1 = t.val / 4 % 2) t
  unfold iblk1
  rw [View.read_apply]
  show V c main_v7 _ = V c main_v7 _
  congr 1
  funext a
  apply Fin.ext
  match a with
  | ⟨0, _⟩ => show win1_2.index t 0 * 1 + 1 * 0 = 0; rw [hi.1]
  | ⟨1, _⟩ => show win1_2.index t 1 * 2048 + 1 * q.val = d.val; rw [hi.2, hd]; omega

/-! ## The accumulator, point by point, at an entry -/

/-- Entry (p, q) of the product of two blocks. -/
def dotAt (x0 : Vec Ideal S1024x1024 .bf16) (x1 : Vec Ideal S1024x2048 .bf16) (p : Fin 1024) (q : Fin 2048) : EReal :=
  ∑ kk : Fin 1024, x0 (ix2 p kk) * x1 (ix2 kk q)

/-- Entry q of a one-row block. -/
def rowAt (x2 : Vec Ideal S1x2048 .f32) (q : Fin 2048) : EReal := x2 (ix2 (0 : Fin 1) q)

/-- The block product of a point at an entry of the block. -/
def bp (c : Dev nD) (n : ℕ) (hn : n < cfg1.N) (p : Fin 1024) (q : Fin 2048) : EReal :=
  dotAt (iblk1 (F := Ideal) V c 0 ⟨n, hn⟩) (iblk1 (F := Ideal) V c 1 ⟨n, hn⟩) p q

/-- At the first contraction block the accumulator is left at zero plus the block product. -/
theorem acc_first (c : Dev nD) (n : ℕ) (hn : n < cfg1.N) (h0 : n % 4 = 0) (p : Fin 1024) (q : Fin 2048) :
    accAt1 (F := Ideal) V c n hn (ix2 p q) = 0 + bp V c n hn p q := by
  refine (congrFun (accAt1_A V c ⟨n, hn⟩ h0 (by show ¬n % 4 = 3; omega)) _).trans ?_
  refine (congrFun (sout_A ..) _).trans ?_
  refine (Cert.PayloadsAt.pay1_2 _ _ _ p q).trans ?_
  rw [Cert.PayloadsAt.pay1_1]
  rfl

/-- At a later contraction block it is left at what the point before left plus the block product. -/
theorem acc_next (c : Dev nD) (n : ℕ) (hn : n < cfg1.N) (h0 : ¬n % 4 = 0) (hn' : n - 1 < cfg1.N) (p : Fin 1024) (q : Fin 2048) :
    accAt1 (F := Ideal) V c n hn (ix2 p q) = accAt1 (F := Ideal) V c (n - 1) hn' (ix2 p q) + bp V c n hn p q := by
  by_cases h1 : n % 4 = 3
  · refine (congrFun (accAt1_C V c ⟨n, hn⟩ h0 h1) _).trans ?_
    refine (congrFun (sout_C ..) _).trans ?_
    exact Cert.PayloadsAt.pay1_2 _ _ _ p q
  · refine (congrFun (accAt1_B V c ⟨n, hn⟩ h0 h1) _).trans ?_
    refine (congrFun (sout_B ..) _).trans ?_
    exact Cert.PayloadsAt.pay1_2 _ _ _ p q

/-- At the last contraction block the output block is left at the accumulator's value there plus the bias row. -/
theorem out_last (c : Dev nD) (t : Fin cfg1.N) (h1 : t.val % 4 = 3) (hn' : t.val - 1 < cfg1.N) (p : Fin 1024) (q : Fin 2048) :
    outAt1 (F := Ideal) V c t (ix2 p q)
      = (accAt1 (F := Ideal) V c (t.val - 1) hn' (ix2 p q) + bp V c t.val t.isLt p q)
        + rowAt (iblk1 (F := Ideal) V c 2 t) q := by
  refine (congrFun (outAt1_C V c t (by omega) h1) _).trans ?_
  refine (congrFun (out_C ..) _).trans ?_
  refine (Cert.PayloadsAt.pay1_3 _ _ p q).trans ?_
  rw [Cert.PayloadsAt.pay1_2]
  rfl

/-- So at the last contraction block the output block holds the four block products of its run, added in order from
    zero, plus the bias row. -/
theorem out_run (c : Dev nD) (t : Fin cfg1.N) (h1 : t.val % 4 = 3)
    (h3 : t.val - 3 < cfg1.N) (h2 : t.val - 2 < cfg1.N) (h1' : t.val - 1 < cfg1.N) (p : Fin 1024) (q : Fin 2048) :
    outAt1 (F := Ideal) V c t (ix2 p q)
      = ((((0 + bp V c (t.val - 3) h3 p q) + bp V c (t.val - 2) h2 p q) + bp V c (t.val - 1) h1' p q) + bp V c t.val t.isLt p q)
        + rowAt (iblk1 (F := Ideal) V c 2 t) q := by
  have a2 : t.val - 1 - 1 = t.val - 2 := by omega
  have a3 : t.val - 2 - 1 = t.val - 3 := by omega
  have e1 := acc_next V c (t.val - 1) h1' (by omega) (by rw [a2]; exact h2) p q
  have e2 := acc_next V c (t.val - 2) h2 (by omega) (by rw [a3]; exact h3) p q
  have e3 := acc_first V c (t.val - 3) h3 (by omega) p q
  simp only [a2] at e1
  simp only [a3] at e2
  rw [out_last V c t h1 h1' p q, e1, e2, e3]

/-! ## The block products over the arrays, and the array the region leaves -/

/-- A sum over 4096 consecutive indices is the sum of the four sums over its consecutive blocks of 1024, added in order
    from zero. -/
theorem sum_cut4 (f : Fin 4096 → EReal) :
    ∑ k, f k = (((0 + ∑ kk : Fin 1024, f ⟨kk.val, by omega⟩) + ∑ kk : Fin 1024, f ⟨1024 + kk.val, by omega⟩)
      + ∑ kk : Fin 1024, f ⟨2048 + kk.val, by omega⟩) + ∑ kk : Fin 1024, f ⟨3072 + kk.val, by omega⟩ := by
  have e : ∑ k, f k = ∑ j : Fin 4, ∑ kk : Fin 1024, f ⟨1024 * j.val + kk.val, by omega⟩ := by
    rw [← Equiv.sum_comp (finProdFinEquiv (m := 4) (n := 1024)) f, Fintype.sum_prod_type]
    refine Finset.sum_congr rfl fun j _ => Finset.sum_congr rfl fun kk _ => ?_
    exact congrArg f (Fin.ext (by show kk.val + 1024 * j.val = 1024 * j.val + kk.val; omega))
  have b0 : ∑ kk : Fin 1024, f ⟨1024 * (0 : Fin 4).val + kk.val, by omega⟩ = ∑ kk : Fin 1024, f ⟨kk.val, by omega⟩ :=
    Finset.sum_congr rfl fun kk _ => congrArg f (Fin.ext (by show 1024 * 0 + kk.val = kk.val; omega))
  have b1 : ∑ kk : Fin 1024, f ⟨1024 * (1 : Fin 4).val + kk.val, by omega⟩ = ∑ kk : Fin 1024, f ⟨1024 + kk.val, by omega⟩ :=
    Finset.sum_congr rfl fun kk _ => congrArg f (Fin.ext (by show 1024 * 1 + kk.val = 1024 + kk.val; omega))
  have b2 : ∑ kk : Fin 1024, f ⟨1024 * (2 : Fin 4).val + kk.val, by omega⟩ = ∑ kk : Fin 1024, f ⟨2048 + kk.val, by omega⟩ :=
    Finset.sum_congr rfl fun kk _ => congrArg f (Fin.ext (by show 1024 * 2 + kk.val = 2048 + kk.val; omega))
  have b3 : ∑ kk : Fin 1024, f ⟨1024 * (3 : Fin 4).val + kk.val, by omega⟩ = ∑ kk : Fin 1024, f ⟨3072 + kk.val, by omega⟩ :=
    Finset.sum_congr rfl fun kk _ => congrArg f (Fin.ext (by show 1024 * 3 + kk.val = 3072 + kk.val; omega))
  rw [e, Fin.sum_univ_four, zero_add, b0, b1, b2, b3]

/-- A point's block product is the part of the contraction sum over its contraction block. -/
theorem bp_eq (c : Dev nD) (s : ℕ) (hs : s < cfg1.N) (p : Fin 1024) (q : Fin 2048) (n : Fin 8192) (d : Fin 4096)
    (hn : n.val = 1024 * (s / 8) + p.val) (hd : d.val = 2048 * (s / 4 % 2) + q.val)
    (κ : Fin 1024 → Fin 4096) (hκ : ∀ kk, (κ kk).val = 1024 * (s % 4) + kk.val) :
    bp V c s hs p q = ∑ kk : Fin 1024, valSrc V c n (κ kk) * valWt V c (κ kk) d := by
  unfold bp dotAt
  refine Finset.sum_congr rfl fun kk _ => ?_
  rw [iblk_src V c ⟨s, hs⟩ p kk n (κ kk) hn (hκ kk), iblk_wt V c ⟨s, hs⟩ kk q (κ kk) d (hκ kk) hd]

/-- The projection at an entry: the whole contraction sum plus the bias. -/
def proj (c : Dev nD) (n : Fin 8192) (d : Fin 4096) : EReal :=
  (∑ k : Fin 4096, valSrc V c n k * valWt V c k d) + valBias V c d

/-- At the last contraction block the output block holds the projection at the entries of its row and column block. -/
theorem out_proj (c : Dev nD) (t : Fin cfg1.N) (h1 : t.val % 4 = 3) (p : Fin 1024) (q : Fin 2048) (n : Fin 8192) (d : Fin 4096)
    (hn : n.val = 1024 * (t.val / 8) + p.val) (hd : d.val = 2048 * (t.val / 4 % 2) + q.val) :
    outAt1 (F := Ideal) V c t (ix2 p q) = proj V c n d := by
  have hN : cfg1.N = 64 := N_1
  have ht := t.isLt
  rw [out_run V c t h1 (by omega) (by omega) (by omega) p q]
  rw [bp_eq V c (t.val - 3) (by omega) p q n d (by omega) (by omega) (fun kk => ⟨kk.val, by omega⟩) (fun kk => by show kk.val = _; omega),
    bp_eq V c (t.val - 2) (by omega) p q n d (by omega) (by omega) (fun kk => ⟨1024 + kk.val, by omega⟩) (fun kk => by show 1024 + kk.val = _; omega),
    bp_eq V c (t.val - 1) (by omega) p q n d (by omega) (by omega) (fun kk => ⟨2048 + kk.val, by omega⟩) (fun kk => by show 2048 + kk.val = _; omega),
    bp_eq V c t.val t.isLt p q n d hn hd (fun kk => ⟨3072 + kk.val, by omega⟩) (fun kk => by show 3072 + kk.val = _; omega)]
  unfold rowAt proj
  rw [iblk_bias V c t q d hd]
  exact congrArg (· + valBias V c d) (sum_cut4 fun k => valSrc V c n k * valWt V c k d).symm

/-- The array of projections. -/
def G (c : Dev nD) : S8192x4096.Idx → EReal := fun i => proj V c (i 0) (i 1)

/-- The output block a flushing point leaves, at an index of the block, is the array of projections at the index's place
    in the array. -/
theorem flushed_at (c : Dev nD) (t : Fin cfg1.N) (h1 : t.val % 4 = 3) (j : S1024x2048.Idx) (i : S8192x4096.Idx)
    (e0 : (i 0).val = 1024 * (t.val / 8) + (j 0).val) (e1 : (i 1).val = 2048 * (t.val / 4 % 2) + (j 1).val) :
    outAt1 (F := Ideal) V c t j = G V c i :=
  (congrArg (outAt1 (F := Ideal) V c t) (eq_ix2 j)).trans (out_proj V c t h1 (j 0) (j 1) (i 0) (i 1) e0 e1)

/-- What a flushing point writes back is its block of the array of projections. -/
theorem flushed_eq (c : Dev nD) (t : Fin cfg1.N) (hf : (cfg1.win 3).flush t = true) :
    (dat1 (F := Ideal) V c).flushed 3 t = ((cfg1.win 3).blk t).view.read (Elt Ideal) (G V c) := by
  have h1 : t.val % 4 = 3 := (flush1_3 t).mp hf
  have hi := (by decide +kernel : ∀ t : Fin grid1.N, win1_3.index t 0 = t.val / 8 ∧ win1_3.index t 1 = t.val / 4 % 2) t
  funext j
  show outAt1 (F := Ideal) V c t ((cfg1.win 3).xinj (grid1.coords t) j) = _
  rw [View.read_apply]
  show outAt1 (F := Ideal) V c t _ = G V c _
  refine flushed_at V c t h1 _ _ ?_ ?_
  · show win1_3.index t 0 * 1024 + 1 * (j 0).val = 1024 * (t.val / 8) + (j 0).val
    rw [hi.1]; omega
  · show win1_3.index t 1 * 2048 + 1 * (j 1).val = 2048 * (t.val / 4 % 2) + (j 1).val
    rw [hi.2]; omega

end R1

/-- THE VALUES: after the region the result array holds, at row `n` and column `e`, the sum over the whole contraction of the
    source row's entries times the weight column's, plus the bias at `e`. -/
theorem values_final (V : (c : Dev nD) → (b : Ref sig .tc) → Buf (Elt Ideal) ((c : Thread nD τ).loc b)) (c : Dev nD) (n : Fin 8192) (e : Fin 4096) :
    (Cert.KernelIdeal.Fr.dat1 (F := Ideal) V c).arrAt 3 cfg1.N (ValueIdx.ix2 n e)
      = (∑ k : Fin 4096, R1.valSrc V c n k * R1.valWt V c k e) + R1.valBias V c e := by
  have hn := n.isLt
  have he := e.isLt
  have hN : cfg1.N = 64 := N_1
  have hT : 8 * (n.val / 1024) + 4 * (e.val / 2048) + 3 < cfg1.N := by omega
  obtain ⟨t, ht⟩ : ∃ t : Fin cfg1.N, t.val = 8 * (n.val / 1024) + 4 * (e.val / 2048) + 3 := ⟨⟨_, hT⟩, rfl⟩
  have hi := (by decide +kernel : ∀ t : Fin grid1.N, win1_3.index t 0 = t.val / 8 ∧ win1_3.index t 1 = t.val / 4 % 2) t
  refine (Dat.arrAt_apply_of_mem (dat1 (F := Ideal) V c) 3 (R1.G V c) (R1.flushed_eq V c) cfg1.N t (ix2 n e) t.isLt
    ((flush1_3 t).mpr (by omega)) ?_).trans rfl
  show ix2 n e ∈ ((View.whole main_v9).slice (win1_3.rect t)).set
  rw [View.set_slice_whole, Rect.mem_set_unit]
  intro a
  match a with
  | ⟨0, _⟩ =>
    show win1_3.index t 0 * 1024 ≤ n.val ∧ n.val < win1_3.index t 0 * 1024 + 1024
    rw [hi.1]; omega
  | ⟨1, _⟩ =>
    show win1_3.index t 1 * 2048 ≤ e.val ∧ e.val < win1_3.index t 1 * 2048 + 2048
    rw [hi.2]; omega

end Cert.KernelIdeal.Val

end
-- ==== Proof.AttnSpec.lean ====
/-
  The specification: single-query-block attention over projected keys and values, index by index on the extended reals.

  From a source matrix x (N rows of D features), a query matrix q (L rows), and two affine maps (a weight matrix and a bias each):
    keys n d   = (sum over k of x n k * Wk d k) + bk d
    values n e = (sum over k of x n k * Wv e k) + bv e
    score l n  = sum over d of q l d * keys n d
  and, per query row l, with M l the largest score of the row and Z l the sum over n of exp (score l n - M l),
    out l e    = sum over n of (exp (score l n - M l) / Z l) * values n e.
  Everything is stated over plain finite index types; nothing here mentions a program.
-/
import Idealize.ShloMosaic.PureOps.Ideal

noncomputable section

namespace Cert.AttnSpec

open Idealize.ShloMosaic

/-- An affine projection of the rows of `x`: row `n`, output feature `d`. -/
def proj {N D E : ℕ} (x : Fin N → Fin D → EReal) (W : Fin E → Fin D → EReal) (b : Fin E → EReal) (n : Fin N) (d : Fin E) : EReal :=
  (∑ k : Fin D, x n k * W d k) + b d

/-- The score of query row `l` against key row `n`: their inner product. -/
def score {L N D : ℕ} (q : Fin L → Fin D → EReal) (K : Fin N → Fin D → EReal) (l : Fin L) (n : Fin N) : EReal :=
  ∑ d : Fin D, q l d * K n d

/-- The largest entry of a row (the bottom element for an empty row). -/
def rowMax {N : ℕ} (s : Fin N → EReal) : EReal := Finset.univ.sup s

/-- The softmax numerators of a row: each entry less the row's largest, exponentiated. -/
def expo {N : ℕ} (s : Fin N → EReal) (n : Fin N) : EReal := Ideal.exp (s n - rowMax s)

/-- The softmax denominator of a row. -/
def denom {N : ℕ} (s : Fin N → EReal) : EReal := ∑ n : Fin N, expo s n

/-- The softmax-weighted combination of the value rows, for one score row and one output feature. -/
def mix {N : ℕ} (s : Fin N → EReal) (v : Fin N → EReal) : EReal :=
  ∑ n : Fin N, Ideal.div (expo s n) (denom s) * v n

/-- The whole computation at query row `l` and output feature `e`. -/
def attend {L N D E : ℕ} (x : Fin N → Fin D → EReal) (q : Fin L → Fin D → EReal)
    (Wk : Fin D → Fin D → EReal) (bk : Fin D → EReal) (Wv : Fin E → Fin D → EReal) (bv : Fin E → EReal)
    (l : Fin L) (e : Fin E) : EReal :=
  mix (score q (proj x Wk bk) l) (fun n => proj x Wv bv n e)

end Cert.AttnSpec

end
-- ==== Proof.LibOnlineSoftmax.lean ====
/-
  The online-softmax law.

  A softmax-weighted sum over N = T * B scores can be computed tile by tile (T tiles of B scores), carrying a running
  maximum m, a running denominator l and a running accumulator a:
    m' = max m (largest score of the tile)
    l' = exp (m - m') * l + sum over the tile of exp (score - m')
    a' = exp (m - m') * a + sum over the tile of exp (score - m') * value
  starting from m = -infinity, l = 0, a = 0.  When every score and value is a real number, a / l after the last tile is the
  plain softmax-weighted sum: by induction, after j >= 1 tiles m is the largest M of the first j * B scores,
  l = sum of exp (score - M) and a = sum of exp (score - M) * value over those scores, because
  exp (M - M') * exp (x - M) = exp (x - M').  The first tile needs no such identity: the carried l and a are zero.
  At the end the denominator is positive (the maximum is attained, so one term is exp 0 = 1), and dividing each term
  by it is the same as dividing the sum.
-/
import Idealize.ShloMosaic.PureOps.Ideal
import proofs.«100994_j40140764348434_2_alg».proof.Proof.AttnSpec

noncomputable section

namespace Cert.LibOnlineSoftmax

open Idealize.ShloMosaic Cert.AttnSpec

/-- The inclusion of the reals in the extended reals commutes with finite sums. -/
private theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- The largest of finitely many (at least one) real numbers, taken in the extended reals, is real, bounds every entry
    and is attained. -/
private theorem sup_coe {ι : Type*} [Fintype ι] [Nonempty ι] (f : ι → ℝ) :
    ∃ t : ℝ, (Finset.univ.sup fun i => ((f i : ℝ) : EReal)) = (t : EReal) ∧ (∀ i, f i ≤ t) ∧ ∃ i, f i = t := by
  obtain ⟨i0, -, h0⟩ := Finset.exists_max_image (Finset.univ : Finset ι) f Finset.univ_nonempty
  refine ⟨f i0, le_antisymm (Finset.sup_le fun i _ => EReal.coe_le_coe_iff.2 (h0 i (Finset.mem_univ i))) ?_,
    fun i => h0 i (Finset.mem_univ i), i0, rfl⟩
  exact Finset.le_sup (f := fun i => ((f i : ℝ) : EReal)) (Finset.mem_univ i0)

/-- With the row's largest score M known (an upper bound that is attained), the softmax-weighted sum of real scores and
    values is the real number (sum of exp (s - M) * v) / (sum of exp (s - M)), and that denominator is positive. -/
private theorem mix_of_max {N : ℕ} (s v : Fin N → ℝ) (M : ℝ) (hle : ∀ n, s n ≤ M) (hmax : ∃ n, s n = M) :
    0 < (∑ n, Real.exp (s n - M)) ∧
    mix (fun n => ((s n : ℝ) : EReal)) (fun n => ((v n : ℝ) : EReal))
      = (((∑ n, Real.exp (s n - M) * v n) * (1 / ∑ n, Real.exp (s n - M)) : ℝ) : EReal) := by
  have hZ : 0 < ∑ n, Real.exp (s n - M) := by
    obtain ⟨n0, -⟩ := hmax
    exact Finset.sum_pos' (fun n _ => (Real.exp_pos _).le) ⟨n0, Finset.mem_univ _, Real.exp_pos _⟩
  refine ⟨hZ, ?_⟩
  have hrow : rowMax (fun n => ((s n : ℝ) : EReal)) = (M : EReal) := by
    obtain ⟨n0, hn0⟩ := hmax
    refine le_antisymm (Finset.sup_le fun n _ => EReal.coe_le_coe_iff.2 (hle n)) ?_
    rw [← hn0]
    exact Finset.le_sup (f := fun n => ((s n : ℝ) : EReal)) (Finset.mem_univ n0)
  have hexpo : ∀ n, expo (fun n => ((s n : ℝ) : EReal)) n = ((Real.exp (s n - M) : ℝ) : EReal) := by
    intro n
    rw [expo, hrow, ← EReal.coe_sub, Ideal.exp_coe]
  have hden : denom (fun n => ((s n : ℝ) : EReal)) = ((∑ n, Real.exp (s n - M) : ℝ) : EReal) := by
    rw [denom, coe_sum]; exact Finset.sum_congr rfl fun n _ => hexpo n
  rw [mix, Finset.sum_mul, coe_sum, hden]
  refine Finset.sum_congr rfl fun n _ => ?_
  rw [Ideal.div_coe hZ.ne', hexpo, ← EReal.coe_mul, ← EReal.coe_mul]
  congr 1; ring

/-- Rescaling the denominator of the first K scores from their maximum M to a new reference M' and adding the next B terms
    gives the denominator of the first K + B scores at M'. -/
private theorem step_l (f : ℕ → ℝ) (K B : ℕ) (M M' : ℝ) :
    Real.exp (M - M') * (∑ n ∈ Finset.range K, Real.exp (f n - M))
        + ∑ b ∈ Finset.range B, Real.exp (f (K + b) - M')
      = ∑ n ∈ Finset.range (K + B), Real.exp (f n - M') := by
  rw [Finset.sum_range_add, Finset.mul_sum]
  congr 1
  refine Finset.sum_congr rfl fun n _ => ?_
  rw [← Real.exp_add]; congr 1; ring

/-- The same for the accumulator of weighted values. -/
private theorem step_a (f w : ℕ → ℝ) (K B : ℕ) (M M' : ℝ) :
    Real.exp (M - M') * (∑ n ∈ Finset.range K, Real.exp (f n - M) * w n)
        + ∑ b ∈ Finset.range B, Real.exp (f (K + b) - M') * w (K + b)
      = ∑ n ∈ Finset.range (K + B), Real.exp (f n - M') * w n := by
  rw [Finset.sum_range_add, Finset.mul_sum]
  congr 1
  refine Finset.sum_congr rfl fun n _ => ?_
  rw [← mul_assoc, ← Real.exp_add]; congr 2; ring

theorem online_softmax_flat {T B : ℕ} (hT : 0 < T) (hB : 0 < B) (s v : Fin (T * B) → ℝ)
    (at' : (j : ℕ) → j < T → Fin B → Fin (T * B)) (hat : ∀ j hj b, (at' j hj b).val = j * B + b.val)
    (mS lS aS : ℕ → EReal) (hm0 : mS 0 = ⊥) (hl0 : lS 0 = 0) (ha0 : aS 0 = 0)
    (hm : ∀ j (hj : j < T), mS (j + 1) = max (mS j) (Finset.univ.sup fun b : Fin B => ((s (at' j hj b) : ℝ) : EReal)))
    (hl : ∀ j (hj : j < T), lS (j + 1) = Ideal.exp (mS j - mS (j + 1)) * lS j
        + ∑ b : Fin B, Ideal.exp (((s (at' j hj b) : ℝ) : EReal) - mS (j + 1)))
    (ha : ∀ j (hj : j < T), aS (j + 1) = Ideal.exp (mS j - mS (j + 1)) * aS j
        + ∑ b : Fin B, Ideal.exp (((s (at' j hj b) : ℝ) : EReal) - mS (j + 1)) * ((v (at' j hj b) : ℝ) : EReal)) :
    Ideal.div (aS T) (lS T) = Cert.AttnSpec.mix (fun n => ((s n : ℝ) : EReal)) (fun n => ((v n : ℝ) : EReal)) := by
  classical
  haveI : Nonempty (Fin B) := ⟨⟨0, hB⟩⟩
  -- the scores and the values as functions of a plain natural index (zero past the end)
  obtain ⟨s', hs'⟩ : ∃ s' : ℕ → ℝ, ∀ x : Fin (T * B), s x = s' x.val :=
    ⟨fun n => if h : n < T * B then s ⟨n, h⟩ else 0, fun x => by simp [x.isLt]⟩
  obtain ⟨v', hv'⟩ : ∃ v' : ℕ → ℝ, ∀ x : Fin (T * B), v x = v' x.val :=
    ⟨fun n => if h : n < T * B then v ⟨n, h⟩ else 0, fun x => by simp [x.isLt]⟩
  have hsat : ∀ j hj b, s (at' j hj b) = s' (j * B + b.val) := fun j hj b => by rw [hs', hat]
  have hvat : ∀ j hj b, v (at' j hj b) = v' (j * B + b.val) := fun j hj b => by rw [hv', hat]
  -- one tile's sums, as real sums
  have htileL : ∀ j hj (c : ℝ), (∑ b : Fin B, Ideal.exp (((s (at' j hj b) : ℝ) : EReal) - (c : EReal)))
      = ((∑ b ∈ Finset.range B, Real.exp (s' (j * B + b) - c) : ℝ) : EReal) := by
    intro j hj c
    rw [coe_sum, ← Fin.sum_univ_eq_sum_range (fun b => ((Real.exp (s' (j * B + b) - c) : ℝ) : EReal)) B]
    refine Finset.sum_congr rfl fun b _ => ?_
    rw [hsat, ← EReal.coe_sub, Ideal.exp_coe]
  have htileA : ∀ j hj (c : ℝ), (∑ b : Fin B, Ideal.exp (((s (at' j hj b) : ℝ) : EReal) - (c : EReal))
        * ((v (at' j hj b) : ℝ) : EReal))
      = ((∑ b ∈ Finset.range B, Real.exp (s' (j * B + b) - c) * v' (j * B + b) : ℝ) : EReal) := by
    intro j hj c
    rw [coe_sum, ← Fin.sum_univ_eq_sum_range
      (fun b => ((Real.exp (s' (j * B + b) - c) * v' (j * B + b) : ℝ) : EReal)) B]
    refine Finset.sum_congr rfl fun b _ => ?_
    rw [hsat, hvat, ← EReal.coe_sub, Ideal.exp_coe, ← EReal.coe_mul]
  have htileM : ∀ j hj, ∃ t : ℝ, (Finset.univ.sup fun b : Fin B => ((s (at' j hj b) : ℝ) : EReal)) = (t : EReal)
      ∧ (∀ b : Fin B, s' (j * B + b.val) ≤ t) ∧ ∃ b : Fin B, s' (j * B + b.val) = t := by
    intro j hj
    obtain ⟨t, ht, htle, b0, hb0⟩ := sup_coe (fun b : Fin B => s (at' j hj b))
    exact ⟨t, ht, fun b => by rw [← hsat j hj b]; exact htle b, b0, by rw [← hsat j hj b0]; exact hb0⟩
  -- the invariant after j + 1 tiles
  have inv : ∀ j, j < T → ∃ M : ℝ, mS (j + 1) = (M : EReal)
      ∧ (∀ n, n < (j + 1) * B → s' n ≤ M) ∧ (∃ n, n < (j + 1) * B ∧ s' n = M)
      ∧ lS (j + 1) = ((∑ n ∈ Finset.range ((j + 1) * B), Real.exp (s' n - M) : ℝ) : EReal)
      ∧ aS (j + 1) = ((∑ n ∈ Finset.range ((j + 1) * B), Real.exp (s' n - M) * v' n : ℝ) : EReal) := by
    intro j
    induction j with
    | zero =>
      intro hj
      obtain ⟨t, ht, htle, b0, hb0⟩ := htileM 0 hj
      have hm1 : mS (0 + 1) = (t : EReal) := by rw [hm 0 hj, hm0, ht, max_bot_left]
      have hK : (0 + 1) * B = B := by omega
      simp only [Nat.zero_mul, Nat.zero_add] at htle hb0
      refine ⟨t, hm1, ?_, ?_, ?_, ?_⟩
      · intro n hn
        rw [hK] at hn
        exact htle ⟨n, hn⟩
      · exact ⟨b0.val, by rw [hK]; exact b0.isLt, hb0⟩
      · rw [hl 0 hj, hl0, mul_zero, zero_add, hm1, htileL, hK]
        simp only [Nat.zero_mul, Nat.zero_add]
      · rw [ha 0 hj, ha0, mul_zero, zero_add, hm1, htileA, hK]
        simp only [Nat.zero_mul, Nat.zero_add]
    | succ j ih =>
      intro hj
      obtain ⟨M, hmM, hle, ⟨n0, hn0, hn0M⟩, hlM, haM⟩ := ih (by omega)
      obtain ⟨t, ht, htle, b0, hb0⟩ := htileM (j + 1) hj
      have hm1 : mS (j + 1 + 1) = ((max M t : ℝ) : EReal) := by
        rw [hm (j + 1) hj, hmM, ht, EReal.coe_strictMono.monotone.map_max]
      have hK : (j + 1 + 1) * B = (j + 1) * B + B := Nat.succ_mul _ _
      refine ⟨max M t, hm1, ?_, ?_, ?_, ?_⟩
      · intro n hn
        rw [hK] at hn
        by_cases h : n < (j + 1) * B
        · exact (hle n h).trans (le_max_left _ _)
        · have hb : n - (j + 1) * B < B := by omega
          have h2 := htle ⟨n - (j + 1) * B, hb⟩
          have e : (j + 1) * B + (n - (j + 1) * B) = n := by omega
          simp only [e] at h2
          exact h2.trans (le_max_right _ _)
      · rcases le_total t M with h | h
        · exact ⟨n0, by omega, by rw [hn0M, max_eq_left h]⟩
        · exact ⟨(j + 1) * B + b0.val, by have := b0.isLt; omega, by rw [hb0, max_eq_right h]⟩
      · rw [hl (j + 1) hj, hm1, hmM, hlM, htileL, ← EReal.coe_sub, Ideal.exp_coe, ← EReal.coe_mul,
          ← EReal.coe_add, hK, step_l]
      · rw [ha (j + 1) hj, hm1, hmM, haM, htileA, ← EReal.coe_sub, Ideal.exp_coe, ← EReal.coe_mul,
          ← EReal.coe_add, hK, step_a]
  -- after the last tile
  obtain ⟨M, -, hle, ⟨n0, hn0, hn0M⟩, hlM, haM⟩ := inv (T - 1) (by omega)
  have hT1 : T - 1 + 1 = T := by omega
  rw [hT1] at hle hn0 hlM haM
  obtain ⟨hZ, hmix⟩ := mix_of_max s v M (fun n => by rw [hs']; exact hle _ n.isLt)
    ⟨⟨n0, hn0⟩, by rw [hs']; exact hn0M⟩
  rw [hmix, hlM, haM, Finset.sum_range, Finset.sum_range]
  simp only [← hs', ← hv']
  rw [Ideal.div_coe hZ.ne', ← EReal.coe_mul]

theorem mix_real {N : ℕ} (hN : 0 < N) (s v : Fin N → ℝ) :
    ∃ r : ℝ, Cert.AttnSpec.mix (fun n => ((s n : ℝ) : EReal)) (fun n => ((v n : ℝ) : EReal)) = (r : EReal) := by
  haveI : Nonempty (Fin N) := ⟨⟨0, hN⟩⟩
  obtain ⟨n0, -, h0⟩ := Finset.exists_max_image (Finset.univ : Finset (Fin N)) s Finset.univ_nonempty
  exact ⟨_, (mix_of_max s v (s n0) (fun n => h0 n (Finset.mem_univ n)) ⟨n0, rfl⟩).2⟩

end Cert.LibOnlineSoftmax

end
-- ==== Proof.Val2.lean ====
/-
  Region 2 (attention over key/value tiles): the value of its result array.

  The three scratch buffers carry, per query row, a running maximum, a running denominator and, per output feature, a
  running weighted sum. Each tile's body replaces them by the online-softmax update of the triple with the tile's scores and
  values; the first tile starts from minus infinity, zero and zero; the last tile stores the weighted sum over the
  denominator. With real queries, keys and values every score is a real number, so the stored quotient is the plain
  softmax-weighted combination of all 8192 value rows.
-/
import proofs.«100994_j40140764348434_2_alg».proof.Proof.Frame2
import proofs.«100994_j40140764348434_2_alg».proof.Proof.PayloadsAt
import proofs.«100994_j40140764348434_2_alg».proof.Proof.LibOnlineSoftmax
import proofs.«100994_j40140764348434_2_alg».proof.Proof.AttnSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

namespace Region2

variable {F : FTy → Type} [FloatOps F]

theorem hz2 : (![0, 0] : Fin 2 → Nat) = fun _ => 0 := funext fun a => by fin_cases a <;> rfl

/-! ## What each case leaves, as payloads of the input blocks and the state before

At the first tile the three scratch buffers are first stored minus infinity, zero and zero, and the later loads read those
back; at a later tile the loads read what the tile before left. In every case the last store into each scratch buffer
covers it, so what the buffer holds afterwards is that store's payload. -/

/-- First tile: the running maximum. -/
theorem sout_A_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) :
    sout2_A_0 c i arg2 harg2 arg3 harg3 arg4 harg4 arg5 harg5 arg6 harg6 arg7 harg7 arg8 harg8 hc0 hc1 x0 x1 x2
      = k2_pay2 (k2_pay8 x0 x1 k2_pay4) := by
  unfold sout2_A_0
  rw [View.read_writes_eq_canon _ _ _ (scover2_A_0 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S128x1) hz2]
  repeat rw [View.readCov_unit_zero (S := S128x1) _ hz2]
  repeat rw [View.readCov_unit_zero (S := S128x4096) _ hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- First tile: the running denominator. -/
theorem sout_A_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) :
    sout2_A_1 c i arg2 harg2 arg3 harg3 arg4 harg4 arg5 harg5 arg6 harg6 arg7 harg7 arg8 harg8 hc0 hc1 x0 x1 x2
      = k2_pay11 x0 x1 k2_pay4 k2_pay4 k2_pay5 := by
  unfold sout2_A_1
  rw [View.read_writes_eq_canon _ _ _ (scover2_A_1 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S128x1) hz2]
  repeat rw [View.readCov_unit_zero (S := S128x1) _ hz2]
  repeat rw [View.readCov_unit_zero (S := S128x4096) _ hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- First tile: the running weighted sum. -/
theorem sout_A_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : cond2_0 i) (hc1 : ¬cond2_1 i)
    (x0 : Vec F S128x4096 .f32) (x1 : Vec F S512x4096 .f32) (x2 : Vec F S512x4096 .bf16) :
    sout2_A_2 c i arg2 harg2 arg3 harg3 arg4 harg4 arg5 harg5 arg6 harg6 arg7 harg7 arg8 harg8 hc0 hc1 x0 x1 x2
      = k2_pay1 (k2_pay12 x0 x1 k2_pay4 k2_pay4 k2_pay6 x2) := by
  unfold sout2_A_2
  rw [View.read_writes_eq_canon _ _ _ (scover2_A_2 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S128x4096) hz2]
  repeat rw [View.readCov_unit_zero (S := S128x1) _ hz2]
  repeat rw [View.readCov_unit_zero (S := S128x4096) _ hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- A middle tile: the running maximum. -/
theorem sout_B_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    sout2_B_0 c i arg2 harg2 arg3 harg3 arg4 harg4 arg5 harg5 arg6 harg6 arg7 harg7 arg8 harg8 hc0 hc1 x0 x1 x2 xs0 xs1 xs2
      = k2_pay2 (k2_pay8 x0 x1 xs0) := by
  unfold sout2_B_0
  rw [View.read_writes_eq_canon _ _ _ (scover2_B_0 c i arg2 harg2 arg3 harg3 arg4 harg4 arg5 harg5 arg6 harg6 arg7 harg7 arg8 harg8 hc0 hc1 x0 x1 x2 xs0 xs1 xs2)]
  unfold kernelRun2_B
  dsimp only
  sl_unfold_words
  rw [View.canon_unit_zero (S := S128x1) hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- A middle tile: the running denominator. -/
theorem sout_B_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    sout2_B_1 c i arg2 harg2 arg3 harg3 arg4 harg4 arg5 harg5 arg6 harg6 arg7 harg7 arg8 harg8 hc0 hc1 x0 x1 x2 xs0 xs1 xs2
      = k2_pay11 x0 x1 xs0 xs0 xs1 := by
  unfold sout2_B_1
  rw [View.read_writes_eq_canon _ _ _ (scover2_B_1 c i arg2 harg2 arg3 harg3 arg4 harg4 arg5 harg5 arg6 harg6 arg7 harg7 arg8 harg8 hc0 hc1 x0 x1 x2 xs0 xs1 xs2)]
  unfold kernelRun2_B
  dsimp only
  sl_unfold_words
  rw [View.canon_unit_zero (S := S128x1) hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- A middle tile: the running weighted sum. -/
theorem sout_B_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : ¬cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    sout2_B_2 c i arg2 harg2 arg3 harg3 arg4 harg4 arg5 harg5 arg6 harg6 arg7 harg7 arg8 harg8 hc0 hc1 x0 x1 x2 xs0 xs1 xs2
      = k2_pay1 (k2_pay12 x0 x1 xs0 xs0 xs2 x2) := by
  unfold sout2_B_2
  rw [View.read_writes_eq_canon _ _ _ (scover2_B_2 c i arg2 harg2 arg3 harg3 arg4 harg4 arg5 harg5 arg6 harg6 arg7 harg7 arg8 harg8 hc0 hc1 x0 x1 x2 xs0 xs1 xs2)]
  unfold kernelRun2_B
  dsimp only
  sl_unfold_words
  rw [View.canon_unit_zero (S := S128x4096) hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- The last tile: the running maximum. -/
theorem sout_C_0 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    sout2_C_0 c i arg2 harg2 arg3 harg3 arg4 harg4 arg5 harg5 arg6 harg6 arg7 harg7 arg8 harg8 hc0 hc1 x0 x1 x2 xs0 xs1 xs2
      = k2_pay2 (k2_pay8 x0 x1 xs0) := by
  unfold sout2_C_0
  rw [View.read_writes_eq_canon _ _ _ (scover2_C_0 c i arg2 harg2 arg3 harg3 arg4 harg4 arg5 harg5 arg6 harg6 arg7 harg7 arg8 harg8 hc0 hc1 x0 x1 x2 xs0 xs1 xs2)]
  unfold kernelRun2_C
  dsimp only
  sl_unfold_words
  rw [View.canon_unit_zero (S := S128x1) hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- The last tile: the running denominator. -/
theorem sout_C_1 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    sout2_C_1 c i arg2 harg2 arg3 harg3 arg4 harg4 arg5 harg5 arg6 harg6 arg7 harg7 arg8 harg8 hc0 hc1 x0 x1 x2 xs0 xs1 xs2
      = k2_pay11 x0 x1 xs0 xs0 xs1 := by
  unfold sout2_C_1
  rw [View.read_writes_eq_canon _ _ _ (scover2_C_1 c i arg2 harg2 arg3 harg3 arg4 harg4 arg5 harg5 arg6 harg6 arg7 harg7 arg8 harg8 hc0 hc1 x0 x1 x2 xs0 xs1 xs2)]
  unfold kernelRun2_C
  dsimp only
  sl_unfold_words
  rw [View.canon_unit_zero (S := S128x1) hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- The last tile: the running weighted sum. -/
theorem sout_C_2 (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    sout2_C_2 c i arg2 harg2 arg3 harg3 arg4 harg4 arg5 harg5 arg6 harg6 arg7 harg7 arg8 harg8 hc0 hc1 x0 x1 x2 xs0 xs1 xs2
      = k2_pay1 (k2_pay12 x0 x1 xs0 xs0 xs2 x2) := by
  unfold sout2_C_2
  rw [View.read_writes_eq_canon _ _ _ (scover2_C_2 c i arg2 harg2 arg3 harg3 arg4 harg4 arg5 harg5 arg6 harg6 arg7 harg7 arg8 harg8 hc0 hc1 x0 x1 x2 xs0 xs1 xs2)]
  unfold kernelRun2_C
  dsimp only
  sl_unfold_words
  rw [View.canon_unit_zero (S := S128x4096) hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

/-- The last tile: the output block is the new weighted sum over the new denominator (both read back from the scratch
    buffers after their stores). -/
theorem out_C (c : Dev nD) (i : grid2.Coords) (arg2 : Memref sig .tc .vmem S128x4096 .f32) (harg2 : arg2.IsWhole) (arg3 : Memref sig .tc .vmem S512x4096 .f32) (harg3 : arg3.IsWhole) (arg4 : Memref sig .tc .vmem S512x4096 .bf16) (harg4 : arg4.IsWhole) (arg5 : Memref sig .tc .vmem S128x4096 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x4096 .f32) (harg8 : arg8.IsWhole) (hc0 : ¬cond2_0 i) (hc1 : cond2_1 i)
    (x0 : Vec F S128x4096 .f32) (x1 : Vec F S512x4096 .f32) (x2 : Vec F S512x4096 .bf16) (xs0 : Vec F S128x1 .f32) (xs1 : Vec F S128x1 .f32) (xs2 : Vec F S128x4096 .f32) :
    out2_C c i arg2 harg2 arg3 harg3 arg4 harg4 arg5 harg5 arg6 harg6 arg7 harg7 arg8 harg8 hc0 hc1 x0 x1 x2 xs0 xs1 xs2
      = k2_pay3 (k2_pay1 (k2_pay12 x0 x1 xs0 xs0 xs2 x2)) (k2_pay11 x0 x1 xs0 xs0 xs1) := by
  unfold out2_C
  rw [View.read_writes_eq_canon _ _ _ (cover2_C c i arg2 harg2 arg3 harg3 arg4 harg4 arg5 harg5 arg6 harg6 arg7 harg7 arg8 harg8 hc0 hc1 x0 x1 x2 xs0 xs1 xs2)]
  unfold kernelRun2_C
  dsimp only
  sl_unfold_words
  rw [View.canon_unit_zero (S := S128x4096) hz2]
  rw [View.readCov_unit_zero (S := S128x4096) _ hz2, View.readCov_unit_zero (S := S128x1) _ hz2]
  simp only [View.readAt_eq_ld, harg2.read_unread, harg3.read_unread, harg4.read_unread, harg6.read_unread, harg7.read_unread, harg8.read_unread, View.ld_unit_zero (S := S128x4096) hz2, View.ld_unit_zero (S := S512x4096) hz2, View.ld_unit_zero (S := S128x1) hz2]

section Blocks
variable (V : (c : Dev nD) → (b : Ref sig .tc) → Buf (Elt F) ((c : Thread nD τ).loc b))

/-! ## One tile's update of the running state, and the state point by point -/

/-- One tile's update of the running maximum, denominator and weighted sum, from the query block, the key tile and the
    value tile. -/
def step (xq : Vec F S128x4096 .f32) (xk : Vec F S512x4096 .f32) (xv : Vec F S512x4096 .bf16)
    (s : Vec F S128x1 .f32 × Vec F S128x1 .f32 × Vec F S128x4096 .f32) :
    Vec F S128x1 .f32 × Vec F S128x1 .f32 × Vec F S128x4096 .f32 :=
  (k2_pay2 (k2_pay8 xq xk s.1), k2_pay11 xq xk s.1 s.1 s.2.1, k2_pay1 (k2_pay12 xq xk s.1 s.1 s.2.2 xv))

/-- The state before the first tile: minus infinity, zero, zero. -/
def init : Vec F S128x1 .f32 × Vec F S128x1 .f32 × Vec F S128x4096 .f32 := (k2_pay4, k2_pay5, k2_pay6)

/-- At the first tile of a query block the state is one update of the reset state. -/
theorem stAt2_first (c : Dev nD) (t : Fin cfg2.N) (h0 : t.val % 16 = 0) :
    stAt2 V c t.val t.isLt = step (iblk2 V c 0 t) (iblk2 V c 1 t) (iblk2 V c 2 t) init := by
  rw [stAt2_A V c t h0 (by omega), sout_A_0, sout_A_1, sout_A_2]; rfl

/-- At a later tile it is one update of the state the tile before left. -/
theorem stAt2_later (c : Dev nD) (t : Fin cfg2.N) (h0 : ¬t.val % 16 = 0) :
    stAt2 V c t.val t.isLt = step (iblk2 V c 0 t) (iblk2 V c 1 t) (iblk2 V c 2 t)
      (stAt2 V c (t.val - 1) (Nat.lt_of_le_of_lt (Nat.sub_le _ _) t.isLt)) := by
  by_cases h1 : t.val % 16 = 15
  · rw [stAt2_C V c t h0 h1, sout_C_0, sout_C_1, sout_C_2]; rfl
  · rw [stAt2_B V c t h0 h1, sout_B_0, sout_B_1, sout_B_2]; rfl

/-- At the last tile the output block is the weighted sum over the denominator of the state after the tile. -/
theorem outAt2_last (c : Dev nD) (t : Fin cfg2.N) (h1 : t.val % 16 = 15) :
    outAt2 V c t = k2_pay3 (stAt2 V c t.val t.isLt).2.2 (stAt2 V c t.val t.isLt).2.1 := by
  have h0 : ¬t.val % 16 = 0 := by omega
  rw [outAt2_C V c t h0 h1, out_C, stAt2_later V c t h0]; rfl

/-! ## The blocks read at an index of the whole arrays -/

/-- The query block at point `t` is rows `128 (t / 16) …` of the query array. -/
theorem iblk2_0_apply (c : Dev nD) (t : Fin cfg2.N) (p : Fin 128) (d : Fin 4096) (l : Fin 256)
    (hl : l.val = 128 * (t.val / 16) + p.val) :
    (iblk2 V c 0 t : Vec F S128x4096 .f32) (ix2 p d) = V c main_arg1 (ix2 l d) := by
  have hi : win2_0.index t 0 = t.val / 16 ∧ win2_0.index t 1 = 0 :=
    (by decide +kernel : ∀ t : Fin grid2.N, win2_0.index t 0 = t.val / 16 ∧ win2_0.index t 1 = 0) t
  unfold iblk2
  rw [View.read_apply]
  show V c main_arg1 _ = V c main_arg1 _
  congr 1
  funext a
  apply Fin.ext
  match a with
  | ⟨0, _⟩ => show win2_0.index t 0 * 128 + 1 * p.val = l.val; rw [hi.1, hl]; omega
  | ⟨1, _⟩ => show win2_0.index t 1 * 4096 + 1 * d.val = d.val; rw [hi.2]; omega

/-- The key tile at point `t` is rows `512 (t % 16) …` of the key array. -/
theorem iblk2_1_apply (c : Dev nD) (t : Fin cfg2.N) (n : Fin 512) (d : Fin 4096) (g : Fin 8192)
    (hg : g.val = 512 * (t.val % 16) + n.val) :
    (iblk2 V c 1 t : Vec F S512x4096 .f32) (ix2 n d) = V c main_v8 (ix2 g d) := by
  have hi : win2_1.index t 0 = t.val % 16 ∧ win2_1.index t 1 = 0 :=
    (by decide +kernel : ∀ t : Fin grid2.N, win2_1.index t 0 = t.val % 16 ∧ win2_1.index t 1 = 0) t
  unfold iblk2
  rw [View.read_apply]
  show V c main_v8 _ = V c main_v8 _
  congr 1
  funext a
  apply Fin.ext
  match a with
  | ⟨0, _⟩ => show win2_1.index t 0 * 512 + 1 * n.val = g.val; rw [hi.1, hg]; omega
  | ⟨1, _⟩ => show win2_1.index t 1 * 4096 + 1 * d.val = d.val; rw [hi.2]; omega

/-- The value tile at point `t` is rows `512 (t % 16) …` of the value array. -/
theorem iblk2_2_apply (c : Dev nD) (t : Fin cfg2.N) (n : Fin 512) (e : Fin 4096) (g : Fin 8192)
    (hg : g.val = 512 * (t.val % 16) + n.val) :
    (iblk2 V c 2 t : Vec F S512x4096 .bf16) (ix2 n e) = V c main_v9 (ix2 g e) := by
  have hi : win2_2.index t 0 = t.val % 16 ∧ win2_2.index t 1 = 0 :=
    (by decide +kernel : ∀ t : Fin grid2.N, win2_2.index t 0 = t.val % 16 ∧ win2_2.index t 1 = 0) t
  unfold iblk2
  rw [View.read_apply]
  show V c main_v9 _ = V c main_v9 _
  congr 1
  funext a
  apply Fin.ext
  match a with
  | ⟨0, _⟩ => show win2_2.index t 0 * 512 + 1 * n.val = g.val; rw [hi.1, hg]; omega
  | ⟨1, _⟩ => show win2_2.index t 1 * 4096 + 1 * e.val = e.val; rw [hi.2]; omega

end Blocks

/-! ## The update read at a query row

With the tile's scores and values at the row known as real numbers, the three components of the updated state are the
online-softmax update of the old ones. -/

section Row
variable (xq : Vec Ideal S128x4096 .f32) (xk : Vec Ideal S512x4096 .f32) (xv : Vec Ideal S512x4096 .bf16)
  (s : Vec Ideal S128x1 .f32 × Vec Ideal S128x1 .f32 × Vec Ideal S128x4096 .f32)
  (p : Fin 128) (e : Fin 4096) (sc vv : Fin 512 → ℝ)

/-- The new maximum at the row is the tile's largest score against the old maximum. -/
theorem step_m (hsc : ∀ n : Fin 512, (∑ d : Fin 4096, xq (ix2 p d) * xk (ix2 n d)) = ((sc n : ℝ) : EReal)) :
    (step xq xk xv s).1 (ix2 p (0 : Fin 1))
      = max (s.1 (ix2 p (0 : Fin 1))) (Finset.univ.sup fun n : Fin 512 => ((sc n : ℝ) : EReal)) := by
  show k2_pay2 (F := Ideal) (k2_pay8 xq xk s.1) (ix2 p (0 : Fin 1)) = _
  refine (congrFun (Cert.PayloadsAt.pay2_2 _) _).trans ((Cert.PayloadsAt.pay2_8 xq xk s.1 p).trans ?_)
  refine congrArg (max _) (congrArg Finset.univ.sup (funext fun n => ?_))
  exact (Cert.PayloadsAt.pay2_7 xq xk p n).trans (hsc n)

/-- The new denominator at the row: the old one rescaled to the new maximum, plus the tile's terms. -/
theorem step_l (hsc : ∀ n : Fin 512, (∑ d : Fin 4096, xq (ix2 p d) * xk (ix2 n d)) = ((sc n : ℝ) : EReal)) :
    (step xq xk xv s).2.1 (ix2 p (0 : Fin 1))
      = Ideal.exp (s.1 (ix2 p (0 : Fin 1)) - (step xq xk xv s).1 (ix2 p (0 : Fin 1))) * s.2.1 (ix2 p (0 : Fin 1))
        + ∑ n : Fin 512, Ideal.exp (((sc n : ℝ) : EReal) - (step xq xk xv s).1 (ix2 p (0 : Fin 1))) := by
  have h1 : (step xq xk xv s).1 (ix2 p (0 : Fin 1)) = k2_pay8 (F := Ideal) xq xk s.1 (ix2 p (0 : Fin 1)) :=
    show k2_pay2 (F := Ideal) (k2_pay8 xq xk s.1) (ix2 p (0 : Fin 1)) = _ from congrFun (Cert.PayloadsAt.pay2_2 _) _
  rw [h1]
  show k2_pay11 (F := Ideal) xq xk s.1 s.1 s.2.1 (ix2 p (0 : Fin 1)) = _
  refine (Cert.PayloadsAt.pay2_11 xq xk s.1 s.1 s.2.1 p).trans ?_
  refine congrArg₂ (· + ·) (congrArg (· * _) (Cert.PayloadsAt.pay2_9 xq xk s.1 s.1 p)) (Finset.sum_congr rfl fun n _ => ?_)
  refine (Cert.PayloadsAt.pay2_10 xq xk s.1 p n).trans ?_
  rw [Cert.PayloadsAt.pay2_7, hsc]

/-- The new weighted sum at the row and feature: the old one rescaled, plus the tile's terms against the values. -/
theorem step_a (hsc : ∀ n : Fin 512, (∑ d : Fin 4096, xq (ix2 p d) * xk (ix2 n d)) = ((sc n : ℝ) : EReal))
    (hvv : ∀ n : Fin 512, xv (ix2 n e) = ((vv n : ℝ) : EReal)) :
    (step xq xk xv s).2.2 (ix2 p e)
      = Ideal.exp (s.1 (ix2 p (0 : Fin 1)) - (step xq xk xv s).1 (ix2 p (0 : Fin 1))) * s.2.2 (ix2 p e)
        + ∑ n : Fin 512, Ideal.exp (((sc n : ℝ) : EReal) - (step xq xk xv s).1 (ix2 p (0 : Fin 1))) * ((vv n : ℝ) : EReal) := by
  have h1 : (step xq xk xv s).1 (ix2 p (0 : Fin 1)) = k2_pay8 (F := Ideal) xq xk s.1 (ix2 p (0 : Fin 1)) :=
    show k2_pay2 (F := Ideal) (k2_pay8 xq xk s.1) (ix2 p (0 : Fin 1)) = _ from congrFun (Cert.PayloadsAt.pay2_2 _) _
  rw [h1]
  show k2_pay1 (F := Ideal) (k2_pay12 xq xk s.1 s.1 s.2.2 xv) (ix2 p e) = _
  refine (congrFun (Cert.PayloadsAt.pay2_1 _) _).trans ((Cert.PayloadsAt.pay2_12 xq xk s.1 s.1 s.2.2 xv p e).trans ?_)
  refine congrArg₂ (· + ·) (congrArg (· * _) (Cert.PayloadsAt.pay2_9 xq xk s.1 s.1 p)) (Finset.sum_congr rfl fun n _ => ?_)
  refine congrArg₂ (· * ·) ((Cert.PayloadsAt.pay2_10 xq xk s.1 p n).trans ?_) (hvv n)
  rw [Cert.PayloadsAt.pay2_7, hsc]

end Row

/-! ## The sixteen tiles of one query block -/

section Final
variable (V : (c : Dev nD) → (b : Ref sig .tc) → Buf (Elt Ideal) ((c : Thread nD τ).loc b)) (c : Dev nD)

theorem stAt2_congr (n m : ℕ) (h : n = m) (hn : n < cfg2.N) (hm : m < cfg2.N) : stAt2 V c n hn = stAt2 V c m hm := by
  subst h; rfl

/-- The state after `j` tiles of query block `qb`: the reset state, then what the points `16 qb, 16 qb + 1, …` leave. -/
def seqAt (qb : ℕ) : ℕ → Vec Ideal S128x1 .f32 × Vec Ideal S128x1 .f32 × Vec Ideal S128x4096 .f32
  | 0 => init
  | j + 1 => if h : 16 * qb + j < cfg2.N then stAt2 V c (16 * qb + j) h else init

theorem seqAt_at (qb j : ℕ) (t : Fin cfg2.N) (ht : t.val = 16 * qb + j) : seqAt V c qb (j + 1) = stAt2 V c t.val t.isLt := by
  have hm : 16 * qb + j < cfg2.N := ht ▸ t.isLt
  exact (dif_pos hm).trans (stAt2_congr V c _ _ ht.symm _ _)

/-- Each tile is one update. -/
theorem seqAt_succ (qb j : ℕ) (t : Fin cfg2.N) (ht : t.val = 16 * qb + j) (hj : j < 16) :
    seqAt V c qb (j + 1) = step (iblk2 V c 0 t) (iblk2 V c 1 t) (iblk2 V c 2 t) (seqAt V c qb j) := by
  rw [seqAt_at V c qb j t ht]
  cases j with
  | zero => exact stAt2_first V c t (by rw [ht]; omega)
  | succ j =>
    rw [stAt2_later V c t (by rw [ht]; omega)]
    have hm : 16 * qb + j < cfg2.N := by have := t.isLt; omega
    refine congrArg (step _ _ _) ?_
    exact (stAt2_congr V c _ _ (by rw [ht]; omega) _ hm).trans (dif_pos hm).symm

theorem coe_sum' {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A score whose two rows are real is the real inner product. -/
theorem score_real (xq : Vec Ideal S128x4096 .f32) (xk : Vec Ideal S512x4096 .f32) (p : Fin 128) (n : Fin 512)
    (a b : Fin 4096 → ℝ) (hxq : ∀ d, xq (ix2 p d) = ((a d : ℝ) : EReal)) (hxk : ∀ d, xk (ix2 n d) = ((b d : ℝ) : EReal)) :
    (∑ d : Fin 4096, xq (ix2 p d) * xk (ix2 n d)) = ((∑ d, a d * b d : ℝ) : EReal) := by
  rw [coe_sum']
  exact Finset.sum_congr rfl fun d _ => by rw [hxq, hxk, EReal.coe_mul]

/-- The weighted sum over the denominator after the sixteen tiles of a query block, at a row and a feature. -/
def blkOut (qb : ℕ) (p : Fin 128) (e : Fin 4096) : EReal :=
  Ideal.div ((seqAt V c qb 16).2.2 (ix2 p e)) ((seqAt V c qb 16).2.1 (ix2 p (0 : Fin 1)))

/-- With real queries, keys and values it is the softmax-weighted combination of all the value rows. -/
theorem attn_row (rq : Fin 256 → Fin 4096 → ℝ) (rk rv : Fin 8192 → Fin 4096 → ℝ)
    (hq : ∀ (l : Fin 256) (d : Fin 4096), V c main_arg1 (ix2 l d) = ((rq l d : ℝ) : EReal))
    (hk : ∀ (n : Fin 8192) (d : Fin 4096), V c main_v8 (ix2 n d) = ((rk n d : ℝ) : EReal))
    (hv : ∀ (n : Fin 8192) (e : Fin 4096), V c main_v9 (ix2 n e) = ((rv n e : ℝ) : EReal))
    (l : Fin 256) (e : Fin 4096) (p : Fin 128) (qb : ℕ) (hl : l.val = 128 * qb + p.val) :
    blkOut V c qb p e
      = Cert.AttnSpec.mix (fun n : Fin 8192 => ((∑ d, rq l d * rk n d : ℝ) : EReal)) (fun n : Fin 8192 => ((rv n e : ℝ) : EReal)) := by
  have hN : cfg2.N = 32 := N_2
  have hqb : qb < 2 := by have := l.isLt; omega
  have hxq : ∀ (j : ℕ) (hj : j < 16) (ht : 16 * qb + j < cfg2.N) (d : Fin 4096),
      (iblk2 V c 0 ⟨16 * qb + j, ht⟩ : Vec Ideal S128x4096 .f32) (ix2 p d) = ((rq l d : ℝ) : EReal) := fun j hj ht d =>
    (iblk2_0_apply V c ⟨16 * qb + j, ht⟩ p d l (by show l.val = 128 * ((16 * qb + j) / 16) + p.val; omega)).trans (hq l d)
  have hxk : ∀ (j : ℕ) (hj : j < 16) (ht : 16 * qb + j < cfg2.N) (n : Fin 512) (hg : j * 512 + n.val < 8192) (d : Fin 4096),
      (iblk2 V c 1 ⟨16 * qb + j, ht⟩ : Vec Ideal S512x4096 .f32) (ix2 n d) = ((rk ⟨j * 512 + n.val, hg⟩ d : ℝ) : EReal) :=
    fun j hj ht n hg d =>
    (iblk2_1_apply V c ⟨16 * qb + j, ht⟩ n d ⟨j * 512 + n.val, hg⟩
      (by show j * 512 + n.val = 512 * ((16 * qb + j) % 16) + n.val; omega)).trans (hk _ d)
  have hxv : ∀ (j : ℕ) (hj : j < 16) (ht : 16 * qb + j < cfg2.N) (n : Fin 512) (hg : j * 512 + n.val < 8192),
      (iblk2 V c 2 ⟨16 * qb + j, ht⟩ : Vec Ideal S512x4096 .bf16) (ix2 n e) = ((rv ⟨j * 512 + n.val, hg⟩ e : ℝ) : EReal) :=
    fun j hj ht n hg =>
    (iblk2_2_apply V c ⟨16 * qb + j, ht⟩ n e ⟨j * 512 + n.val, hg⟩
      (by show j * 512 + n.val = 512 * ((16 * qb + j) % 16) + n.val; omega)).trans (hv _ e)
  unfold blkOut
  refine Cert.LibOnlineSoftmax.online_softmax_flat (T := 16) (B := 512) (by norm_num) (by norm_num)
    (fun n => ∑ d, rq l d * rk n d) (fun n => rv n e)
    (fun j hj b => ⟨j * 512 + b.val, by have := b.isLt; omega⟩) (fun _ _ _ => rfl)
    (fun j => (seqAt V c qb j).1 (ix2 p (0 : Fin 1))) (fun j => (seqAt V c qb j).2.1 (ix2 p (0 : Fin 1)))
    (fun j => (seqAt V c qb j).2.2 (ix2 p e))
    (Cert.PayloadsAt.pay2_4 p) (Cert.PayloadsAt.pay2_5 p) (Cert.PayloadsAt.pay2_6 p e) ?_ ?_ ?_
  · intro j hj
    have ht : 16 * qb + j < cfg2.N := by omega
    beta_reduce
    rw [seqAt_succ V c qb j ⟨16 * qb + j, ht⟩ rfl hj]
    exact step_m _ _ _ _ p _ (fun n => score_real _ _ p n _ _ (hxq j hj ht) (hxk j hj ht n (by have := n.isLt; omega)))
  · intro j hj
    have ht : 16 * qb + j < cfg2.N := by omega
    beta_reduce
    rw [seqAt_succ V c qb j ⟨16 * qb + j, ht⟩ rfl hj]
    exact step_l _ _ _ _ p _ (fun n => score_real _ _ p n _ _ (hxq j hj ht) (hxk j hj ht n (by have := n.isLt; omega)))
  · intro j hj
    have ht : 16 * qb + j < cfg2.N := by omega
    beta_reduce
    rw [seqAt_succ V c qb j ⟨16 * qb + j, ht⟩ rfl hj]
    exact step_a _ _ _ _ p e _ _ (fun n => score_real _ _ p n _ _ (hxq j hj ht) (hxk j hj ht n (by have := n.isLt; omega)))
      (fun n => hxv j hj ht n (by have := n.isLt; omega))

/-! ## The result array -/

/-- The result at row `a` and feature `b` (zero outside the array). -/
def rowOut (a b : ℕ) : EReal :=
  if h : b < 4096 then blkOut V c (a / 128) ⟨a % 128, Nat.mod_lt _ (by norm_num)⟩ ⟨b, h⟩ else 0

theorem rowOut_eq (a b qb : ℕ) (p : Fin 128) (e : Fin 4096) (ha : a = 128 * qb + p.val) (hb : b = e.val) :
    rowOut V c a b = blkOut V c qb p e := by
  subst ha hb
  unfold rowOut
  rw [dif_pos e.isLt]
  congr 1
  · omega
  · exact Fin.ext (by show (128 * qb + p.val) % 128 = p.val; omega)

/-- What the result array is shown to hold. -/
def result : Buf (Elt Ideal) ((c : Thread nD τ).loc main_v10) := fun i => rowOut V c (i 0).val (i 1).val

/-- The one write-back of a query block, at its last tile, writes the block of the result. -/
theorem flushed_eq (t : Fin cfg2.N) (hf : (cfg2.win 3).flush t = true) :
    (dat2 V c).flushed 3 t = ((cfg2.win 3).blk t).view.read (Elt Ideal) (result V c) := by
  have h15 : t.val % 16 = 15 := (flush2_3 t).mp hf
  have hi : win2_3.index t 0 = t.val / 16 ∧ win2_3.index t 1 = 0 :=
    (by decide +kernel : ∀ t : Fin grid2.N, win2_3.index t 0 = t.val / 16 ∧ win2_3.index t 1 = 0) t
  show (cfg2.win 3).cut (grid2.coords t) ((dat2 V c).after 3 t) = _
  rw [after2_3, outAt2_last V c t h15]
  funext y
  obtain ⟨p, e, rfl⟩ : ∃ (p : Fin 128) (e : Fin 4096), y = ix2 p e := ⟨y 0, y 1, eq_ix2 y⟩
  rw [View.read_apply]
  refine (Cert.PayloadsAt.pay2_3 _ _ p e).trans ?_
  rw [← seqAt_at V c (t.val / 16) 15 t (by omega)]
  show blkOut V c (t.val / 16) p e = rowOut V c _ _
  refine (rowOut_eq V c _ _ (t.val / 16) p e ?_ ?_).symm
  · show win2_3.index t 0 * 128 + 1 * p.val = 128 * (t.val / 16) + p.val; rw [hi.1]; omega
  · show win2_3.index t 1 * 4096 + 1 * e.val = e.val; rw [hi.2]; omega

/-- Every row of the result array lies in the block written back at the last tile of its query block. -/
theorem cover (i : S256x4096.Idx) :
    ∃ t : Fin cfg2.N, (cfg2.win 3).flush t = true ∧ i ∈ ((cfg2.win 3).blk t).view.set := by
  have hN : cfg2.N = 32 := N_2
  have h0 : (i 0).val < 256 := idx2_lt0 i
  have h1 : (i 1).val < 4096 := idx2_lt1 i
  have ht : 16 * ((i 0).val / 128) + 15 < cfg2.N := by omega
  have hw : ∀ t : Fin grid2.N, win2_3.index t 0 * win2_3.size 0 = (t.val / 16) * 128 ∧ win2_3.xsize (grid2.coords t) 0 = 128
      ∧ win2_3.index t 1 * win2_3.size 1 = 0 ∧ win2_3.xsize (grid2.coords t) 1 = 4096 := by decide +kernel
  refine ⟨⟨16 * ((i 0).val / 128) + 15, ht⟩, (flush2_3 _).mpr (by show (16 * ((i 0).val / 128) + 15) % 16 = 15; omega), ?_⟩
  show i ∈ ((View.whole main_v10).slice (win2_3.rect ⟨16 * ((i 0).val / 128) + 15, ht⟩)).set
  rw [View.set_slice_whole, Rect.mem_set_unit]
  intro a
  obtain ⟨e0, e1, e2, e3⟩ := hw ⟨16 * ((i 0).val / 128) + 15, ht⟩
  match a with
  | ⟨0, _⟩ =>
    show win2_3.index ⟨16 * ((i 0).val / 128) + 15, ht⟩ 0 * win2_3.size 0 ≤ (i 0 : Nat) ∧ (i 0 : Nat) < win2_3.index ⟨16 * ((i 0).val / 128) + 15, ht⟩ 0 * win2_3.size 0 + win2_3.xsize (grid2.coords ⟨16 * ((i 0).val / 128) + 15, ht⟩) 0
    rw [e0, e1]; dsimp only; omega
  | ⟨1, _⟩ =>
    show win2_3.index ⟨16 * ((i 0).val / 128) + 15, ht⟩ 1 * win2_3.size 1 ≤ (i 1 : Nat) ∧ (i 1 : Nat) < win2_3.index ⟨16 * ((i 0).val / 128) + 15, ht⟩ 1 * win2_3.size 1 + win2_3.xsize (grid2.coords ⟨16 * ((i 0).val / 128) + 15, ht⟩) 1
    rw [e2, e3]; omega

/-- So the result array ends holding it. -/
theorem final_o : (dat2 V c).arrAt 3 cfg2.N = result V c :=
  (dat2 V c).arrAt_eq_of_cover 3 (result V c) (flushed_eq V c) (cover)

/-- The specification's score of two real rows is the real inner product. -/
theorem spec_score_real (q : Fin 256 → Fin 4096 → EReal) (K : Fin 8192 → Fin 4096 → EReal) (l : Fin 256) (n : Fin 8192)
    (a b : Fin 4096 → ℝ) (hq : ∀ d, q l d = ((a d : ℝ) : EReal)) (hk : ∀ d, K n d = ((b d : ℝ) : EReal)) :
    Cert.AttnSpec.score q K l n = ((∑ d, a d * b d : ℝ) : EReal) := by
  unfold Cert.AttnSpec.score
  rw [coe_sum']
  exact Finset.sum_congr rfl fun d _ => by rw [hq, hk, EReal.coe_mul]

end Final

end Region2

open Region2

/-- With real queries, keys and values, the result array holds at every row and feature the softmax-weighted
    combination of the value rows, the weights from the row's scores against all the key rows. -/
theorem attn_final (V : (c : Dev nD) → (b : Ref sig .tc) → Buf (Elt Ideal) ((c : Thread nD τ).loc b)) (c : Dev nD)
    (hq : ∀ (l : Fin 256) (d : Fin 4096), ∃ r : ℝ, V c main_arg1 (ValueIdx.ix2 l d) = (r : EReal))
    (hk : ∀ (n : Fin 8192) (d : Fin 4096), ∃ r : ℝ, V c main_v8 (ValueIdx.ix2 n d) = (r : EReal))
    (hv : ∀ (n : Fin 8192) (e : Fin 4096), ∃ r : ℝ, V c main_v9 (ValueIdx.ix2 n e) = (r : EReal))
    (l : Fin 256) (e : Fin 4096) :
    (Cert.KernelIdeal.Fr.dat2 (F := Ideal) V c).arrAt 3 cfg2.N (ValueIdx.ix2 l e)
      = Cert.AttnSpec.mix (fun n : Fin 8192 => Cert.AttnSpec.score (fun (l : Fin 256) (d : Fin 4096) => V c main_arg1 (ValueIdx.ix2 l d)) (fun (n : Fin 8192) (d : Fin 4096) => V c main_v8 (ValueIdx.ix2 n d)) l n)
          (fun n : Fin 8192 => V c main_v9 (ValueIdx.ix2 n e)) := by
  choose rq hq using hq
  choose rk hk using hk
  choose rv hv using hv
  have hs : (fun n : Fin 8192 => Cert.AttnSpec.score (fun (l : Fin 256) (d : Fin 4096) => V c main_arg1 (ix2 l d)) (fun (n : Fin 8192) (d : Fin 4096) => V c main_v8 (ix2 n d)) l n)
      = fun n : Fin 8192 => ((∑ d, rq l d * rk n d : ℝ) : EReal) := funext fun n =>
    spec_score_real _ _ l n (rq l) (rk n) (fun d => hq l d) (fun d => hk n d)
  have hvv : (fun n : Fin 8192 => V c main_v9 (ix2 n e)) = fun n : Fin 8192 => ((rv n e : ℝ) : EReal) := funext fun n => hv n e
  rw [hs, hvv]
  refine (congrFun (final_o V c) (ix2 l e)).trans ?_
  show rowOut V c l.val e.val = _
  rw [rowOut_eq V c l.val e.val (l.val / 128) ⟨l.val % 128, Nat.mod_lt _ (by norm_num)⟩ e (by show l.val = 128 * (l.val / 128) + l.val % 128; omega) rfl]
  exact attn_row V c rq rk rv hq hk hv l e ⟨l.val % 128, Nat.mod_lt _ (by norm_num)⟩ (l.val / 128) (by show l.val = 128 * (l.val / 128) + l.val % 128; omega)

end Cert.KernelIdeal.Val

end
-- ==== Proof.FiniteInputs.lean ====
/-
  Finiteness of the inputs, read out of the precondition. The precondition is the conjunction, over the six
  float arguments x, of all(|x| < +inf), stated to be the bit 1. A conjunction of bits is 1 only when each bit is 1; an
  `and`-reduction over every axis that is 1 had a 1 at every index; and at an index the bit is the comparison
  max x (-x) < ⊤ on the extended reals, which excludes x = ⊤ and x = ⊥ (whose negation is ⊤): so x is a real number.
-/
import proofs.«100994_j40140764348434_2_alg».proof.Defs
import Idealize.ShloMosaic.Lib.ReduceAll
import Idealize.ShloMosaic.Lib.ValueIdx
import Idealize.ShloMosaic.PureOps.Ideal.Laws

noncomputable section

namespace Cert.FiniteInputs

open Idealize.ShloMosaic Idealize.SL.Sem
open Cert.Pre_finite_inputs

/-- The scalar shape has one index. -/
instance : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- all(|x| < +inf) equal to the bit 1 makes every entry of x a real number, at any shape. -/
theorem real_of_all {s : Shape} {axes : List (Fin s.rank)}
    (hb : S_.BroadcastsInDim s (![] : Fin 0 → Fin s.rank)) (hr : s.ReducesTo axes S_) (hu : 0 < S_.numel)
    (x : FVec Ideal s .f32) (init : IVec S_ 1) (j : S_.Idx)
    (e : Host.reduce IntOp.andi
          (cmpf .olt (Host.absf x) (broadcastInDim s ![] hb (constant (F := Ideal) S_ .f32 0x7F800000#32))) init hr hu j = 1#1)
    (i : s.Idx) : ∃ r : ℝ, x i = (r : EReal) := by
  have h1 := Host.reduce_andi_all _ init hr hu j e i
  apply real_of_abs_lt_top
  have h2 : Ideal.cmp .olt (max (x i) (-(x i))) (Ideal.ofBits .f32 0x7F800000#32) = 1#1 := h1
  rw [ofBits_inf] at h2
  simp only [Ideal.cmp] at h2
  by_contra hc
  simp [hc] at h2

/-- Under the precondition every entry of each of the six input arrays is a real number. -/
theorem reals_of_pre [hPre : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have e := congrFun (h c) ValueIdx.ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  exact ⟨real_of_all _ _ _ _ _ _ e0, real_of_all _ _ _ _ _ _ e1, real_of_all _ _ _ _ _ _ e2,
    real_of_all _ _ _ _ _ _ e3, real_of_all _ _ _ _ _ _ e4, real_of_all _ _ _ _ _ _ e5⟩

end Cert.FiniteInputs

end
-- ==== Proof.RefSpec.lean ====
/-
  The reference program computes the specification.

  The reference projects the source rows to keys and values (a matrix product with a transposed weight plus a broadcast
  bias), scores every query row against every key row (a second matrix product), takes a row softmax (subtract the row's
  largest score, exponentiate, divide by the row's sum) and combines the value rows with those weights (a third matrix
  product). Read one result element at a time, each stage is the corresponding line of the specification:
    keys      at (n, d)  is  proj x Wk bk n d,
    values    at (n, e)  is  proj x Wv bv n e,
    scores    at (l, n)  is  score q keys l n,
    the row's largest score is  rowMax (score q keys l)   (a fold of max from the bottom element is the supremum),
    numerators at (l, n) is  expo (score q keys l) n,
    the row's sum        is  denom (score q keys l)       (a sum started from zero),
  and the last product is the weighted combination mix.
-/
import proofs.«100994_j40140764348434_2_alg».proof.Proof.Gen.ReferenceIdeal.Read
import Idealize.ShloMosaic.Lib.ValueIdx
import Idealize.ShloMosaic.PureOps.Ideal.Laws
import proofs.«100994_j40140764348434_2_alg».proof.Proof.AttnSpec

noncomputable section

namespace Cert.RefSpec

open Cert.ReferenceIdeal Cert.ReferenceIdeal.Gen Cert.ReferenceIdeal.Read Idealize.ShloMosaic Idealize.ShloMosaic.ValueIdx Cert.AttnSpec

/-! ## The arguments as plain matrices and vectors -/

/-- The source rows: the first argument without its leading unit axis. -/
abbrev srcM (x0 : (⟨S1x8192x4096, .f32⟩ : BufTy).Contents (Elt Ideal)) : Fin 8192 → Fin 4096 → EReal :=
  fun n k => x0 (ix3 (0 : Fin 1) n k)
/-- The query rows. -/
abbrev qryM (x1 : (⟨S256x4096, .f32⟩ : BufTy).Contents (Elt Ideal)) : Fin 256 → Fin 4096 → EReal :=
  fun l d => x1 (ix2 l d)
/-- A weight matrix, output feature first. -/
abbrev wgtM (x2 : (⟨S4096x4096, .f32⟩ : BufTy).Contents (Elt Ideal)) : Fin 4096 → Fin 4096 → EReal :=
  fun d k => x2 (ix2 d k)
/-- A bias vector. -/
abbrev biasV (x3 : (⟨S4096, .f32⟩ : BufTy).Contents (Elt Ideal)) : Fin 4096 → EReal :=
  fun d => x3 (ix1 d)

/-! ## Where each stage reads its operands -/

/-- Dropping the leading unit axis: row n, feature k of the matrix is entry (0, n, k) of the array. -/
theorem src_index (n : Fin 8192) (k : Fin 4096) : idx_main_v0 (ix2 n k) = ix3 (0 : Fin 1) n k := by
  funext a; apply Fin.ext
  have hn := n.isLt; have hk := k.isLt
  match a with
  | ⟨0, _⟩ => rfl
  | ⟨1, _⟩ => show (n.val * 4096 + k.val) / 4096 % 8192 = n.val; omega
  | ⟨2, _⟩ => show (n.val * 4096 + k.val) % 4096 = k.val; omega

theorem keys_lhs (n : Fin 8192) (d k : Fin 4096) : idx_main_v0 (lidx_main_v2 (ix2 n d) k) = ix3 (0 : Fin 1) n k :=
  src_index n k
theorem keys_rhs (n : Fin 8192) (d k : Fin 4096) : idx_main_v1 (ridx_main_v2 (ix2 n d) k) = ix2 d k :=
  funext fun a => Fin.ext (by match a with | ⟨0, _⟩ => rfl | ⟨1, _⟩ => rfl)
theorem keys_bias (n : Fin 8192) (d : Fin 4096) : idx_main_v3 (idx_main_v4 (ix2 n d)) = ix1 d :=
  funext fun a => Fin.ext (by match a with | ⟨0, _⟩ => rfl)
theorem values_lhs (n : Fin 8192) (e k : Fin 4096) : idx_main_v0 (lidx_main_v7 (ix2 n e) k) = ix3 (0 : Fin 1) n k :=
  src_index n k
theorem values_rhs (n : Fin 8192) (e k : Fin 4096) : idx_main_v6 (ridx_main_v7 (ix2 n e) k) = ix2 e k :=
  funext fun a => Fin.ext (by match a with | ⟨0, _⟩ => rfl | ⟨1, _⟩ => rfl)
theorem values_bias (n : Fin 8192) (e : Fin 4096) : idx_main_v8 (idx_main_v9 (ix2 n e)) = ix1 e :=
  funext fun a => Fin.ext (by match a with | ⟨0, _⟩ => rfl)
theorem score_lhs (l : Fin 256) (n : Fin 8192) (k : Fin 4096) : lidx_main_v12 (ix2 l n) k = ix2 l k :=
  funext fun a => Fin.ext (by match a with | ⟨0, _⟩ => rfl | ⟨1, _⟩ => rfl)
theorem score_rhs (l : Fin 256) (n : Fin 8192) (k : Fin 4096) : idx_main_v11 (ridx_main_v12 (ix2 l n) k) = ix2 n k :=
  funext fun a => Fin.ext (by match a with | ⟨0, _⟩ => rfl | ⟨1, _⟩ => rfl)
theorem row_of (l : Fin 256) (n : Fin 8192) : idx_main_v16 (idx_main_v17 (ix2 l n)) = ix1 l :=
  funext fun a => Fin.ext (by match a with | ⟨0, _⟩ => rfl)
theorem row_of' (l : Fin 256) (n : Fin 8192) : idx_main_v21 (idx_main_v22 (ix2 l n)) = ix1 l :=
  funext fun a => Fin.ext (by match a with | ⟨0, _⟩ => rfl)
theorem row_entry (l : Fin 256) (n : Fin 8192) : idx_main_v20 (ix1 l) n = ix2 l n :=
  funext fun a => Fin.ext (by match a with | ⟨0, _⟩ => rfl | ⟨1, _⟩ => rfl)
theorem out_index (l : Fin 256) (e : Fin 4096) : idx_main_v25 (ix3 (0 : Fin 1) l e) = ix2 l e :=
  funext fun a => Fin.ext (by match a with | ⟨0, _⟩ => rfl | ⟨1, _⟩ => rfl)
theorem mix_lhs (l : Fin 256) (e : Fin 4096) (n : Fin 8192) : lidx_main_v24 (ix2 l e) n = ix2 l n :=
  funext fun a => Fin.ext (by match a with | ⟨0, _⟩ => rfl | ⟨1, _⟩ => rfl)
theorem mix_rhs (l : Fin 256) (e : Fin 4096) (n : Fin 8192) : ridx_main_v24 (ix2 l e) n = ix2 n e :=
  funext fun a => Fin.ext (by match a with | ⟨0, _⟩ => rfl | ⟨1, _⟩ => rfl)

/-! ## The two projections -/

section
variable (x0 : (⟨S1x8192x4096, .f32⟩ : BufTy).Contents (Elt Ideal)) (x1 : (⟨S256x4096, .f32⟩ : BufTy).Contents (Elt Ideal))
  (x2 : (⟨S4096x4096, .f32⟩ : BufTy).Contents (Elt Ideal)) (x3 : (⟨S4096, .f32⟩ : BufTy).Contents (Elt Ideal))
  (x4 : (⟨S4096x4096, .f32⟩ : BufTy).Contents (Elt Ideal)) (x5 : (⟨S4096, .f32⟩ : BufTy).Contents (Elt Ideal))

/-- The keys: x · Wkᵀ + bk at (n, d). -/
theorem keys_at (n : Fin 8192) (d : Fin 4096) :
    val_main_v5 (F := Ideal) x0 x2 x3 (ix2 n d) = proj (srcM x0) (wgtM x2) (biasV x3) n d := by
  rw [val_main_v5_apply, val_main_v2_apply, val_main_v4_apply, val_main_v3_apply, Ideal.addf_def, keys_bias]
  unfold proj
  refine congrArg (· + x3 (ix1 d)) (Finset.sum_congr rfl fun k _ => ?_)
  rw [val_main_v0_apply, val_main_v1_apply, keys_lhs, keys_rhs]

/-- The values: x · Wvᵀ + bv at (n, e). -/
theorem values_at (n : Fin 8192) (e : Fin 4096) :
    val_main_v10 (F := Ideal) x0 x4 x5 (ix2 n e) = proj (srcM x0) (wgtM x4) (biasV x5) n e := by
  rw [val_main_v10_apply, val_main_v7_apply, val_main_v9_apply, val_main_v8_apply, Ideal.addf_def, values_bias]
  unfold proj
  refine congrArg (· + x5 (ix1 e)) (Finset.sum_congr rfl fun k _ => ?_)
  rw [val_main_v0_apply, val_main_v6_apply, values_lhs, values_rhs]

/-! ## The scores -/

/-- The score row of query l, as the specification writes it. -/
abbrev scoreRow (l : Fin 256) : Fin 8192 → EReal :=
  score (qryM x1) (proj (srcM x0) (wgtM x2) (biasV x3)) l

/-- The scores: q · keysᵀ at (l, n). -/
theorem score_at (l : Fin 256) (n : Fin 8192) :
    val_main_v12 (F := Ideal) x0 x1 x2 x3 (ix2 l n) = scoreRow x0 x1 x2 x3 l n := by
  rw [val_main_v12_apply]
  show _ = ∑ d : Fin 4096, qryM x1 l d * proj (srcM x0) (wgtM x2) (biasV x3) n d
  refine Finset.sum_congr rfl fun k _ => ?_
  rw [val_main_v11_apply, score_lhs, score_rhs, keys_at]

/-! ## The row's largest score -/

/-- The bit pattern of minus infinity is the bottom element. -/
theorem neg_inf_bits : Ideal.ofBits .f32 0xFF800000#32 = (⊥ : EReal) := by simp [Ideal.ofBits, Ideal.ieee]

/-- Row l with column k put back is (l, k). -/
theorem lift_row (h : S256x8192.Reduces [1] S256) (l : Fin 256) (k : Fin (S256x8192.size 1)) :
    h.lift (ix1 l) k = ix2 l (⟨k.val, k.isLt⟩ : Fin 8192) := by
  funext c; apply Fin.ext
  fin_cases c <;> rfl

/-- A fold of max from the bottom element is the supremum. -/
theorem fold_max_bot {N : ℕ} (f : Fin N → EReal) : (Finset.univ : Finset (Fin N)).fold max ⊥ f = Finset.univ.sup f := rfl

/-- The maximum-reduce of the score rows from minus infinity, at row l, is the row's largest score. -/
theorem rowmax_at (l : Fin 256) :
    val_main_v15 (F := Ideal) x0 x1 x2 x3 (ix1 l) = rowMax (scoreRow x0 x1 x2 x3 l) := by
  have hred : S256x8192.Reduces [1] S256 := by decide
  rw [val_main_v15_apply, val_main_v14_apply, val_main_cst_0_apply, Ideal.maximumf_def, Ideal.ofBits_def, neg_inf_bits, max_bot_left]
  unfold val_main_v13
  rw [Host.reduce_eq_fold_single FloatOps.maximumf _ _ reducesTo_S256x8192_S256_d1 hred h_S_, val_main_cst_apply,
    Ideal.ofBits_def, neg_inf_bits]
  unfold rowMax
  rw [← fold_max_bot]
  have hf : (val_main_v12 (F := Ideal) x0 x1 x2 x3 ∘ hred.lift (ix1 l)) = fun k : Fin 8192 => scoreRow x0 x1 x2 x3 l k :=
    funext fun k => (congrArg (val_main_v12 (F := Ideal) x0 x1 x2 x3) (lift_row hred l k)).trans (score_at x0 x1 x2 x3 l _)
  exact congrArg (fun f => Finset.fold max (⊥ : EReal) f (Finset.univ : Finset (Fin 8192))) hf

/-! ## The softmax row -/

/-- The numerators: exp (score − row maximum) at (l, n). -/
theorem expo_at (l : Fin 256) (n : Fin 8192) :
    val_main_v19 (F := Ideal) x0 x1 x2 x3 (ix2 l n) = expo (scoreRow x0 x1 x2 x3 l) n := by
  rw [val_main_v19_apply, val_main_v18_apply, val_main_v17_apply, val_main_v16_apply, Ideal.hostUnary_exp_def, Ideal.subf_def,
    row_of, rowmax_at, score_at]
  rfl

/-- The denominators: the row sum of the numerators, started from zero. -/
theorem denom_at (l : Fin 256) :
    val_main_v20 (F := Ideal) x0 x1 x2 x3 (ix1 l) = denom (scoreRow x0 x1 x2 x3 l) := by
  rw [val_main_v20_apply, val_main_cst_1_apply, Ideal.ofBits_def, Ideal.ofBits_zero_f32, zero_add]
  unfold denom
  refine Finset.sum_congr rfl fun n _ => ?_
  rw [row_entry, expo_at]

end

/-! ## The whole reference -/

theorem ref_is_spec
    (x0 : (⟨Cert.ReferenceIdeal.S1x8192x4096, .f32⟩ : BufTy).Contents (Elt Ideal)) (x1 : (⟨Cert.ReferenceIdeal.S256x4096, .f32⟩ : BufTy).Contents (Elt Ideal))
    (x2 : (⟨Cert.ReferenceIdeal.S4096x4096, .f32⟩ : BufTy).Contents (Elt Ideal)) (x3 : (⟨Cert.ReferenceIdeal.S4096, .f32⟩ : BufTy).Contents (Elt Ideal))
    (x4 : (⟨Cert.ReferenceIdeal.S4096x4096, .f32⟩ : BufTy).Contents (Elt Ideal)) (x5 : (⟨Cert.ReferenceIdeal.S4096, .f32⟩ : BufTy).Contents (Elt Ideal))
    (l : Fin 256) (e : Fin 4096) :
    Cert.ReferenceIdeal.Read.val_main_v25 (F := Ideal) x0 x1 x2 x3 x4 x5 (ValueIdx.ix3 (0 : Fin 1) l e)
      = Cert.AttnSpec.attend (fun (n : Fin 8192) (k : Fin 4096) => x0 (ValueIdx.ix3 (0 : Fin 1) n k)) (fun (l : Fin 256) (d : Fin 4096) => x1 (ValueIdx.ix2 l d))
          (fun (d k : Fin 4096) => x2 (ValueIdx.ix2 d k)) (fun (d : Fin 4096) => x3 (ValueIdx.ix1 d))
          (fun (e k : Fin 4096) => x4 (ValueIdx.ix2 e k)) (fun (e : Fin 4096) => x5 (ValueIdx.ix1 e)) l e := by
  rw [val_main_v25_apply, out_index, val_main_v24_apply]
  show _ = mix (scoreRow x0 x1 x2 x3 l) (fun n => proj (srcM x0) (wgtM x4) (biasV x5) n e)
  unfold mix
  refine Finset.sum_congr rfl fun n _ => ?_
  rw [mix_lhs, mix_rhs, val_main_v23_apply, Ideal.hostDivf_def, val_main_v22_apply, val_main_v21_apply, row_of', expo_at, denom_at,
    values_at]

end Cert.RefSpec

end
-- ==== Proof.Bridge.lean ====
/-
  The two programs compute one function. On the extended reals the kernel program's result, read off its run, is the
  attention specification of the six arguments: region 0 leaves the keys and region 1 the values (an affine projection of the
  source rows each: a sum over the whole contraction axis, the grid only having cut it in four), and region 2 leaves the
  softmax-weighted combination of the value rows — computed tile by tile with a running maximum, which equals the plain softmax
  because every score is a real number: the inputs are finite by the precondition, and finite sums of products of reals are
  real. The reference program's generated run ends at the same specification of arguments that agree.
-/
import proofs.«100994_j40140764348434_2_alg».proof.Proof.HostReads
import proofs.«100994_j40140764348434_2_alg».proof.Proof.Val0
import proofs.«100994_j40140764348434_2_alg».proof.Proof.Val1
import proofs.«100994_j40140764348434_2_alg».proof.Proof.Val2
import proofs.«100994_j40140764348434_2_alg».proof.Proof.FiniteInputs
import proofs.«100994_j40140764348434_2_alg».proof.Proof.Gen.Pre_finite_inputs
import proofs.«100994_j40140764348434_2_alg».proof.Proof.RefSpec
import proofs.«100994_j40140764348434_2_alg».proof.Defs

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

open Cert.AttnSpec

/-! ## Finite sums of products of reals are real -/

theorem coe_sum_real {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- An affine projection of real data is real. -/
theorem proj_real {N D E : ℕ} (x : Fin N → Fin D → EReal) (W : Fin E → Fin D → EReal) (b : Fin E → EReal)
    (hx : ∀ n k, ∃ r : ℝ, x n k = (r : EReal)) (hW : ∀ d k, ∃ r : ℝ, W d k = (r : EReal)) (hb : ∀ d, ∃ r : ℝ, b d = (r : EReal))
    (n : Fin N) (d : Fin E) : ∃ r : ℝ, proj x W b n d = (r : EReal) := by
  choose xr hxr using hx
  choose Wr hWr using hW
  choose br hbr using hb
  refine ⟨(∑ k, xr n k * Wr d k) + br d, ?_⟩
  unfold proj
  rw [EReal.coe_add, coe_sum_real, hbr]
  congr 1
  exact Finset.sum_congr rfl fun k _ => by rw [hxr, hWr, EReal.coe_mul]

/-! ## The arguments as plain matrices and vectors -/

abbrev xM (c : Dev nD) : Fin 8192 → Fin 4096 → EReal := fun n k => m ((c : Thread nD τ).loc main_arg0) (ix3 (0 : Fin 1) n k)
abbrev qM (c : Dev nD) : Fin 256 → Fin 4096 → EReal := fun l d => m ((c : Thread nD τ).loc main_arg1) (ix2 l d)
abbrev wkM (c : Dev nD) : Fin 4096 → Fin 4096 → EReal := fun d k => m ((c : Thread nD τ).loc main_arg2) (ix2 d k)
abbrev bkV (c : Dev nD) : Fin 4096 → EReal := fun d => m ((c : Thread nD τ).loc main_arg3) (ix1 d)
abbrev wvM (c : Dev nD) : Fin 4096 → Fin 4096 → EReal := fun e k => m ((c : Thread nD τ).loc main_arg4) (ix2 e k)
abbrev bvV (c : Dev nD) : Fin 4096 → EReal := fun e => m ((c : Thread nD τ).loc main_arg5) (ix1 e)

/-! ## What the regions leave -/

/-- The keys region 2 reads are the affine projection of the source rows by the keys' weight and bias. -/
theorem keys_at (c : Dev nD) (n : Fin 8192) (d : Fin 4096) :
    (Vr3 m ρ c main_v8 (ix2 n d) : EReal) = proj (xM m c) (wkM m c) (bkV m c) n d := by
  rw [r2_k, keys_final (Vr1 m ρ) c n d]
  unfold proj
  exact congrArg₂ (fun a b : EReal => a + b)
    (Finset.sum_congr rfl fun k _ => congrArg₂ (fun a b : EReal => a * b) (src_at m ρ c n k) (wk_at m ρ c k d))
    (bk_at m ρ c d)

/-- The values region 2 reads are the affine projection of the source rows by the values' weight and bias. -/
theorem values_at (c : Dev nD) (n : Fin 8192) (e : Fin 4096) :
    (Vr3 m ρ c main_v9 (ix2 n e) : EReal) = proj (xM m c) (wvM m c) (bvV m c) n e := by
  rw [r2_v, values_final (Vr2 m ρ) c n e]
  unfold proj
  exact congrArg₂ (fun a b : EReal => a + b)
    (Finset.sum_congr rfl fun k _ => congrArg₂ (fun a b : EReal => a * b)
      ((congrFun (r1_src m ρ c) _).trans (src_at m ρ c n k)) ((congrFun (r1_w m ρ c) _).trans (wv_at m ρ c k e)))
    ((congrFun (r1_b m ρ c) _).trans (bv_at m ρ c e))

/-- The result buffer at the end of the kernel program's run is the specification of the arguments. -/
theorem out_at (hpre : Cert.Pre_KernelIdeal m) (c : Dev nD) (l : Fin 256) (e : Fin 4096) :
    (W5 m ρ c (Proc.devRef .tc main_v11) (ix3 (0 : Fin 1) l e) : EReal)
      = attend (xM m c) (qM m c) (wkM m c) (bkV m c) (wvM m c) (bvV m c) l e := by
  obtain ⟨h0, h1, h2, h3, h4, h5⟩ := Cert.FiniteInputs.reals_of_pre m hpre c
  have hq : ∀ (l : Fin 256) (d : Fin 4096), ∃ r : ℝ, Vr3 m ρ c main_arg1 (ix2 l d) = (r : EReal) := fun l d => by
    rw [r2_q]; exact h1 _
  have hk : ∀ (n : Fin 8192) (d : Fin 4096), ∃ r : ℝ, Vr3 m ρ c main_v8 (ix2 n d) = (r : EReal) := fun n d => by
    rw [keys_at]; exact proj_real _ _ _ (fun _ _ => h0 _) (fun _ _ => h2 _) (fun _ => h3 _) n d
  have hv : ∀ (n : Fin 8192) (e : Fin 4096), ∃ r : ℝ, Vr3 m ρ c main_v9 (ix2 n e) = (r : EReal) := fun n e => by
    rw [values_at]; exact proj_real _ _ _ (fun _ _ => h0 _) (fun _ _ => h4 _) (fun _ => h5 _) n e
  rw [result_at, attn_final (Vr3 m ρ) c hq hk hv l e]
  unfold attend
  have hK : (fun (n : Fin 8192) (d : Fin 4096) => Vr3 m ρ c main_v8 (ix2 n d)) = proj (xM m c) (wkM m c) (bkV m c) :=
    funext fun n => funext fun d => keys_at m ρ c n d
  have hV : (fun n : Fin 8192 => Vr3 m ρ c main_v9 (ix2 n e)) = fun n => proj (xM m c) (wvM m c) (bvV m c) n e :=
    funext fun n => values_at m ρ c n e
  have hQ : (fun (l : Fin 256) (d : Fin 4096) => Vr3 m ρ c main_arg1 (ix2 l d)) = qM m c := by
    funext l d; rw [r2_q]
  rw [hK, hV, hQ]

end Cert.KernelIdeal.Val

/-! ## The claims -/

namespace Cert.Proof.Claims

open Cert.KernelIdeal Cert.KernelIdeal.Gen Cert.KernelIdeal.Fr Cert.KernelIdeal.Val
open Idealize.ShloMosaic Idealize.ShloMosaic.TcCoe Idealize.ShloMosaic.ValueIdx Idealize.SL.Sem

/-- The reference program runs, and its arguments end unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the attention specification of arguments that agree. -/
theorem algebraic : Cert.algebraic_KernelIdeal_ReferenceIdeal := by
  intro m ρ m' ρ' hpre hagree
  refine ⟨fun c => W5 m ρ c (Proc.devRef .tc main_v11), ?_, ?_⟩
  · exact (θ_run defs _ _).mono (fun _ h c =>
      ⟨h c _ (mem_uc main_v11 (by decide)),
       (h c _ (mem_uc main_arg0 (by decide))).trans (W5_keep m ρ c main_arg0 (by decide) (by decide) (by decide) (by decide) (by decide)),
       (h c _ (mem_uc main_arg1 (by decide))).trans (W5_main_arg1 m ρ c),
       (h c _ (mem_uc main_arg2 (by decide))).trans (W5_keep m ρ c main_arg2 (by decide) (by decide) (by decide) (by decide) (by decide)),
       (h c _ (mem_uc main_arg3 (by decide))).trans (W5_keep m ρ c main_arg3 (by decide) (by decide) (by decide) (by decide) (by decide)),
       (h c _ (mem_uc main_arg4 (by decide))).trans (W5_keep m ρ c main_arg4 (by decide) (by decide) (by decide) (by decide) (by decide)),
       (h c _ (mem_uc main_arg5 (by decide))).trans (W5_keep m ρ c main_arg5 (by decide) (by decide) (by decide) (by decide) (by decide))⟩)
      (run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1,
      (hagree c).2.2.2.2.1, (hagree c).2.2.2.2.2]
    funext i
    obtain ⟨a, l, e, rfl⟩ : ∃ (a : Fin 1) (l : Fin 256) (e : Fin 4096), i = ix3 a l e := ⟨i 0, i 1, i 2, eq_ix3 i⟩
    obtain rfl : a = 0 := Subsingleton.elim _ _
    rw [Cert.RefSpec.ref_is_spec]
    exact (out_at m ρ hpre c l e).symm

end Cert.Proof.Claims

end
-- ==== Proof.lean ====
/-
  The certificate of the attention kernel against its reference.

  The kernel program is three pipelined regions — the keys projection, the values projection, and attention over key/value
  tiles with a running softmax — between a few host operations; the reference is the textbook chain of matrix products and a
  row softmax. The word-level kernel and its idealization each run to the end, fault nowhere and leave their arguments
  unchanged (each region's body runs case by case of its two conditionals, an accumulator scratch carried from grid point to
  grid point through the region's invariant); the idealization rewrote nothing; and on the extended reals the two idealized
  programs end with equal results when every input is finite.
-/
import proofs.«100994_j40140764348434_2_alg».proof.Defs
import proofs.«100994_j40140764348434_2_alg».proof.Proof.KFrameRun
import proofs.«100994_j40140764348434_2_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.Proof.Claims.frame_ri,
  trivial,
  Cert.Proof.Claims.algebraic⟩

end Cert.Proof

end
